-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part8 {F : FTy → Type} [FloatOps F] (main_arg29 : FVec F S10 .f32) (main_v133 : IVec S_ 1) (main_v136 : IVec S32x10 1) : IVec S_ 1 :=
  let main_c_53 : IVec S_ 1 := constantI S_ 1 1#1
  let main_v137 : IVec S_ 1 := (fun x v => Host.reduce IntOp.andi x v reducesTo_S32x10_S_d0_1 h_S_) main_v136 main_c_53
  let main_v138 : IVec S_ 1 := andi main_v133 main_v137
  let main_v139 : FVec F S10 .f32 := Host.absf main_arg29
  let main_cst_54 : FVec F S_ .f32 := constant S_ .f32 0x7F800000#32
  let main_v140 : FVec F S10 .f32 := broadcastInDim S10 ![] bcast_S_S10 main_cst_54
  let main_v141 : IVec S10 1 := cmpf .olt main_v139 main_v140
  let main_c_55 : IVec S_ 1 := constantI S_ 1 1#1
  let main_v142 : IVec S_ 1 := (fun x v => Host.reduce IntOp.andi x v reducesTo_S10_S_d0 h_S_) main_v141 main_c_55
  let main_v143 : IVec S_ 1 := andi main_v138 main_v142
  main_v143

def fn_part7 {F : FTy → Type} [FloatOps F] (main_arg26 : FVec F S32x32 .f32) (main_arg27 : FVec F S32 .f32) (main_arg28 : FVec F S32x10 .f32) (main_arg29 : FVec F S10 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32x32 .f32 := Host.absf main_arg26
  let main_cst_48 : FVec F S_ .f32 := constant S_ .f32 0x7F800000#32
  let main_v125 : FVec F S32x32 .f32 := broadcastInDim S32x32 ![] bcast_S_S32x32 main_cst_48
  let main_v126 : IVec S32x32 1 := cmpf .olt main_v124 main_v125
  let main_c_49 : IVec S_ 1 := constantI S_ 1 1#1
  let main_v127 : IVec S_ 1 := (fun x v => Host.reduce IntOp.andi x v reducesTo_S32x32_S_d0_1 h_S_) main_v126 main_c_49
  let main_v128 : IVec S_ 1 := andi main_v123 main_v127
  let main_v129 : FVec F S32 .f32 := Host.absf main_arg27
  let main_cst_50 : FVec F S_ .f32 := constant S_ .f32 0x7F800000#32
  let main_v130 : FVec F S32 .f32 := broadcastInDim S32 ![] bcast_S_S32 main_cst_50
  let main_v131 : IVec S32 1 := cmpf .olt main_v129 main_v130
  let main_c_51 : IVec S_ 1 := constantI S_ 1 1#1
  let main_v132 : IVec S_ 1 := (fun x v => Host.reduce IntOp.andi x v reducesTo_S32_S_d0 h_S_) main_v131 main_c_51
  let main_v133 : IVec S_ 1 := andi main_v128 main_v132
  let main_v134 : FVec F S32x10 .f32 := Host.absf main_arg28
  let main_cst_52 : FVec F S_ .f32 := constant S_ .f32 0x7F800000#32
  let main_v135 : FVec F S32x10 .f32 := broadcastInDim S32x10 ![] bcast_S_S32x10 main_cst_52
  let main_v136 : IVec S32x10 1 := cmpf .olt main_v134 main_v135
  fn_part8 (F := F) main_arg29 main_v133 main_v136

def fn_part6 {F : FTy → Type} [FloatOps F] (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S32x10 .f32) (main_arg29 : FVec F S10 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32 .f32 := Host.absf main_arg22
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S32 .f32 := Host.absf main_arg23
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32 .f32 := Host.absf main_arg24
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S32 .f32 := Host.absf main_arg25
  fn_part7 (F := F) main_arg26 main_arg27 main_arg28 main_arg29 main_v118 main_v119

def fn_part5 {F : FTy → Type} [FloatOps F] (main_arg19 : FVec F S32 .f32) (main_arg20 : FVec F S32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S32x10 .f32) (main_arg29 : FVec F S10 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg20
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg21
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg22 main_arg23 main_arg24 main_arg25 main_arg26 main_arg27 main_arg28 main_arg29 main_v98 main_v101 main_c_39

def fn_part4 {F : FTy → Type} [FloatOps F] (main_arg15 : FVec F S32 .f32) (main_arg16 : FVec F S32 .f32) (main_arg17 : FVec F S32 .f32) (main_arg18 : FVec F S32 .f32) (main_arg19 : FVec F S32 .f32) (main_arg20 : FVec F S32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S32x10 .f32) (main_arg29 : FVec F S10 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_v83 main_v84 main_cst_32

def fn_part3 {F : FTy → Type} [FloatOps F] (main_arg12 : FVec F S32x32 .f32) (main_arg13 : FVec F S32 .f32) (main_arg14 : FVec F S32 .f32) (main_arg15 : FVec F S32 .f32) (main_arg16 : FVec F S32 .f32) (main_arg17 : FVec F S32 .f32) (main_arg18 : FVec F S32 .f32) (main_arg19 : FVec F S32 .f32) (main_arg20 : FVec F S32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S32x10 .f32) (main_arg29 : FVec F S10 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg12
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg8 : FVec F S32x32 .f32) (main_arg9 : FVec F S32 .f32) (main_arg10 : FVec F S32x32 .f32) (main_arg11 : FVec F S32 .f32) (main_arg12 : FVec F S32x32 .f32) (main_arg13 : FVec F S32 .f32) (main_arg14 : FVec F S32 .f32) (main_arg15 : FVec F S32 .f32) (main_arg16 : FVec F S32 .f32) (main_arg17 : FVec F S32 .f32) (main_arg18 : FVec F S32 .f32) (main_arg19 : FVec F S32 .f32) (main_arg20 : FVec F S32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S32x10 .f32) (main_arg29 : FVec F S10 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x32 .f32) (main_arg13 : FVec F S32 .f32) (main_arg14 : FVec F S32 .f32) (main_arg15 : FVec F S32 .f32) (main_arg16 : FVec F S32 .f32) (main_arg17 : FVec F S32 .f32) (main_arg18 : FVec F S32 .f32) (main_arg19 : FVec F S32 .f32) (main_arg20 : FVec F S32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S32x10 .f32) (main_arg29 : FVec F S10 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x128 .f32) (main_arg1 : IVec S2x800000 32) (main_arg2 : FVec F S128x32 .f32) (main_arg3 : FVec F S32 .f32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x32 .f32) (main_arg13 : FVec F S32 .f32) (main_arg14 : FVec F S32 .f32) (main_arg15 : FVec F S32 .f32) (main_arg16 : FVec F S32 .f32) (main_arg17 : FVec F S32 .f32) (main_arg18 : FVec F S32 .f32) (main_arg19 : FVec F S32 .f32) (main_arg20 : FVec F S32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S32x10 .f32) (main_arg29 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x128 : Shape := ⟨2, ![50000, 128]⟩
abbrev S2x800000 : Shape := ⟨2, ![2, 800000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x32 : Shape := ⟨2, ![1, 32]⟩
abbrev S50000x32 : Shape := ⟨2, ![50000, 32]⟩
abbrev S5000x128 : Shape := ⟨2, ![5000, 128]⟩
abbrev S5000x32 : Shape := ⟨2, ![5000, 32]⟩
abbrev S800000x32 : Shape := ⟨2, ![800000, 32]⟩
abbrev S1x10 : Shape := ⟨2, ![1, 10]⟩
abbrev S50000x10 : Shape := ⟨2, ![50000, 10]⟩
abbrev S5000x10 : Shape := ⟨2, ![5000, 10]⟩
abbrev S5000 : Shape := ⟨1, ![5000]⟩
abbrev S5000x1 : Shape := ⟨2, ![5000, 1]⟩

abbrev nBuf : Space → Nat
  | .hbm => 97
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S32x32, .f32⟩
  | .hbm, ⟨27, _⟩ => ⟨S32, .f32⟩
  | .hbm, ⟨28, _⟩ => ⟨S32x10, .f32⟩
  | .hbm, ⟨29, _⟩ => ⟨S10, .f32⟩
  | .hbm, ⟨30, _⟩ => ⟨S1x800000, .i32⟩
  | .hbm, ⟨31, _⟩ => ⟨S800000, .i32⟩
  | .hbm, ⟨32, _⟩ => ⟨S1x800000, .i32⟩
  | .hbm, ⟨33, _⟩ => ⟨S800000, .i32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x32, .f32⟩
  | .hbm, ⟨48, _⟩ => ⟨S1x32, .f32⟩
  | .hbm, ⟨49, _⟩ => ⟨S1x32, .f32⟩
  | .hbm, ⟨50, _⟩ => ⟨S1x32, .f32⟩
  | .hbm, ⟨51, _⟩ => ⟨S1x32, .f32⟩
  | .hbm, ⟨52, _⟩ => ⟨S1x32, .f32⟩
  | .hbm, ⟨53, _⟩ => ⟨S50000x32, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x32, .f32⟩
  | .hbm, ⟨63, _⟩ => ⟨S_, .f32⟩
  | .hbm, ⟨64, _⟩ => ⟨S50000x32, .f32⟩
  | .hbm, ⟨65, _⟩ => ⟨S800000x1, .i32⟩
  | .hbm, ⟨66, _⟩ => ⟨S50000x32, .f32⟩
  | .hbm, ⟨67, _⟩ => ⟨S1x32, .f32⟩
  | .hbm, ⟨68, _⟩ => ⟨S1x32, .f32⟩
  | .hbm, ⟨69, _⟩ => ⟨S1x32, .f32⟩
  | .hbm, ⟨70, _⟩ => ⟨S1x32, .f32⟩
  | .hbm, ⟨71, _⟩ => ⟨S1x32, .f32⟩
  | .hbm, ⟨72, _⟩ => ⟨S1x32, .f32⟩
  | .hbm, ⟨73, _⟩ => ⟨S50000x32, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x32, .f32⟩
  | .hbm, ⟨83, _⟩ => ⟨S_, .f32⟩
  | .hbm, ⟨84, _⟩ => ⟨S50000x32, .f32⟩
  | .hbm, ⟨85, _⟩ => ⟨S800000x1, .i32⟩
  | .hbm, ⟨86, _⟩ => ⟨S50000x32, .f32⟩
  | .hbm, ⟨87, _⟩ => ⟨S1x32, .f32⟩
  | .hbm, ⟨88, _⟩ => ⟨S1x32, .f32⟩
  | .hbm, ⟨89, _⟩ => ⟨S1x32, .f32⟩
  | .hbm, ⟨90, _⟩ => ⟨S1x32, .f32⟩
  | .hbm, ⟨91, _⟩ => ⟨S1x32, .f32⟩
  | .hbm, ⟨92, _⟩ => ⟨S1x32, .f32⟩
  | .hbm, ⟨93, _⟩ => ⟨S50000x32, .f32⟩
  | .hbm, ⟨94, _⟩ => ⟨S1x32, .f32⟩
  | .hbm, ⟨95, _⟩ => ⟨S1x10, .f32⟩
  | .hbm, ⟨96, _⟩ => ⟨S50000x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S32x32, .f32⟩
  | .local _ .vmem, ⟨19, _⟩ => ⟨S1x32, .f32⟩
  | .local _ .vmem, ⟨20, _⟩ => ⟨S32x32, .f32⟩
  | .local _ .vmem, ⟨21, _⟩ => ⟨S1x32, .f32⟩
  | .local _ .vmem, ⟨22, _⟩ => ⟨S1x32, .f32⟩
  | .local _ .vmem, ⟨23, _⟩ => ⟨S1x32, .f32⟩
  | .local _ .vmem, ⟨24, _⟩ => ⟨S1x32, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S32x32, .f32⟩
  | .local _ .vmem, ⟨33, _⟩ => ⟨S1x32, .f32⟩
  | .local _ .vmem, ⟨34, _⟩ => ⟨S32x32, .f32⟩
  | .local _ .vmem, ⟨35, _⟩ => ⟨S1x32, .f32⟩
  | .local _ .vmem, ⟨36, _⟩ => ⟨S1x32, .f32⟩
  | .local _ .vmem, ⟨37, _⟩ => ⟨S1x32, .f32⟩
  | .local _ .vmem, ⟨38, _⟩ => ⟨S1x32, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S32x32, .f32⟩
  | .local _ .vmem, ⟨45, _⟩ => ⟨S1x32, .f32⟩
  | .local _ .vmem, ⟨46, _⟩ => ⟨S32x10, .f32⟩
  | .local _ .vmem, ⟨47, _⟩ => ⟨S1x10, .f32⟩
  | .local _ .vmem, ⟨48, _⟩ => ⟨S5000x10, .f32⟩
  | .local _ .vmem, ⟨49, _⟩ => ⟨S5000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_v4 : Ref sig .tc := ⟨.hbm, 35, rfl⟩
abbrev main_v5 : Ref sig .tc := ⟨.hbm, 36, rfl⟩
abbrev main_c_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_1 : Ref sig .tc := ⟨.hbm, 54, rfl⟩
abbrev main_v21 : Ref sig .tc := ⟨.hbm, 55, rfl⟩
abbrev main_v22 : Ref sig .tc := ⟨.hbm, 56, rfl⟩
abbrev main_c_2 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_3 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_4 : Ref sig .tc := ⟨.hbm, 74, rfl⟩
abbrev main_v38 : Ref sig .tc := ⟨.hbm, 75, rfl⟩
abbrev main_v39 : Ref sig .tc := ⟨.hbm, 76, rfl⟩
abbrev main_c_5 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_6 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg5_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem2_0 : DmaSem sig := 45
abbrev cc3_sem3_0 : DmaSem sig := 46
abbrev cc3_sem4_0 : DmaSem sig := 47
abbrev cc3_sem5_0 : DmaSem sig := 48
abbrev cc3_sem5_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x10 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x32_S128x32_0_0 : ∀ a, (![0, 0] : Fin 2 → Nat) a + S128x32.size a ≤ S128x32.size a
  h_S128x32 : 0 < S128x32.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  shapeCasts_S5000x32_S5000x32 : S5000x32.ShapeCasts S5000x32
  shapeCasts_S10_S1x10 : S10.ShapeCasts S1x10
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x32_S5000x32_1_0_0_1_n_n_wf : DotDims.WF S5000x128 S128x32 S5000x32 [1] [0] [0] [1] [] []
  dot_S5000x32_S32x32_S5000x32_1_0_0_1_n_n_wf : DotDims.WF S5000x32 S32x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S5000x32_S32x10_S5000x10_1_0_0_1_n_n_wf : DotDims.WF S5000x32 S32x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x32.size a ≤ S50000x32.size a
  hwx0_10 : ∀ i : grid0.Coords, EltTy.bits .f32 = 32 ∨ (Rect.block (s := S50000x32) S5000x32.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x32.size a ≤ S50000x32.size a
  hwx1_10 : ∀ i : grid1.Coords, EltTy.bits .f32 = 32 ∨ (Rect.block (s := S50000x32) S5000x32.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S50000x32.size a
  hwx2_1 : ∀ i : grid2.Coords, EltTy.bits .f32 = 32 ∨ (Rect.block (s := S50000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32.size a ≤ S1x32.size a
  hwx2_9 : ∀ i : grid2.Coords, EltTy.bits .f32 = 32 ∨ (Rect.block (s := S1x32) S1x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x32.size a ≤ S50000x32.size a
  hwx2_10 : ∀ i : grid2.Coords, EltTy.bits .f32 = 32 ∨ (Rect.block (s := S50000x32) S5000x32.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x10.size a ≤ S32x10.size a
  hwx3_3 : ∀ i : grid3.Coords, EltTy.bits .f32 = 32 ∨ (Rect.block (s := S32x10) S32x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x10.size a ≤ S50000x10.size a
  hwx3_5 : ∀ i : grid3.Coords, EltTy.bits .f32 = 32 ∨ (Rect.block (s := S50000x10) S5000x10.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S5000x32_S32x10_S5000x10_1_0_0_1_n_n : DotDims S5000x32 S32x10 S5000x10 where
  lhsContracting := [1]
  rhsContracting := [0]
  lhsNonContracting := [0]
  rhsNonContracting := [1]
  lhsBatch := []
  rhsBatch := []
  wf := dot_S5000x32_S32x10_S5000x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S5000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37) S5000x32.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v37) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v51) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v52) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v53) S1x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v54) S5000x32.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v54) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg26) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg28) S32x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S5000x10.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x32 : Shape := ⟨2, ![50000, 32]⟩
abbrev S1x32 : Shape := ⟨2, ![1, 32]⟩
abbrev S800000x32 : Shape := ⟨2, ![800000, 32]⟩
abbrev S50000x10 : Shape := ⟨2, ![50000, 10]⟩
abbrev S1x10 : Shape := ⟨2, ![1, 10]⟩
abbrev S50000 : Shape := ⟨1, ![50000]⟩
abbrev S50000x1 : Shape := ⟨2, ![50000, 1]⟩

abbrev nBuf : Space → Nat
  | .hbm => 192
  | .vmem => 0
  | .smem => 0
  | _ => 0

abbrev hbmTy0_0 (i : Nat) : BufTy := match i % 128 with
  | 0 => ⟨S50000x128, .f32⟩
  | 1 => ⟨S2x800000, .i32⟩
  | 2 => ⟨S128x32, .f32⟩
  | 3 => ⟨S32, .f32⟩
  | 4 => ⟨S32x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S32x32, .f32⟩
  | 11 => ⟨S32, .f32⟩
  | 12 => ⟨S32x32, .f32⟩
  | 13 => ⟨S32, .f32⟩
  | 14 => ⟨S32, .f32⟩
  | 15 => ⟨S32, .f32⟩
  | 16 => ⟨S32, .f32⟩
  | 17 => ⟨S32, .f32⟩
  | 18 => ⟨S32, .f32⟩
  | 19 => ⟨S32, .f32⟩
  | 20 => ⟨S32, .f32⟩
  | 21 => ⟨S32, .f32⟩
  | 22 => ⟨S32, .f32⟩
  | 23 => ⟨S32, .f32⟩
  | 24 => ⟨S32, .f32⟩
  | 25 => ⟨S32, .f32⟩
  | 26 => ⟨S32x32, .f32⟩
  | 27 => ⟨S32, .f32⟩
  | 28 => ⟨S32x10, .f32⟩
  | 29 => ⟨S10, .f32⟩
  | 30 => ⟨S1x800000, .i32⟩
  | 31 => ⟨S800000, .i32⟩
  | 32 => ⟨S1x800000, .i32⟩
  | 33 => ⟨S800000, .i32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x128, .f32⟩
  | 48 => ⟨S50000x32, .f32⟩
  | 49 => ⟨S1x32, .f32⟩
  | 50 => ⟨S50000x32, .f32⟩
  | 51 => ⟨S50000x32, .f32⟩
  | 52 => ⟨S_, .f32⟩
  | 53 => ⟨S50000x32, .f32⟩
  | 54 => ⟨S50000x32, .f32⟩
  | 55 => ⟨S50000x32, .f32⟩
  | 56 => ⟨S1x32, .f32⟩
  | 57 => ⟨S50000x32, .f32⟩
  | 58 => ⟨S50000x32, .f32⟩
  | 59 => ⟨S_, .f32⟩
  | 60 => ⟨S50000x32, .f32⟩
  | 61 => ⟨S50000x32, .f32⟩
  | 62 => ⟨S1x32, .f32⟩
  | 63 => ⟨S50000x32, .f32⟩
  | 64 => ⟨S50000x32, .f32⟩
  | 65 => ⟨S_, .f32⟩
  | 66 => ⟨S32, .f32⟩
  | 67 => ⟨S32, .f32⟩
  | 68 => ⟨S32, .f32⟩
  | 69 => ⟨S1x32, .f32⟩
  | 70 => ⟨S50000x32, .f32⟩
  | 71 => ⟨S50000x32, .f32⟩
  | 72 => ⟨S1x32, .f32⟩
  | 73 => ⟨S50000x32, .f32⟩
  | 74 => ⟨S50000x32, .f32⟩
  | 75 => ⟨S1x32, .f32⟩
  | 76 => ⟨S50000x32, .f32⟩
  | 77 => ⟨S50000x32, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x32, .f32⟩
  | 87 => ⟨S_, .f32⟩
  | 88 => ⟨S50000x32, .f32⟩
  | 89 => ⟨S800000x1, .i32⟩
  | 90 => ⟨S50000x32, .f32⟩
  | 91 => ⟨S50000x32, .f32⟩
  | 92 => ⟨S50000x32, .f32⟩
  | 93 => ⟨S1x32, .f32⟩
  | 94 => ⟨S50000x32, .f32⟩
  | 95 => ⟨S50000x32, .f32⟩
  | 96 => ⟨S_, .f32⟩
  | 97 => ⟨S50000x32, .f32⟩
  | 98 => ⟨S50000x32, .f32⟩
  | 99 => ⟨S50000x32, .f32⟩
  | 100 => ⟨S1x32, .f32⟩
  | 101 => ⟨S50000x32, .f32⟩
  | 102 => ⟨S50000x32, .f32⟩
  | 103 => ⟨S_, .f32⟩
  | 104 => ⟨S50000x32, .f32⟩
  | 105 => ⟨S50000x32, .f32⟩
  | 106 => ⟨S1x32, .f32⟩
  | 107 => ⟨S50000x32, .f32⟩
  | 108 => ⟨S50000x32, .f32⟩
  | 109 => ⟨S_, .f32⟩
  | 110 => ⟨S32, .f32⟩
  | 111 => ⟨S32, .f32⟩
  | 112 => ⟨S32, .f32⟩
  | 113 => ⟨S1x32, .f32⟩
  | 114 => ⟨S50000x32, .f32⟩
  | 115 => ⟨S50000x32, .f32⟩
  | 116 => ⟨S1x32, .f32⟩
  | 117 => ⟨S50000x32, .f32⟩
  | 118 => ⟨S50000x32, .f32⟩
  | 119 => ⟨S1x32, .f32⟩
  | 120 => ⟨S50000x32, .f32⟩
  | 121 => ⟨S50000x32, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x32, .f32⟩
  | 3 => ⟨S_, .f32⟩
  | 4 => ⟨S50000x32, .f32⟩
  | 5 => ⟨S800000x1, .i32⟩
  | 6 => ⟨S50000x32, .f32⟩
  | 7 => ⟨S50000x32, .f32⟩
  | 8 => ⟨S50000x32, .f32⟩
  | 9 => ⟨S1x32, .f32⟩
  | 10 => ⟨S50000x32, .f32⟩
  | 11 => ⟨S50000x32, .f32⟩
  | 12 => ⟨S_, .f32⟩
  | 13 => ⟨S50000x32, .f32⟩
  | 14 => ⟨S50000x32, .f32⟩
  | 15 => ⟨S50000x32, .f32⟩
  | 16 => ⟨S1x32, .f32⟩
  | 17 => ⟨S50000x32, .f32⟩
  | 18 => ⟨S50000x32, .f32⟩
  | 19 => ⟨S_, .f32⟩
  | 20 => ⟨S50000x32, .f32⟩
  | 21 => ⟨S50000x32, .f32⟩
  | 22 => ⟨S1x32, .f32⟩
  | 23 => ⟨S50000x32, .f32⟩
  | 24 => ⟨S50000x32, .f32⟩
  | 25 => ⟨S_, .f32⟩
  | 26 => ⟨S32, .f32⟩
  | 27 => ⟨S32, .f32⟩
  | 28 => ⟨S32, .f32⟩
  | 29 => ⟨S1x32, .f32⟩
  | 30 => ⟨S50000x32, .f32⟩
  | 31 => ⟨S50000x32, .f32⟩
  | 32 => ⟨S1x32, .f32⟩
  | 33 => ⟨S50000x32, .f32⟩
  | 34 => ⟨S50000x32, .f32⟩
  | 35 => ⟨S1x32, .f32⟩
  | 36 => ⟨S50000x32, .f32⟩
  | 37 => ⟨S50000x32, .f32⟩
  | 38 => ⟨S50000x32, .f32⟩
  | 39 => ⟨S1x32, .f32⟩
  | 40 => ⟨S50000x32, .f32⟩
  | 41 => ⟨S50000x32, .f32⟩
  | 42 => ⟨S_, .f32⟩
  | 43 => ⟨S50000x32, .f32⟩
  | 44 => ⟨S50000x32, .f32⟩
  | 45 => ⟨S50000x10, .f32⟩
  | 46 => ⟨S1x10, .f32⟩
  | 47 => ⟨S50000x10, .f32⟩
  | 48 => ⟨S50000x10, .f32⟩
  | 49 => ⟨S_, .f32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x10, .f32⟩
  | 56 => ⟨S50000x10, .f32⟩
  | 57 => ⟨S50000x10, .f32⟩
  | 58 => ⟨S_, .f32⟩
  | 59 => ⟨S50000, .f32⟩
  | 60 => ⟨S50000x1, .f32⟩
  | 61 => ⟨S50000x1, .f32⟩
  | 62 => ⟨S50000x10, .f32⟩
  | 63 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_v4 : Ref sig .tc := ⟨.hbm, 35, rfl⟩
abbrev main_v5 : Ref sig .tc := ⟨.hbm, 36, rfl⟩
abbrev main_c_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_1 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_3 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_4 : Ref sig .tc := ⟨.hbm, 78, rfl⟩
abbrev main_v42 : Ref sig .tc := ⟨.hbm, 79, rfl⟩
abbrev main_v43 : Ref sig .tc := ⟨.hbm, 80, rfl⟩
abbrev main_c_5 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_6 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_7 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_8 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_9 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_c_10 : Ref sig .tc := ⟨.hbm, 122, rfl⟩
abbrev main_v80 : Ref sig .tc := ⟨.hbm, 123, rfl⟩
abbrev main_v81 : Ref sig .tc := ⟨.hbm, 124, rfl⟩
abbrev main_c_11 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_12 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_13 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_14 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_15 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_16 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_call0_cst : Ref sig .tc := ⟨.hbm, 177, rfl⟩
abbrev main_call0_v0 : Ref sig .tc := ⟨.hbm, 178, rfl⟩
abbrev main_call0_cst_0 : Ref sig .tc := ⟨.hbm, 179, rfl⟩
abbrev main_call0_v1 : Ref sig .tc := ⟨.hbm, 180, rfl⟩
abbrev main_call0_v2 : Ref sig .tc := ⟨.hbm, 181, rfl⟩
abbrev main_call0_v3 : Ref sig .tc := ⟨.hbm, 182, rfl⟩
abbrev main_call0_v4 : Ref sig .tc := ⟨.hbm, 183, rfl⟩
abbrev main_call0_v5 : Ref sig .tc := ⟨.hbm, 184, rfl⟩
abbrev main_call0_v6 : Ref sig .tc := ⟨.hbm, 185, rfl⟩
abbrev main_call0_cst_1 : Ref sig .tc := ⟨.hbm, 186, rfl⟩
abbrev main_call0_v7 : Ref sig .tc := ⟨.hbm, 187, rfl⟩
abbrev main_call0_v8 : Ref sig .tc := ⟨.hbm, 188, rfl⟩
abbrev main_call0_v9 : Ref sig .tc := ⟨.hbm, 189, rfl⟩
abbrev main_call0_v10 : Ref sig .tc := ⟨.hbm, 190, rfl⟩
abbrev main_v128 : Ref sig .tc := ⟨.hbm, 191, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S_S32 : S_.BroadcastsInDim S32 (![] : Fin 0 → Fin S32.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []
  dot_S50000x32_S32x32_S50000x32_1_0_0_1_n_n_wf : DotDims.WF S50000x32 S32x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S50000x32_S32x10_S50000x10_1_0_0_1_n_n_wf : DotDims.WF S50000x32 S32x10 S50000x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x32_S32x10_S50000x10_1_0_0_1_n_n : DotDims S50000x32 S32x10 S50000x10 where
  lhsContracting := [1]
  rhsContracting := [0]
  lhsNonContracting := [0]
  rhsNonContracting := [1]
  lhsBatch := []
  rhsBatch := []
  wf := dot_S50000x32_S32x10_S50000x10_1_0_0_1_n_n_wf

class Facts : Prop extends Facts₀ where

variable [Facts]
-- ==== Proof.KernelRun.lean ====
/-
  The idealized kernel's run with every buffer named. The program is four kernel regions among stretches of host
  operations; run from any memory with zero counters every weakly fair execution terminates, nothing faults, and each
  buffer that outlives the run ends at the contents the segment-by-segment fold of the program assigns to it: a host
  stretch applies its operations to the contents it finds, a region leaves each of its arrays at what its write-backs
  leave and every other buffer as it found it. In particular the result array ends at the fold's value there, and each
  argument array ends as launched.
-/
import proofs.«162331_j44805098832501_1_alg».proof.Proof.KernelIdealFrame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the run ends at the fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result array ends at the fold's contents there. -/
theorem run_result : θ_run defs (onTc (τ := τ) (main (F := F))) ⟨m, fun _ => 0, ρ⟩ (fun r => ∀ c : Dev nD,
      r.2.mem ((c.tc : Thread nD τ).loc main_v57) = W8 m ρ c (Proc.devRef .tc main_v57)) :=
  (θ_run defs _ _).mono (fun r h c => h c _ (mem_uc main_v57 (by decide))) (run_all m ρ)

/-- The result array ends at the fold's contents there, and every argument array ends as launched. -/
theorem run_named : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c =>
    ⟨h c _ (mem_uc main_v57 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c),
      (h c _ (mem_uc main_arg18 (by decide))).trans (W8_main_arg18 m ρ c),
      (h c _ (mem_uc main_arg19 (by decide))).trans (W8_main_arg19 m ρ c),
      (h c _ (mem_uc main_arg20 (by decide))).trans (W8_main_arg20 m ρ c),
      (h c _ (mem_uc main_arg21 (by decide))).trans (W8_main_arg21 m ρ c),
      (h c _ (mem_uc main_arg22 (by decide))).trans (W8_main_arg22 m ρ c),
      (h c _ (mem_uc main_arg23 (by decide))).trans (W8_main_arg23 m ρ c),
      (h c _ (mem_uc main_arg24 (by decide))).trans (W8_main_arg24 m ρ c),
      (h c _ (mem_uc main_arg25 (by decide))).trans (W8_main_arg25 m ρ c),
      (h c _ (mem_uc main_arg26 (by decide))).trans (W8_main_arg26 m ρ c),
      (h c _ (mem_uc main_arg27 (by decide))).trans (W8_main_arg27 m ρ c),
      (h c _ (mem_uc main_arg28 (by decide))).trans (W8_main_arg28 m ρ c),
      (h c _ (mem_uc main_arg29 (by decide))).trans (W8_main_arg29 m ρ c)⟩) (run_all m ρ)

end Cert.KernelIdeal.KRun

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«162331_j44805098832501_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSoftplusLayers.lean ====
/-
  The shifted softplus `log(1 + eˣ) − c` in the numerically stable spelling `max(x, 0) + log1p(exp(−|x − 0|))`, guarded by a
  test `(x − 0) ≠ (x − 0)` that never fires on the extended reals, and dense layers `rows · weights + bias row` with that
  activation between them, each in two spellings that denote one function of the extended reals:

  * a kernel body's — the rows of one block, the weights rounded to bf16 (the identity here), a matrix-unit product into a zero
    accumulator, the bias a `[1, M]` row repeated down the rows, the negation spelled `0 − y`, the never-firing test the ordered
    "not equal";
  * the host's — `dot_general`, the bias `[M]` lifted to `[1, M]` and then to `[A, M]`, the constants rank-0 arrays broadcast
    to the shape, `negate`, the test the unordered "not equal".

  Entry `(p, q)` of a layer reads row `p` of its input only, so a block of rows of the result is the result of that block of rows.
-/
import Idealize.ShloMosaic.PureOps.Ideal.Laws
import Idealize.ShloMosaic.Lib.ValueIdx
import Idealize.ShloMosaic.Lib.ValueLayout
import Idealize.ShloMosaic.Lib.Pipeline.Value
import proofs.«162331_j44805098832501_1_alg».proof.Proof.LibPlainDot
import proofs.«162331_j44805098832501_1_alg».proof.Proof.LibAffine

noncomputable section

namespace Idealize.ShloMosaic.SoftplusLayers

open Idealize.ShloMosaic.ValueIdx Idealize.ShloMosaic.Affine

/-! ## The activation on one extended real -/

/-- The f32 word of `0.0`, kept as a word: both spellings carry it, and only the step `0 − y = −y` evaluates it. -/
def zeroW : EReal := Ideal.ofBits .f32 0x00000000#32

/-- The f32 word the activation is shifted by (the float nearest `log 2`), never evaluated: both spellings carry the same word. -/
def shiftW : EReal := Ideal.ofBits .f32 0x3F317218#32

/-- `max(x, 0) + log1p(exp(−|x − 0|)) − c` behind the guard `(x − 0) ≠ (x − 0)`, which selects `x + 0` where it holds (nowhere). -/
def ssp (x : EReal) : EReal :=
  Scalar.select (Ideal.cmp .une (x - zeroW) (x - zeroW)) (x + zeroW)
    (max x zeroW + Ideal.log1p (Ideal.exp (-(max (x - zeroW) (-(x - zeroW)))))) - shiftW

/-- The kernel body's spelling of the same number: the ordered "not equal" and `0 − |·|`. -/
theorem ssp_kernel (x : EReal) :
    Scalar.select (Ideal.cmp .one (x - zeroW) (x - zeroW)) (x + zeroW)
      (max x zeroW + Ideal.log1p (Ideal.exp (zeroW - max (x - zeroW) (-(x - zeroW))))) - shiftW = ssp x := by
  have hz : zeroW - max (x - zeroW) (-(x - zeroW)) = -(max (x - zeroW) (-(x - zeroW))) := by
    rw [show zeroW = (0 : EReal) from Ideal.ofBits_zero_f32, zero_sub]
  rw [hz]
  rfl

/-! ## The activation on an array, in the two spellings -/

variable {s : Shape}

/-- The activation applied to every entry. -/
def sspV (x : FVec Ideal s .f32) : FVec Ideal s .f32 := fun i => ssp (x i)

/-- A kernel body's spelling on a vector: scalar constants splat to the shape. -/
def sspK (x : FVec Ideal s .f32) : FVec Ideal s .f32 :=
  subf (select (cmpf .one (subf x (broadcast s (Scalar.ofBits (F := Ideal) .f32 0x00000000#32))) (subf x (broadcast s (Scalar.ofBits (F := Ideal) .f32 0x00000000#32))))
      (addf x (broadcast s (Scalar.ofBits (F := Ideal) .f32 0x00000000#32)))
      (addf (maximumf x (broadcast s (Scalar.ofBits (F := Ideal) .f32 0x00000000#32)))
        (log1p (exp (subf (broadcast s (Scalar.ofBits (F := Ideal) .f32 0x00000000#32)) (absf (subf x (broadcast s (Scalar.ofBits (F := Ideal) .f32 0x00000000#32)))))))))
    (broadcast s (Scalar.ofBits (F := Ideal) .f32 0x3F317218#32))

theorem sspK_eq (x : FVec Ideal s .f32) : sspK x = sspV x := funext fun i => ssp_kernel (x i)

/-- The host's spelling: rank-0 constants broadcast to the shape, `abs`, `negate`, `exponential`, `log_plus_one`. -/
def sspH (h0 : (⟨0, ![]⟩ : Shape).BroadcastsInDim s ![]) (x : FVec Ideal s .f32) : FVec Ideal s .f32 :=
  subf (select (cmpf .une (subf x (broadcastInDim s ![] h0 (constant (F := Ideal) ⟨0, ![]⟩ .f32 0x00000000#32))) (subf x (broadcastInDim s ![] h0 (constant (F := Ideal) ⟨0, ![]⟩ .f32 0x00000000#32))))
      (addf x (broadcastInDim s ![] h0 (constant (F := Ideal) ⟨0, ![]⟩ .f32 0x00000000#32)))
      (addf (maximumf x (broadcastInDim s ![] h0 (constant (F := Ideal) ⟨0, ![]⟩ .f32 0x00000000#32)))
        (Host.log1p (Host.exp (Host.negf (Host.absf (subf x (broadcastInDim s ![] h0 (constant (F := Ideal) ⟨0, ![]⟩ .f32 0x00000000#32)))))))))
    (broadcastInDim s ![] h0 (constant (F := Ideal) ⟨0, ![]⟩ .f32 0x3F317218#32))

theorem sspH_eq (h0 : (⟨0, ![]⟩ : Shape).BroadcastsInDim s ![]) (x : FVec Ideal s .f32) : sspH h0 x = sspV x := rfl

/-! ## A dense layer in the two spellings -/

variable {A A' K H M : Nat}

/-- A kernel body's dense layer on a block of rows: rows and weights rounded to bf16, the matrix unit's product into a zero
    accumulator, the bias row (recast to its own shape) repeated down the rows. -/
def denseK (d : DotDims ⟨2, ![A, K]⟩ ⟨2, ![K, M]⟩ ⟨2, ![A, M]⟩) (ht : FTy.bf16.bits < FTy.f32.bits)
    (hc : (⟨2, ![1, M]⟩ : Shape).ShapeCasts ⟨2, ![1, M]⟩) (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    FVec Ideal ⟨2, ![A, M]⟩ .f32 :=
  addf (matmul d none (truncf .bf16 x ht) (truncf .bf16 w ht) (constant ⟨2, ![A, M]⟩ .f32 0x00000000#32))
    (broadcastTo ⟨2, ![A, M]⟩ (shapeCast ⟨2, ![1, M]⟩ b hc) hb)

/-- It is `rows · weights + bias row`, entry by entry. -/
theorem denseK_eq {d : DotDims ⟨2, ![A, K]⟩ ⟨2, ![K, M]⟩ ⟨2, ![A, M]⟩} (hd : d = DotDims.plain A K M)
    (ht : FTy.bf16.bits < FTy.f32.bits) (hc : (⟨2, ![1, M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    denseK d ht hc hb x w b = affine x (truncf .bf16 w ht) b := by
  subst hd
  funext i
  obtain ⟨p, q, rfl⟩ : ∃ (p : Fin A) (q : Fin M), i = ix2 p q := ⟨i 0, i 1, eq_ix2 i⟩
  unfold denseK
  rw [shapeCast_self]
  exact body_apply none x (truncf .bf16 w ht) b ht hb p q

/-- The host's dense layer on all the rows: `dot_general` plus the bias lifted to a row and then to the rows. -/
def denseH (d : DotDims ⟨2, ![A, K]⟩ ⟨2, ![K, M]⟩ ⟨2, ![A, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    FVec Ideal ⟨2, ![A, M]⟩ .f32 :=
  addf (Host.dotGeneral d none X W) (broadcastInDim ⟨2, ![A, M]⟩ ![0, 1] h2 (broadcastInDim ⟨2, ![1, M]⟩ ![1] h1 b))

/-- It is the same function of the weights rounded to bf16 and the bias recast to a row. -/
theorem denseH_eq {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (ht : FTy.bf16.bits < FTy.f32.bits) (hc : (⟨1, ![M]⟩ : Shape).ShapeCasts ⟨2, ![1, M]⟩)
    (X : FVec Ideal ⟨2, ![A, K]⟩ .f32) (W : FVec Ideal ⟨2, ![K, M]⟩ .f32) (b : FVec Ideal ⟨1, ![M]⟩ .f32) :
    denseH d h1 h2 X W b = affine X (truncf .bf16 W ht) (shapeCast ⟨2, ![1, M]⟩ b hc) := by
  subst hd
  exact (affine_eq_host none .single X W b ht hc h1 h2).symm

/-- Entry `(p, q)` of a dense layer reads row `p` of its input only: rows that agree give entries that agree. -/
theorem affine_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    affine Xb W b (ix2 p q) = affine X W b (ix2 r q) := by
  rw [affine_ix2, affine_ix2]
  congr 1
  exact Finset.sum_congr rfl fun k _ => by rw [h k]

/-! ## Two layers with the activation after each (an edge network), and two layers with the activation between (an output head) -/

/-- `ssp (ssp (X·W1 + b1)·W2 + b2)`. -/
def mlp2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  sspV (affine (sspV (affine X W1 b1)) W2 b2)

theorem mlp2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    mlp2 Xb W1 b1 W2 b2 (ix2 p q) = mlp2 X W1 b1 W2 b2 (ix2 r q) := by
  show ssp (affine (sspV (affine Xb W1 b1)) W2 b2 (ix2 p q)) = ssp (affine (sspV (affine X W1 b1)) W2 b2 (ix2 r q))
  refine congrArg ssp ?_
  exact affine_rows _ _ W2 b2 p r (fun k => congrArg ssp (affine_rows Xb X W1 b1 p r h k)) q

/-- `ssp (X·Wo + bo)·Wp + bp`. -/
def proj2 {φ1 φ2 : FTy} (X : FVec Ideal ⟨2, ![A, K]⟩ .f32) (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) : FVec Ideal ⟨2, ![A, M]⟩ .f32 :=
  affine (sspV (affine X Wo bo)) Wp bp

theorem proj2_rows {φ1 φ2 : FTy} (Xb : FVec Ideal ⟨2, ![A, K]⟩ .f32) (X : FVec Ideal ⟨2, ![A', K]⟩ .f32)
    (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) (p : Fin A) (r : Fin A')
    (h : ∀ k : Fin K, Xb (ix2 p k) = X (ix2 r k)) (q : Fin M) :
    proj2 Xb Wo bo Wp bp (ix2 p q) = proj2 X Wo bo Wp bp (ix2 r q) :=
  affine_rows _ _ Wp bp p r (fun k => congrArg ssp (affine_rows Xb X Wo bo p r h k)) q

/-- The edge network as a kernel body spells it on a block of rows. -/
def mlp2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  sspK (denseK d2 ht hc2 hb2 (sspK (denseK d1 ht hc1 hb1 x0 x1 x2)) x3 x4)

theorem mlp2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    mlp2K d1 d2 ht hc1 hb1 hc2 hb2 x0 x1 x2 x3 x4 = mlp2 x0 (truncf .bf16 x1 ht) x2 (truncf .bf16 x3 ht) x4 := by
  unfold mlp2K mlp2
  rw [denseK_eq hd1, sspK_eq, denseK_eq hd2, sspK_eq]

/-- The output head as a kernel body spells it on a block of rows. -/
def proj2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  denseK d2 ht hc2 hb2 (sspK (denseK d1 ht hc1 hb1 x0 x1 x2)) x3 x4

theorem proj2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    proj2K d1 d2 ht hc1 hb1 hc2 hb2 x0 x1 x2 x3 x4 = proj2 x0 (truncf .bf16 x1 ht) x2 (truncf .bf16 x3 ht) x4 := by
  unfold proj2K proj2
  rw [denseK_eq hd1, sspK_eq, denseK_eq hd2]

end Idealize.ShloMosaic.SoftplusLayers

end
-- ==== Proof.LibReluMlp.lean ====
/-
  Dense layers `rows · weights + bias row` followed by the rectifier `max(·, 0)`, and the logistic function `1 / (1 + e⁻ˣ)`
  after a last layer, each in two spellings that denote one function of the extended reals:

  * a kernel body's — a block of rows, rows and weights rounded to bf16 (the identity here), the matrix unit's product into a
    zero accumulator, the bias a `[1, M]` row repeated down the rows, the zero a scalar splat to the shape, the logistic
    function one operation;
  * the host's — `dot_general`, the bias `[M]` lifted to `[1, M]` and then to `[A, M]`, the zero and the one rank-0 arrays
    broadcast to the shape, the logistic function spelled `1 / (1 + exp(−x))`.

  Entry `(p, q)` of every layer reads row `p` of its input only, so a block of rows of the result is the result of that
  block of rows. Two stacks are named: two rectified layers (`phi2`), and two rectified layers, a third layer and the
  logistic function (`rho3`).
-/
import Idealize.ShloMosaic.PureOps.Ideal.Laws
import Idealize.ShloMosaic.Lib.ValueIdx
import Idealize.ShloMosaic.Lib.ValueLayout
import Idealize.ShloMosaic.Lib.Pipeline.Value
import proofs.«162331_j44805098832501_1_alg».proof.Proof.LibPlainDot
import proofs.«162331_j44805098832501_1_alg».proof.Proof.LibAffine
import proofs.«162331_j44805098832501_1_alg».proof.Proof.LibSoftplusLayers

noncomputable section

namespace Idealize.ShloMosaic.ReluMlp

open Idealize.ShloMosaic.ValueIdx Idealize.ShloMosaic.Affine Idealize.ShloMosaic.SoftplusLayers

/-! ## The rectifier and the logistic function on an array, in the two spellings -/

variable {s : Shape}

/-- `max(x, 0)`, the zero kept as the f32 word both spellings carry. -/
def relu (x : EReal) : EReal := max x zeroW

/-- The rectifier applied to every entry. -/
def reluV (x : FVec Ideal s .f32) : FVec Ideal s .f32 := fun i => relu (x i)

/-- A kernel body's spelling: the scalar zero splat to the shape. -/
def reluK (x : FVec Ideal s .f32) : FVec Ideal s .f32 :=
  maximumf x (broadcast s (Scalar.ofBits (F := Ideal) .f32 0x00000000#32))

theorem reluK_eq (x : FVec Ideal s .f32) : reluK x = reluV x := rfl

/-- The host's spelling: the rank-0 zero broadcast to the shape. -/
def reluH (h0 : (⟨0, ![]⟩ : Shape).BroadcastsInDim s ![]) (x : FVec Ideal s .f32) : FVec Ideal s .f32 :=
  maximumf x (broadcastInDim s ![] h0 (constant (F := Ideal) ⟨0, ![]⟩ .f32 0x00000000#32))

theorem reluH_eq (h0 : (⟨0, ![]⟩ : Shape).BroadcastsInDim s ![]) (x : FVec Ideal s .f32) : reluH h0 x = reluV x := rfl

/-- The f32 word of `1.0` is the real one. -/
theorem one_word : Ideal.ofBits .f32 0x3F800000#32 = 1 := by
  simp [Ideal.ofBits, Ideal.ieee, -EReal.coe_mul]; norm_num

/-- The logistic function applied to every entry. -/
def sigV (x : FVec Ideal s .f32) : FVec Ideal s .f32 := fun i => Ideal.logistic (x i)

/-- A kernel body's spelling is the one operation. -/
theorem sigK_eq (x : FVec Ideal s .f32) : logistic x = sigV x := rfl

/-- The host's spelling: `1 / (1 + exp(−x))` with the ones rank-0 arrays broadcast to the shape. -/
def sigH (h0 : (⟨0, ![]⟩ : Shape).BroadcastsInDim s ![]) (x : FVec Ideal s .f32) : FVec Ideal s .f32 :=
  Host.divf (broadcastInDim s ![] h0 (constant (F := Ideal) ⟨0, ![]⟩ .f32 0x3F800000#32))
    (addf (broadcastInDim s ![] h0 (constant (F := Ideal) ⟨0, ![]⟩ .f32 0x3F800000#32)) (Host.exp (Host.negf x)))

theorem sigH_eq (h0 : (⟨0, ![]⟩ : Shape).BroadcastsInDim s ![]) (x : FVec Ideal s .f32) : sigH h0 x = sigV x := by
  funext i
  show Ideal.div (Ideal.ofBits .f32 0x3F800000#32) (Ideal.ofBits .f32 0x3F800000#32 + Ideal.exp (-(x i))) = Ideal.logistic (x i)
  rw [one_word]
  rfl

/-! ## Rectified layers -/

variable {A A' K H H' M : Nat}

/-- `max(X·W + b, 0)`. -/
def layer {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  reluV (affine X W b)

/-- Entry `(p, q)` of a rectified layer reads row `p` of its input only. -/
theorem layer_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    layer Xb W b (ix2 p q) = layer X W b (ix2 r q) :=
  congrArg relu (affine_rows Xb X W b p r h q)

/-- Two rectified layers: `max(max(X·W1 + b1, 0)·W2 + b2, 0)`. -/
def phi2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  layer (layer X W1 b1) W2 b2

theorem phi2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    phi2 Xb W1 b1 W2 b2 (ix2 p q) = phi2 X W1 b1 W2 b2 (ix2 r q) :=
  layer_rows _ _ W2 b2 p r (fun k => layer_rows Xb X W1 b1 p r h k) q

/-- Two rectified layers, a third layer and the logistic function. -/
def rho3 {φ1 φ2 φ3 : FTy} (X : FVec Ideal ⟨2, ![A, K]⟩ .f32) (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) : FVec Ideal ⟨2, ![A, M]⟩ .f32 :=
  sigV (affine (phi2 X W1 b1 W2 b2) W3 b3)

theorem rho3_rows {φ1 φ2 φ3 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) (p : Fin A) (r : Fin A')
    (h : ∀ k : Fin K, Xb (ix2 p k) = X (ix2 r k)) (q : Fin M) :
    rho3 Xb W1 b1 W2 b2 W3 b3 (ix2 p q) = rho3 X W1 b1 W2 b2 W3 b3 (ix2 r q) :=
  congrArg Ideal.logistic
    (affine_rows _ _ W3 b3 p r (fun k => phi2_rows Xb X W1 b1 W2 b2 p r h k) q)

/-! ## The stacks as a kernel body spells them on a block of rows -/

def phi2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  reluK (denseK d2 ht hc2 hb2 (reluK (denseK d1 ht hc1 hb1 x0 x1 x2)) x3 x4)

theorem phi2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    phi2K d1 d2 ht hc1 hb1 hc2 hb2 x0 x1 x2 x3 x4 = phi2 x0 (truncf .bf16 x1 ht) x2 (truncf .bf16 x3 ht) x4 := by
  unfold phi2K phi2 layer
  rw [denseK_eq hd1, reluK_eq, denseK_eq hd2, reluK_eq]

/-- The second stack on a block of rows, the block first recast to its own shape. -/
def rho3K (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩) (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) : FVec Ideal ⟨2, ![A, M]⟩ .f32 :=
  logistic (denseK d3 ht hc3 hb3 (reluK (denseK d2 ht hc2 hb2
    (reluK (denseK d1 ht hc1 hb1 (shapeCast ⟨2, ![A, K]⟩ x0 hc0) x1 x2)) x3 x4)) x5 x6)

theorem rho3K_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) :
    rho3K d1 d2 d3 ht hc0 hc1 hb1 hc2 hb2 hc3 hb3 x0 x1 x2 x3 x4 x5 x6
      = rho3 x0 (truncf .bf16 x1 ht) x2 (truncf .bf16 x3 ht) x4 (truncf .bf16 x5 ht) x6 := by
  unfold rho3K rho3 phi2 layer
  rw [shapeCast_self, denseK_eq hd1, reluK_eq, denseK_eq hd2, reluK_eq, denseK_eq hd3, sigK_eq]

/-! ## The stacks as the host spells them on all the rows -/

def phi2H (d1 : DotDims ⟨2, ![A, K]⟩ ⟨2, ![K, H]⟩ ⟨2, ![A, H]⟩) (d2 : DotDims ⟨2, ![A, H]⟩ ⟨2, ![H, M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) : FVec Ideal ⟨2, ![A, M]⟩ .f32 :=
  reluH z2 (denseH d2 g3 g4 (reluH z1 (denseH d1 g1 g2 X W1 b1)) W2 b2)

theorem phi2H_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) :
    phi2H d1 d2 g1 g2 z1 g3 g4 z2 X W1 b1 W2 b2
      = phi2 X (truncf .bf16 W1 ht) (shapeCast ⟨2, ![1, H]⟩ b1 hc1) (truncf .bf16 W2 ht) (shapeCast ⟨2, ![1, M]⟩ b2 hc2) := by
  unfold phi2H phi2 layer
  rw [denseH_eq hd1 g1 g2 ht hc1, reluH_eq, denseH_eq hd2 g3 g4 ht hc2, reluH_eq]

def rho3H (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) : FVec Ideal ⟨2, ![A, M]⟩ .f32 :=
  sigH z3 (denseH d3 g5 g6 (reluH z2 (denseH d2 g3 g4 (reluH z1 (denseH d1 g1 g2 X W1 b1)) W2 b2)) W3 b3)

theorem rho3H_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![H']⟩ : Shape).ShapeCasts ⟨2, ![1, H']⟩)
    (hc3 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) :
    rho3H d1 d2 d3 g1 g2 z1 g3 g4 z2 g5 g6 z3 X W1 b1 W2 b2 W3 b3
      = rho3 X (truncf .bf16 W1 ht) (shapeCast ⟨2, ![1, H]⟩ b1 hc1) (truncf .bf16 W2 ht) (shapeCast ⟨2, ![1, H']⟩ b2 hc2)
          (truncf .bf16 W3 ht) (shapeCast ⟨2, ![1, M]⟩ b3 hc3) := by
  unfold rho3H rho3 phi2 layer
  rw [denseH_eq hd1 g1 g2 ht hc1, reluH_eq, denseH_eq hd2 g3 g4 ht hc2, reluH_eq, denseH_eq hd3 g5 g6 ht hc3, sigH_eq]

end Idealize.ShloMosaic.ReluMlp

end
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«162331_j44805098832501_1_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibHostRow.lean ====
/-
  The host's row-wise operations on a [a, b] matrix, read at indices given by coordinates, over the extended reals:
  • a vector [a] lifted to the column [a, 1] (broadcast_in_dim along axis 0) reads, at (p, u), the vector's entry p;
  • a column [a, 1] repeated along the rows to [a, b] (broadcast_in_dim along both axes) reads, at (p, q), the column's row p;
  • the two in a row read the vector's entry p;
  • the host's sum along row r from an initial value is the initial value plus Σ_{k < b} of the entries (r, k).
-/
import Idealize.ShloMosaic.PureOps.Ideal.Laws
import Idealize.ShloMosaic.Lib.Pipeline.Value
import Idealize.ShloMosaic.Lib.ValueIdx
import Idealize.ShloMosaic.Lib.IdealHost
import proofs.«162331_j44805098832501_1_alg».proof.Proof.LibRowColumn

open scoped BigOperators

namespace Idealize.ShloMosaic.HostRow

open Idealize.ShloMosaic Idealize.ShloMosaic.ValueIdx

variable {α : Type}

/-- A vector [a] lifted to the column [a, 1] reads, at (p, u), the vector's entry p. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  have hp := p.isLt
  refine broadcastInDim_apply _ h v (ix2 p u) (ix1 p) fun ax => ?_
  match ax with
  | ⟨0, _⟩ =>
    show p.val = if a = 1 then 0 else p.val
    split
    · omega
    · rfl

/-- A column [a, 1] repeated along the rows to [a, b] reads, at (p, q), the column's row p. -/
theorem bcast_a1_ab_apply {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  have hp := p.isLt
  refine broadcastInDim_apply _ h w (ix2 p q) (ix2 p (0 : Fin 1)) fun ax => ?_
  match ax with
  | ⟨0, _⟩ =>
    show p.val = if a = 1 then 0 else p.val
    split
    · omega
    · rfl
  | ⟨1, _⟩ => rfl

/-- A vector [a] lifted to [a, 1] and repeated to [a, b] reads, at (p, q), the vector's entry p. -/
theorem bcast_a_ab_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (bcast_a1_ab_apply _ h2 p q).trans (bcast_a_a1_apply v h1 p 0)

/-- The host's sum along row r of a [a, b] matrix from the initial value: the initial value plus the sum of the row's entries. -/
theorem hostReduceAdd_cols {a b : ℕ} {u : Shape} {φ : FTy} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  refine (hostReduceAdd_apply x init h' hu (ix1 r)).trans ?_
  rw [Ideal.hostReduceAdd_single h' h]
  exact congrArg (init (Shape.Idx.first hu) + ·) (Finset.sum_congr rfl fun k _ => congrArg x (RowColumn.lift_cols h r k))

end Idealize.ShloMosaic.HostRow
-- ==== Proof.LibGinLayer.lean ====
/-
  One layer of a graph-isomorphism network on the rows of a node-feature matrix, and the classifier head that follows the
  last layer, each in two spellings that denote one function of the extended reals.

  A layer takes the node features `X` and the neighbour sums `S` (both `[A, K]`) and computes, row by row,
      T = max(max((X + S)·Wa + ba, 0)·Wb + bb, 0),        Y(r, j) = (T(r, j) − μ(j)) · rsqrt(v(j) + ε) · γ(j) + β(j),
  a two-layer rectified perceptron followed by batch normalisation with running statistics; `ε` is kept as the f32 word both
  spellings carry. The head computes `Z = max(X·W1 + b1, 0)·W2 + b2` and then the logarithm of the softmax along each row,
      L(r, j) = (Z(r, j) − max_k Z(r, k)) − log Σ_k exp(Z(r, k) − max_k Z(r, k)),
  the maximum a fold from −∞.

  * A kernel body's spelling works on a block of rows: operands rounded to bf16 (the identity here), the matrix unit's
    product into a zero accumulator, the bias and the four statistics `[1, M]` rows recast to their own shape and repeated
    down the rows, the row maximum and row sum lane reductions kept as a column `[A, 1]` and repeated along the row.
  * The host's spelling works on all the rows: `dot_general`, every `[M]` vector lifted to `[1, M]` and then to `[A, M]`,
    `rsqrt(v + ε)` computed on the vector before lifting, the row maximum a reduce from −∞ joined by one more maximum with
    −∞ (which changes nothing), the row sum a reduce from the zero word.

  Entry `(p, q)` of either result reads row `p` of the inputs only, so a block of rows of the result is the result of that
  block of rows.
-/
import Idealize.ShloMosaic.PureOps.Ideal.Laws
import Idealize.ShloMosaic.Lib.ValueIdx
import Idealize.ShloMosaic.Lib.ValueLayout
import Idealize.ShloMosaic.Lib.Pipeline.Value
import proofs.«162331_j44805098832501_1_alg».proof.Proof.LibPlainDot
import proofs.«162331_j44805098832501_1_alg».proof.Proof.LibAffine
import proofs.«162331_j44805098832501_1_alg».proof.Proof.LibSoftplusLayers
import proofs.«162331_j44805098832501_1_alg».proof.Proof.LibReluMlp
import proofs.«162331_j44805098832501_1_alg».proof.Proof.LibRowColumn
import proofs.«162331_j44805098832501_1_alg».proof.Proof.LibRowReduce
import proofs.«162331_j44805098832501_1_alg».proof.Proof.LibColumn
import proofs.«162331_j44805098832501_1_alg».proof.Proof.LibHostRow

noncomputable section

namespace Idealize.ShloMosaic.GinLayer

open Idealize.ShloMosaic.ValueIdx Idealize.ShloMosaic.Affine Idealize.ShloMosaic.SoftplusLayers Idealize.ShloMosaic.ReluMlp

variable {A A' K H M C : Nat}

/-! ## Batch normalisation with running statistics -/

/-- The variance offset, as the f32 word both spellings carry. -/
def epsW : EReal := Ideal.ofBits .f32 0x3727C5AC#32

/-- One entry: `(t − μ) · rsqrt(v + ε) · γ + β`. -/
def bn (t mu v g be : EReal) : EReal := (t - mu) * Ideal.rsqrt (v + epsW) * g + be

/-- On an array, the four statistics given as rows `[1, M]`: column `j` uses entry `j` of each row. -/
def bnV (T : FVec Ideal ⟨2, ![A, M]⟩ .f32) (mu v g be : FVec Ideal ⟨2, ![1, M]⟩ .f32) : FVec Ideal ⟨2, ![A, M]⟩ .f32 :=
  fun i => bn (T i) (mu (ix2 (0 : Fin 1) ⟨(i 1).val, idx2_lt1 i⟩)) (v (ix2 (0 : Fin 1) ⟨(i 1).val, idx2_lt1 i⟩))
    (g (ix2 (0 : Fin 1) ⟨(i 1).val, idx2_lt1 i⟩)) (be (ix2 (0 : Fin 1) ⟨(i 1).val, idx2_lt1 i⟩))

theorem bnV_ix2 (T : FVec Ideal ⟨2, ![A, M]⟩ .f32) (mu v g be : FVec Ideal ⟨2, ![1, M]⟩ .f32) (p : Fin A) (q : Fin M) :
    bnV T mu v g be (ix2 p q)
      = bn (T (ix2 p q)) (mu (ix2 (0 : Fin 1) q)) (v (ix2 (0 : Fin 1) q)) (g (ix2 (0 : Fin 1) q)) (be (ix2 (0 : Fin 1) q)) := rfl

/-- Normalisation is entrywise in its first argument. -/
theorem bnV_rows (Tb : FVec Ideal ⟨2, ![A, M]⟩ .f32) (T : FVec Ideal ⟨2, ![A', M]⟩ .f32) (mu v g be : FVec Ideal ⟨2, ![1, M]⟩ .f32)
    (p : Fin A) (r : Fin A') (q : Fin M) (h : Tb (ix2 p q) = T (ix2 r q)) :
    bnV Tb mu v g be (ix2 p q) = bnV T mu v g be (ix2 r q) := by
  rw [bnV_ix2, bnV_ix2, h]

/-- A kernel body's spelling: each statistics row recast to its own shape and repeated down the rows, `rsqrt(v + ε)`
    computed on the row, the offset a scalar splat to the row's shape. -/
def bnK (hc : (⟨2, ![1, M]⟩ : Shape).ShapeCasts ⟨2, ![1, M]⟩) (hb : (⟨2, ![1, M]⟩ : Shape).Broadcasts ⟨2, ![A, M]⟩)
    (T : FVec Ideal ⟨2, ![A, M]⟩ .f32) (mu v g be : FVec Ideal ⟨2, ![1, M]⟩ .f32) : FVec Ideal ⟨2, ![A, M]⟩ .f32 :=
  addf (mulf (mulf (subf T (broadcastTo ⟨2, ![A, M]⟩ (shapeCast ⟨2, ![1, M]⟩ mu hc) hb))
        (broadcastTo ⟨2, ![A, M]⟩
          (rsqrt (addf (shapeCast ⟨2, ![1, M]⟩ v hc) (broadcast ⟨2, ![1, M]⟩ (Scalar.ofBits (F := Ideal) .f32 0x3727C5AC#32)))) hb))
      (broadcastTo ⟨2, ![A, M]⟩ (shapeCast ⟨2, ![1, M]⟩ g hc) hb))
    (broadcastTo ⟨2, ![A, M]⟩ (shapeCast ⟨2, ![1, M]⟩ be hc) hb)

theorem bnK_eq (hc : (⟨2, ![1, M]⟩ : Shape).ShapeCasts ⟨2, ![1, M]⟩) (hb : (⟨2, ![1, M]⟩ : Shape).Broadcasts ⟨2, ![A, M]⟩)
    (T : FVec Ideal ⟨2, ![A, M]⟩ .f32) (mu v g be : FVec Ideal ⟨2, ![1, M]⟩ .f32) :
    bnK hc hb T mu v g be = bnV T mu v g be := by
  funext i
  obtain ⟨p, q, rfl⟩ : ∃ (p : Fin A) (q : Fin M), i = ix2 p q := ⟨i 0, i 1, eq_ix2 i⟩
  rw [bnV_ix2]
  unfold bnK
  simp only [shapeCast_self]
  refine (addf_apply _ _ _).trans ?_
  refine congrArg₂ (· + ·) ?_ (broadcastTo_1b_ab_apply be hb p q)
  refine (mulf_apply _ _ _).trans ?_
  refine congrArg₂ (· * ·) ?_ (broadcastTo_1b_ab_apply g hb p q)
  refine (mulf_apply _ _ _).trans ?_
  refine congrArg₂ (· * ·) ?_ ?_
  · refine (subf_apply _ _ _).trans ?_
    exact congrArg (T (ix2 p q) - ·) (broadcastTo_1b_ab_apply mu hb p q)
  · refine (broadcastTo_1b_ab_apply _ hb p q).trans ?_
    rfl

/-- The host's spelling: each statistics vector `[M]` lifted to `[1, M]` and then to `[A, M]`, `rsqrt(v + ε)` computed on
    the vector, the offset a rank-0 array broadcast to `[M]`. -/
def bnH (g1 : (⟨1, ![M]⟩ : Shape).BroadcastsInDim ⟨2, ![1, M]⟩ ![1]) (g2 : (⟨2, ![1, M]⟩ : Shape).BroadcastsInDim ⟨2, ![A, M]⟩ ![0, 1])
    (z : (⟨0, ![]⟩ : Shape).BroadcastsInDim ⟨1, ![M]⟩ ![])
    (T : FVec Ideal ⟨2, ![A, M]⟩ .f32) (mu v g be : FVec Ideal ⟨1, ![M]⟩ .f32) : FVec Ideal ⟨2, ![A, M]⟩ .f32 :=
  addf (mulf (mulf (subf T (broadcastInDim ⟨2, ![A, M]⟩ ![0, 1] g2 (broadcastInDim ⟨2, ![1, M]⟩ ![1] g1 mu)))
        (broadcastInDim ⟨2, ![A, M]⟩ ![0, 1] g2 (broadcastInDim ⟨2, ![1, M]⟩ ![1] g1
          (Host.rsqrt (addf v (broadcastInDim ⟨1, ![M]⟩ ![] z (constant (F := Ideal) ⟨0, ![]⟩ .f32 0x3727C5AC#32)))))))
      (broadcastInDim ⟨2, ![A, M]⟩ ![0, 1] g2 (broadcastInDim ⟨2, ![1, M]⟩ ![1] g1 g)))
    (broadcastInDim ⟨2, ![A, M]⟩ ![0, 1] g2 (broadcastInDim ⟨2, ![1, M]⟩ ![1] g1 be))

theorem bnH_eq (g1 : (⟨1, ![M]⟩ : Shape).BroadcastsInDim ⟨2, ![1, M]⟩ ![1]) (g2 : (⟨2, ![1, M]⟩ : Shape).BroadcastsInDim ⟨2, ![A, M]⟩ ![0, 1])
    (z : (⟨0, ![]⟩ : Shape).BroadcastsInDim ⟨1, ![M]⟩ ![]) (hc : (⟨1, ![M]⟩ : Shape).ShapeCasts ⟨2, ![1, M]⟩)
    (T : FVec Ideal ⟨2, ![A, M]⟩ .f32) (mu v g be : FVec Ideal ⟨1, ![M]⟩ .f32) :
    bnH g1 g2 z T mu v g be
      = bnV T (shapeCast ⟨2, ![1, M]⟩ mu hc) (shapeCast ⟨2, ![1, M]⟩ v hc) (shapeCast ⟨2, ![1, M]⟩ g hc) (shapeCast ⟨2, ![1, M]⟩ be hc) := by
  funext i
  obtain ⟨p, q, rfl⟩ : ∃ (p : Fin A) (q : Fin M), i = ix2 p q := ⟨i 0, i 1, eq_ix2 i⟩
  rw [bnV_ix2, shapeCast_a_1a_apply, shapeCast_a_1a_apply, shapeCast_a_1a_apply, shapeCast_a_1a_apply]
  unfold bnH
  refine (addf_apply _ _ _).trans ?_
  refine congrArg₂ (· + ·) ?_ (bias_rows_apply be g1 g2 p q)
  refine (mulf_apply _ _ _).trans ?_
  refine congrArg₂ (· * ·) ?_ (bias_rows_apply g g1 g2 p q)
  refine (mulf_apply _ _ _).trans ?_
  refine congrArg₂ (· * ·) ?_ ?_
  · refine (subf_apply _ _ _).trans ?_
    exact congrArg (T (ix2 p q) - ·) (bias_rows_apply mu g1 g2 p q)
  · refine (bias_rows_apply _ g1 g2 p q).trans ?_
    rfl

/-! ## One layer -/

/-- The layer: two rectified dense layers on `X + S`, then normalisation. -/
def layerV {φ1 φ2 : FTy} (X S : FVec Ideal ⟨2, ![A, K]⟩ .f32) (Wa : FVec Ideal ⟨2, ![K, H]⟩ φ1) (ba : FVec Ideal ⟨2, ![1, H]⟩ .f32)
    (Wb : FVec Ideal ⟨2, ![H, M]⟩ φ2) (bb : FVec Ideal ⟨2, ![1, M]⟩ .f32) (g be mu v : FVec Ideal ⟨2, ![1, M]⟩ .f32) :
    FVec Ideal ⟨2, ![A, M]⟩ .f32 :=
  bnV (phi2 (addf X S) Wa ba Wb bb) mu v g be

/-- Entry `(p, q)` of a layer reads row `p` of the features and of the neighbour sums only. -/
theorem layerV_rows {φ1 φ2 : FTy} (Xb Sb : FVec Ideal ⟨2, ![A, K]⟩ .f32) (X S : FVec Ideal ⟨2, ![A', K]⟩ .f32)
    (Wa : FVec Ideal ⟨2, ![K, H]⟩ φ1) (ba : FVec Ideal ⟨2, ![1, H]⟩ .f32)
    (Wb : FVec Ideal ⟨2, ![H, M]⟩ φ2) (bb : FVec Ideal ⟨2, ![1, M]⟩ .f32) (g be mu v : FVec Ideal ⟨2, ![1, M]⟩ .f32)
    (p : Fin A) (r : Fin A') (hx : ∀ k : Fin K, Xb (ix2 p k) = X (ix2 r k)) (hs : ∀ k : Fin K, Sb (ix2 p k) = S (ix2 r k))
    (q : Fin M) :
    layerV Xb Sb Wa ba Wb bb g be mu v (ix2 p q) = layerV X S Wa ba Wb bb g be mu v (ix2 r q) :=
  bnV_rows _ _ mu v g be p r q
    (phi2_rows _ _ Wa ba Wb bb p r (fun k => by rw [addf_apply, addf_apply, hx k, hs k]) q)

/-- A kernel body's spelling on a block of rows, from the sum `X + S` on. -/
def layerK (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (xs : FVec Ideal ⟨2, ![A, K]⟩ .f32) (x2 : FVec Ideal ⟨2, ![K, H]⟩ .f32) (x3 : FVec Ideal ⟨2, ![1, H]⟩ .f32)
    (x4 : FVec Ideal ⟨2, ![H, M]⟩ .f32) (x5 : FVec Ideal ⟨2, ![1, M]⟩ .f32) (x6 x7 x8 x9 : FVec Ideal ⟨2, ![1, M]⟩ .f32) :
    FVec Ideal ⟨2, ![A, M]⟩ .f32 :=
  bnK hc2 hb2 (phi2K d1 d2 ht hc1 hb1 hc2 hb2 xs x2 x3 x4 x5) x8 x9 x6 x7

theorem layerK_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (xs : FVec Ideal ⟨2, ![A, K]⟩ .f32) (x2 : FVec Ideal ⟨2, ![K, H]⟩ .f32) (x3 : FVec Ideal ⟨2, ![1, H]⟩ .f32)
    (x4 : FVec Ideal ⟨2, ![H, M]⟩ .f32) (x5 : FVec Ideal ⟨2, ![1, M]⟩ .f32) (x6 x7 x8 x9 : FVec Ideal ⟨2, ![1, M]⟩ .f32) :
    layerK d1 d2 ht hc1 hb1 hc2 hb2 xs x2 x3 x4 x5 x6 x7 x8 x9
      = bnV (phi2 xs (truncf .bf16 x2 ht) x3 (truncf .bf16 x4 ht) x5) x8 x9 x6 x7 := by
  unfold layerK
  rw [phi2K_eq hd1 hd2, bnK_eq]

/-- The host's spelling on all the rows, from the sum `X + S` on. -/
def layerH (d1 : DotDims ⟨2, ![A, K]⟩ ⟨2, ![K, H]⟩ ⟨2, ![A, H]⟩) (d2 : DotDims ⟨2, ![A, H]⟩ ⟨2, ![H, M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![]) (ze : (⟨0, ![]⟩ : Shape).BroadcastsInDim ⟨1, ![M]⟩ ![])
    (XS : FVec Ideal ⟨2, ![A, K]⟩ .f32) (Wa : FVec Ideal ⟨2, ![K, H]⟩ .f32) (ba : FVec Ideal ⟨1, ![H]⟩ .f32)
    (Wb : FVec Ideal ⟨2, ![H, M]⟩ .f32) (bb : FVec Ideal ⟨1, ![M]⟩ .f32) (g be mu v : FVec Ideal ⟨1, ![M]⟩ .f32) :
    FVec Ideal ⟨2, ![A, M]⟩ .f32 :=
  bnH g3 g4 ze (phi2H d1 d2 g1 g2 z1 g3 g4 z2 XS Wa ba Wb bb) mu v g be

theorem layerH_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![]) (ze : (⟨0, ![]⟩ : Shape).BroadcastsInDim ⟨1, ![M]⟩ ![])
    (ht : FTy.bf16.bits < FTy.f32.bits)
    (hc1 : (⟨1, ![H]⟩ : Shape).ShapeCasts ⟨2, ![1, H]⟩) (hc2 : (⟨1, ![M]⟩ : Shape).ShapeCasts ⟨2, ![1, M]⟩)
    (XS : FVec Ideal ⟨2, ![A, K]⟩ .f32) (Wa : FVec Ideal ⟨2, ![K, H]⟩ .f32) (ba : FVec Ideal ⟨1, ![H]⟩ .f32)
    (Wb : FVec Ideal ⟨2, ![H, M]⟩ .f32) (bb : FVec Ideal ⟨1, ![M]⟩ .f32) (g be mu v : FVec Ideal ⟨1, ![M]⟩ .f32) :
    layerH d1 d2 g1 g2 z1 g3 g4 z2 ze XS Wa ba Wb bb g be mu v
      = bnV (phi2 XS (truncf .bf16 Wa ht) (shapeCast ⟨2, ![1, H]⟩ ba hc1) (truncf .bf16 Wb ht) (shapeCast ⟨2, ![1, M]⟩ bb hc2))
          (shapeCast ⟨2, ![1, M]⟩ mu hc2) (shapeCast ⟨2, ![1, M]⟩ v hc2) (shapeCast ⟨2, ![1, M]⟩ g hc2) (shapeCast ⟨2, ![1, M]⟩ be hc2) := by
  unfold layerH
  rw [phi2H_eq hd1 hd2 g1 g2 z1 g3 g4 z2 ht hc1 hc2, bnH_eq g3 g4 ze hc2]

/-! ## The logarithm of the softmax along each row -/

/-- −∞ as the f32 word both spellings carry. -/
def negInfW : EReal := Ideal.ofBits .f32 0xFF800000#32

/-- One row: `(z q − max z) − log Σ_k exp(z k − max z)`, the maximum a fold from −∞. -/
def lsm (z : Fin C → EReal) (q : Fin C) : EReal :=
  (z q - (Finset.univ : Finset (Fin C)).fold max negInfW z)
    - Ideal.log (∑ k : Fin C, Ideal.exp (z k - (Finset.univ : Finset (Fin C)).fold max negInfW z))

/-- Row by row on an array. -/
def lsmV (Z : FVec Ideal ⟨2, ![A, C]⟩ .f32) : FVec Ideal ⟨2, ![A, C]⟩ .f32 :=
  fun i => lsm (fun k => Z (ix2 ⟨(i 0).val, idx2_lt0 i⟩ k)) ⟨(i 1).val, idx2_lt1 i⟩

theorem lsmV_ix2 (Z : FVec Ideal ⟨2, ![A, C]⟩ .f32) (p : Fin A) (q : Fin C) :
    lsmV Z (ix2 p q) = lsm (fun k => Z (ix2 p k)) q := rfl

/-- Entry `(p, q)` reads row `p` only. -/
theorem lsmV_rows (Zb : FVec Ideal ⟨2, ![A, C]⟩ .f32) (Z : FVec Ideal ⟨2, ![A', C]⟩ .f32) (p : Fin A) (r : Fin A')
    (h : ∀ k : Fin C, Zb (ix2 p k) = Z (ix2 r k)) (q : Fin C) : lsmV Zb (ix2 p q) = lsmV Z (ix2 r q) := by
  rw [lsmV_ix2, lsmV_ix2]
  exact congrArg (lsm · q) (funext h)

/-- A kernel body's spelling: the row maximum and the row sum are lane reductions into `[A]`, kept as a column `[A, 1]`
    and repeated along the row. -/
def lsmK (hr : (⟨2, ![A, C]⟩ : Shape).Reduces [1] (⟨1, ![A]⟩ : Shape)) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, C]⟩)
    (Z : FVec Ideal ⟨2, ![A, C]⟩ .f32) : FVec Ideal ⟨2, ![A, C]⟩ .f32 :=
  subf (subf Z (broadcastTo ⟨2, ![A, C]⟩ (shapeCast ⟨2, ![A, 1]⟩
      (multiReduction .maximumf [1] ⟨1, ![A]⟩ Z 0xFF800000#32 hr hφ hmax) hc) hb))
    (broadcastTo ⟨2, ![A, C]⟩ (log (shapeCast ⟨2, ![A, 1]⟩
      (multiReduction .add [1] ⟨1, ![A]⟩
        (exp (subf Z (broadcastTo ⟨2, ![A, C]⟩ (shapeCast ⟨2, ![A, 1]⟩
          (multiReduction .maximumf [1] ⟨1, ![A]⟩ Z 0xFF800000#32 hr hφ hmax) hc) hb)))
        0x00000000#32 hr hφ hadd) hc)) hb)

/-- The shifted logits of a kernel body at `(p, k)`. -/
theorem shiftK_apply (hr : (⟨2, ![A, C]⟩ : Shape).Reduces [1] (⟨1, ![A]⟩ : Shape)) (hφ : FKind.Formats FTy.f32)
    (hmax : (0xFF800000#32 : BitVec FTy.f32.bits) = FKind.maximumf.neutral .f32 hφ)
    (hc : (⟨1, ![A]⟩ : Shape).ShapeCasts ⟨2, ![A, 1]⟩) (hb : (⟨2, ![A, 1]⟩ : Shape).Broadcasts ⟨2, ![A, C]⟩)
    (Z : FVec Ideal ⟨2, ![A, C]⟩ .f32) (p : Fin A) (k : Fin C) :
    subf Z (broadcastTo ⟨2, ![A, C]⟩ (shapeCast ⟨2, ![A, 1]⟩
      (multiReduction .maximumf [1] ⟨1, ![A]⟩ Z 0xFF800000#32 hr hφ hmax) hc) hb) (ix2 p k)
      = Z (ix2 p k) - (Finset.univ : Finset (Fin C)).fold max negInfW (fun j => Z (ix2 p j)) := by
  refine (subf_apply _ _ _).trans ?_
  refine congrArg (Z (ix2 p k) - ·) ?_
  exact (Column.broadcastTo_a1_ab_apply _ hb p k).trans
    ((Column.shapeCast_a_a1_apply _ hc p 0).trans (RowReduce.multiReduction_maximumf_cols Z _ hr hφ hmax p))

theorem lsmK_eq (hr : (⟨2, ![A, C]⟩ : Shape).Reduces [1] (⟨1, ![A]⟩ : Shape)) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, C]⟩)
    (Z : FVec Ideal ⟨2, ![A, C]⟩ .f32) : lsmK hr hφ hmax hadd hc hb Z = lsmV Z := by
  funext i
  obtain ⟨p, q, rfl⟩ : ∃ (p : Fin A) (q : Fin C), i = ix2 p q := ⟨i 0, i 1, eq_ix2 i⟩
  rw [lsmV_ix2]
  unfold lsmK lsm
  refine (subf_apply _ _ _).trans ?_
  refine congrArg₂ (· - ·) (shiftK_apply hr hφ hmax hc hb Z p q) ?_
  refine (Column.broadcastTo_a1_ab_apply _ hb p q).trans ?_
  refine congrArg Ideal.log ?_
  refine (Column.shapeCast_a_a1_apply _ hc p 0).trans ?_
  refine (RowReduce.multiReduction_add_cols _ _ hr hφ hadd p).trans ?_
  exact Finset.sum_congr rfl fun k _ => congrArg Ideal.exp (shiftK_apply hr hφ hmax hc hb Z p k)

/-- The host's spelling: the row maximum a reduce from −∞ joined by a maximum with −∞, lifted to a column and repeated; the
    row sum a reduce from the zero word. -/
def lsmH (h' : (⟨2, ![A, C]⟩ : Shape).ReducesTo [1] (⟨1, ![A]⟩ : Shape)) (hu : 0 < (⟨0, ![]⟩ : Shape).numel)
    (z0 : (⟨0, ![]⟩ : Shape).BroadcastsInDim ⟨1, ![A]⟩ ![])
    (c1 : (⟨1, ![A]⟩ : Shape).BroadcastsInDim ⟨2, ![A, 1]⟩ ![0]) (c2 : (⟨2, ![A, 1]⟩ : Shape).BroadcastsInDim ⟨2, ![A, C]⟩ ![0, 1])
    (Z : FVec Ideal ⟨2, ![A, C]⟩ .f32) : FVec Ideal ⟨2, ![A, C]⟩ .f32 :=
  subf (subf Z (broadcastInDim ⟨2, ![A, C]⟩ ![0, 1] c2 (broadcastInDim ⟨2, ![A, 1]⟩ ![0] c1
      (maximumf (broadcastInDim ⟨1, ![A]⟩ ![] z0 (constant (F := Ideal) ⟨0, ![]⟩ .f32 0xFF800000#32))
        (Host.reduce FloatOps.maximumf Z (constant (F := Ideal) ⟨0, ![]⟩ .f32 0xFF800000#32) h' hu)))))
    (broadcastInDim ⟨2, ![A, C]⟩ ![0, 1] c2 (Host.log (broadcastInDim ⟨2, ![A, 1]⟩ ![0] c1
      (Host.reduceAdd
        (Host.exp (subf Z (broadcastInDim ⟨2, ![A, C]⟩ ![0, 1] c2 (broadcastInDim ⟨2, ![A, 1]⟩ ![0] c1
          (maximumf (broadcastInDim ⟨1, ![A]⟩ ![] z0 (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The shifted logits of the host at `(p, k)`. -/
theorem shiftH_apply (h' : (⟨2, ![A, C]⟩ : Shape).ReducesTo [1] (⟨1, ![A]⟩ : Shape)) (hu : 0 < (⟨0, ![]⟩ : Shape).numel)
    (hr : (⟨2, ![A, C]⟩ : Shape).Reduces [1] (⟨1, ![A]⟩ : Shape))
    (z0 : (⟨0, ![]⟩ : Shape).BroadcastsInDim ⟨1, ![A]⟩ ![])
    (c1 : (⟨1, ![A]⟩ : Shape).BroadcastsInDim ⟨2, ![A, 1]⟩ ![0]) (c2 : (⟨2, ![A, 1]⟩ : Shape).BroadcastsInDim ⟨2, ![A, C]⟩ ![0, 1])
    (Z : FVec Ideal ⟨2, ![A, C]⟩ .f32) (p : Fin A) (k : Fin C) :
    subf Z (broadcastInDim ⟨2, ![A, C]⟩ ![0, 1] c2 (broadcastInDim ⟨2, ![A, 1]⟩ ![0] c1
      (maximumf (broadcastInDim ⟨1, ![A]⟩ ![] z0 (constant (F := Ideal) ⟨0, ![]⟩ .f32 0xFF800000#32))
        (Host.reduce FloatOps.maximumf Z (constant (F := Ideal) ⟨0, ![]⟩ .f32 0xFF800000#32) h' hu)))) (ix2 p k)
      = Z (ix2 p k) - (Finset.univ : Finset (Fin C)).fold max negInfW (fun j => Z (ix2 p j)) := by
  refine (subf_apply _ _ _).trans ?_
  refine congrArg (Z (ix2 p k) - ·) ?_
  refine (HostRow.bcast_a_ab_apply _ c1 c2 p k).trans ?_
  refine (maximumf_apply _ _ _).trans ?_
  rw [RowColumn.hostReduce_maximumf_cols Z _ h' hr hu p]
  exact RowColumn.max_negInf _

theorem lsmH_eq (h' : (⟨2, ![A, C]⟩ : Shape).ReducesTo [1] (⟨1, ![A]⟩ : Shape)) (hu : 0 < (⟨0, ![]⟩ : Shape).numel)
    (hr : (⟨2, ![A, C]⟩ : Shape).Reduces [1] (⟨1, ![A]⟩ : Shape))
    (z0 : (⟨0, ![]⟩ : Shape).BroadcastsInDim ⟨1, ![A]⟩ ![])
    (c1 : (⟨1, ![A]⟩ : Shape).BroadcastsInDim ⟨2, ![A, 1]⟩ ![0]) (c2 : (⟨2, ![A, 1]⟩ : Shape).BroadcastsInDim ⟨2, ![A, C]⟩ ![0, 1])
    (Z : FVec Ideal ⟨2, ![A, C]⟩ .f32) : lsmH h' hu z0 c1 c2 Z = lsmV Z := by
  funext i
  obtain ⟨p, q, rfl⟩ : ∃ (p : Fin A) (q : Fin C), i = ix2 p q := ⟨i 0, i 1, eq_ix2 i⟩
  rw [lsmV_ix2]
  unfold lsmH lsm
  refine (subf_apply _ _ _).trans ?_
  refine congrArg₂ (· - ·) (shiftH_apply h' hu hr z0 c1 c2 Z p q) ?_
  refine (HostRow.bcast_a1_ab_apply _ c2 p q).trans ?_
  refine congrArg Ideal.log ?_
  refine (HostRow.bcast_a_a1_apply _ c1 p 0).trans ?_
  refine (HostRow.hostReduceAdd_cols _ _ h' hr hu p).trans ?_
  have h0 : (constant (F := Ideal) ⟨0, ![]⟩ .f32 0x00000000#32) (Shape.Idx.first hu) = (0 : EReal) := Ideal.ofBits_zero_f32
  rw [h0, zero_add]
  exact Finset.sum_congr rfl fun k _ => congrArg Ideal.exp (shiftH_apply h' hu hr z0 c1 c2 Z p k)

/-! ## The classifier head -/

/-- A rectified dense layer, a dense layer, and the logarithm of the softmax along each row. -/
def headV {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, C]⟩ φ2) (b2 : FVec Ideal ⟨2, ![1, C]⟩ .f32) : FVec Ideal ⟨2, ![A, C]⟩ .f32 :=
  lsmV (affine (layer X W1 b1) W2 b2)

/-- Entry `(p, q)` of the head reads row `p` of its input only. -/
theorem headV_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, C]⟩ φ2) (b2 : FVec Ideal ⟨2, ![1, C]⟩ .f32) (p : Fin A) (r : Fin A')
    (h : ∀ k : Fin K, Xb (ix2 p k) = X (ix2 r k)) (q : Fin C) :
    headV Xb W1 b1 W2 b2 (ix2 p q) = headV X W1 b1 W2 b2 (ix2 r q) :=
  lsmV_rows _ _ p r (fun j => affine_rows _ _ W2 b2 p r (fun k => layer_rows Xb X W1 b1 p r h k) j) q

/-- A kernel body's spelling on a block of rows, the block first recast to its own shape. -/
def headK (d1 : DotDims ⟨2, ![A, K]⟩ ⟨2, ![K, H]⟩ ⟨2, ![A, H]⟩) (d2 : DotDims ⟨2, ![A, H]⟩ ⟨2, ![H, C]⟩ ⟨2, ![A, C]⟩)
    (ht : FTy.bf16.bits < FTy.f32.bits) (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, C]⟩ : Shape).ShapeCasts ⟨2, ![1, C]⟩) (hb2 : (⟨2, ![1, C]⟩ : Shape).Broadcasts ⟨2, ![A, C]⟩)
    (hr : (⟨2, ![A, C]⟩ : Shape).Reduces [1] (⟨1, ![A]⟩ : Shape)) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, C]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, C]⟩ .f32) (x4 : FVec Ideal ⟨2, ![1, C]⟩ .f32) : FVec Ideal ⟨2, ![A, C]⟩ .f32 :=
  lsmK hr hφ hmax hadd hc hb
    (denseK d2 ht hc2 hb2 (reluK (denseK d1 ht hc1 hb1 (shapeCast ⟨2, ![A, K]⟩ x0 hc0) x1 x2)) x3 x4)

theorem headK_eq {d1 : DotDims ⟨2, ![A, K]⟩ ⟨2, ![K, H]⟩ ⟨2, ![A, H]⟩} {d2 : DotDims ⟨2, ![A, H]⟩ ⟨2, ![H, C]⟩ ⟨2, ![A, C]⟩}
    (hd1 : d1 = DotDims.plain A K H) (hd2 : d2 = DotDims.plain A H C)
    (ht : FTy.bf16.bits < FTy.f32.bits) (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, C]⟩ : Shape).ShapeCasts ⟨2, ![1, C]⟩) (hb2 : (⟨2, ![1, C]⟩ : Shape).Broadcasts ⟨2, ![A, C]⟩)
    (hr : (⟨2, ![A, C]⟩ : Shape).Reduces [1] (⟨1, ![A]⟩ : Shape)) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, C]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, C]⟩ .f32) (x4 : FVec Ideal ⟨2, ![1, C]⟩ .f32) :
    headK d1 d2 ht hc0 hc1 hb1 hc2 hb2 hr hφ hmax hadd hc hb x0 x1 x2 x3 x4
      = headV x0 (truncf .bf16 x1 ht) x2 (truncf .bf16 x3 ht) x4 := by
  unfold headK headV layer
  rw [shapeCast_self, denseK_eq hd1, reluK_eq, denseK_eq hd2, lsmK_eq]

/-- The host's spelling on all the rows. -/
def headH (d1 : DotDims ⟨2, ![A, K]⟩ ⟨2, ![K, H]⟩ ⟨2, ![A, H]⟩) (d2 : DotDims ⟨2, ![A, H]⟩ ⟨2, ![H, C]⟩ ⟨2, ![A, C]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![C]⟩ : Shape).BroadcastsInDim ⟨2, ![1, C]⟩ ![1]) (g4 : (⟨2, ![1, C]⟩ : Shape).BroadcastsInDim ⟨2, ![A, C]⟩ ![0, 1])
    (h' : (⟨2, ![A, C]⟩ : Shape).ReducesTo [1] (⟨1, ![A]⟩ : Shape)) (hu : 0 < (⟨0, ![]⟩ : Shape).numel)
    (z0 : (⟨0, ![]⟩ : Shape).BroadcastsInDim ⟨1, ![A]⟩ ![])
    (c1 : (⟨1, ![A]⟩ : Shape).BroadcastsInDim ⟨2, ![A, 1]⟩ ![0]) (c2 : (⟨2, ![A, 1]⟩ : Shape).BroadcastsInDim ⟨2, ![A, C]⟩ ![0, 1])
    (X : FVec Ideal ⟨2, ![A, K]⟩ .f32) (W1 : FVec Ideal ⟨2, ![K, H]⟩ .f32) (b1 : FVec Ideal ⟨1, ![H]⟩ .f32)
    (W2 : FVec Ideal ⟨2, ![H, C]⟩ .f32) (b2 : FVec Ideal ⟨1, ![C]⟩ .f32) : FVec Ideal ⟨2, ![A, C]⟩ .f32 :=
  lsmH h' hu z0 c1 c2 (denseH d2 g3 g4 (reluH z1 (denseH d1 g1 g2 X W1 b1)) W2 b2)

theorem headH_eq {d1 : DotDims ⟨2, ![A, K]⟩ ⟨2, ![K, H]⟩ ⟨2, ![A, H]⟩} {d2 : DotDims ⟨2, ![A, H]⟩ ⟨2, ![H, C]⟩ ⟨2, ![A, C]⟩}
    (hd1 : d1 = DotDims.plain A K H) (hd2 : d2 = DotDims.plain A H C)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![C]⟩ : Shape).BroadcastsInDim ⟨2, ![1, C]⟩ ![1]) (g4 : (⟨2, ![1, C]⟩ : Shape).BroadcastsInDim ⟨2, ![A, C]⟩ ![0, 1])
    (h' : (⟨2, ![A, C]⟩ : Shape).ReducesTo [1] (⟨1, ![A]⟩ : Shape)) (hu : 0 < (⟨0, ![]⟩ : Shape).numel)
    (hr : (⟨2, ![A, C]⟩ : Shape).Reduces [1] (⟨1, ![A]⟩ : Shape))
    (z0 : (⟨0, ![]⟩ : Shape).BroadcastsInDim ⟨1, ![A]⟩ ![])
    (c1 : (⟨1, ![A]⟩ : Shape).BroadcastsInDim ⟨2, ![A, 1]⟩ ![0]) (c2 : (⟨2, ![A, 1]⟩ : Shape).BroadcastsInDim ⟨2, ![A, C]⟩ ![0, 1])
    (ht : FTy.bf16.bits < FTy.f32.bits)
    (hc1 : (⟨1, ![H]⟩ : Shape).ShapeCasts ⟨2, ![1, H]⟩) (hc2 : (⟨1, ![C]⟩ : Shape).ShapeCasts ⟨2, ![1, C]⟩)
    (X : FVec Ideal ⟨2, ![A, K]⟩ .f32) (W1 : FVec Ideal ⟨2, ![K, H]⟩ .f32) (b1 : FVec Ideal ⟨1, ![H]⟩ .f32)
    (W2 : FVec Ideal ⟨2, ![H, C]⟩ .f32) (b2 : FVec Ideal ⟨1, ![C]⟩ .f32) :
    headH d1 d2 g1 g2 z1 g3 g4 h' hu z0 c1 c2 X W1 b1 W2 b2
      = headV X (truncf .bf16 W1 ht) (shapeCast ⟨2, ![1, H]⟩ b1 hc1) (truncf .bf16 W2 ht) (shapeCast ⟨2, ![1, C]⟩ b2 hc2) := by
  unfold headH headV layer
  rw [denseH_eq hd1 g1 g2 ht hc1, reluH_eq, denseH_eq hd2 g3 g4 ht hc2, lsmH_eq h' hu hr]

end Idealize.ShloMosaic.GinLayer

end
-- ==== Proof.KernelBody.lean ====
/-
  What each of the four kernel bodies leaves in its output block, as one function of the blocks it loads. The three layer
  bodies load a block of 5000 rows of node features and of neighbour sums, the two weight matrices, the two bias rows and
  the four statistics rows, and store the layer `Y = normalise(max(max((X + S)·Wa + ba, 0)·Wb + bb, 0))` of those rows
  (`GinLayer.layerV`); the first layer's features have 128 columns, the others 32. The head body loads a block of rows and
  stores the logarithm of the softmax of `max(X·W1 + b1, 0)·W2 + b2` along each row (`GinLayer.headV`). The bodies round
  their matrix operands to bf16, which is the identity on the extended reals, and recast blocks to their own shape.
-/
import proofs.«162331_j44805098832501_1_alg».proof.Proof.KernelIdealFrame
import proofs.«162331_j44805098832501_1_alg».proof.Proof.LibGinLayer

set_option maxRecDepth 16384

noncomputable section

namespace Cert.KernelIdeal.KBody

open Idealize.ShloMosaic Idealize.ShloMosaic.ValueIdx Idealize.ShloMosaic.GinLayer Idealize.ShloMosaic.ReluMlp
open Idealize.ShloMosaic.SoftplusLayers Idealize.ShloMosaic.Affine
open Cert.KernelIdeal Cert.KernelIdeal.Gen Cert.KernelIdeal.GenP

/-- The zero offsets of a whole-block access, however they are spelt. -/
theorem hz : (![0, 0] : Fin 2 → Nat) = fun _ => 0 := funext fun a => by fin_cases a <;> rfl

/-- The first layer's body on its blocks. -/
theorem out0_eq (x0 x1 : Vec Ideal S5000x128 .f32) (x2 : Vec Ideal S128x32 .f32) (x3 : Vec Ideal S1x32 .f32)
    (x4 : Vec Ideal S32x32 .f32) (x5 x6 x7 x8 x9 : Vec Ideal S1x32 .f32) :
    out0_10 (F := Ideal) x0 x1 x2 x3 x4 x5 x6 x7 x8 x9
      = layerV (A := 5000) (K := 128) (H := 32) (M := 32) x0 x1 (truncf .bf16 x2 bitsLt_bf16_f32) x3
          (truncf .bf16 x4 bitsLt_bf16_f32) x5 x6 x7 x8 x9 := by
  unfold out0_10
  rw [View.canon_unit_zero hz]
  simp only [View.ld_unit_zero (S := S5000x128) hz, View.ld_unit_zero (S := S128x32) hz, View.ld_unit_zero (S := S1x32) hz,
    View.ld_unit_zero (S := S32x32) hz]
  refine Eq.trans (b := layerK (A := 5000) (K := 128) (H := 32) (M := 32) dot_S5000x128_S128x32_S5000x32_1_0_0_1_n_n
      dot_S5000x32_S32x32_S5000x32_1_0_0_1_n_n bitsLt_bf16_f32
      shapeCasts_S1x32_S1x32 broadcasts_S1x32_S5000x32 shapeCasts_S1x32_S1x32 broadcasts_S1x32_S5000x32
      (addf x0 (shapeCast S5000x128 x1 shapeCasts_S5000x128_S5000x128)) x2 x3 x4 x5 x6 x7 x8 x9) rfl ?_
  rw [layerK_eq (d1 := dot_S5000x128_S128x32_S5000x32_1_0_0_1_n_n) (d2 := dot_S5000x32_S32x32_S5000x32_1_0_0_1_n_n) rfl rfl, shapeCast_self]
  rfl

/-- The second layer's body on its blocks. -/
theorem out1_eq (x0 x1 : Vec Ideal S5000x32 .f32) (x2 : Vec Ideal S32x32 .f32) (x3 : Vec Ideal S1x32 .f32)
    (x4 : Vec Ideal S32x32 .f32) (x5 x6 x7 x8 x9 : Vec Ideal S1x32 .f32) :
    out1_10 (F := Ideal) x0 x1 x2 x3 x4 x5 x6 x7 x8 x9
      = layerV (A := 5000) (K := 32) (H := 32) (M := 32) x0 x1 (truncf .bf16 x2 bitsLt_bf16_f32) x3
          (truncf .bf16 x4 bitsLt_bf16_f32) x5 x6 x7 x8 x9 := by
  unfold out1_10
  rw [View.canon_unit_zero hz]
  simp only [View.ld_unit_zero (S := S5000x32) hz, View.ld_unit_zero (S := S1x32) hz, View.ld_unit_zero (S := S32x32) hz]
  refine Eq.trans (b := layerK (A := 5000) (K := 32) (H := 32) (M := 32) dot_S5000x32_S32x32_S5000x32_1_0_0_1_n_n
      dot_S5000x32_S32x32_S5000x32_1_0_0_1_n_n bitsLt_bf16_f32
      shapeCasts_S1x32_S1x32 broadcasts_S1x32_S5000x32 shapeCasts_S1x32_S1x32 broadcasts_S1x32_S5000x32
      (addf (shapeCast S5000x32 x0 shapeCasts_S5000x32_S5000x32) (shapeCast S5000x32 x1 shapeCasts_S5000x32_S5000x32))
      x2 x3 x4 x5 x6 x7 x8 x9) rfl ?_
  rw [layerK_eq (d1 := dot_S5000x32_S32x32_S5000x32_1_0_0_1_n_n) (d2 := dot_S5000x32_S32x32_S5000x32_1_0_0_1_n_n) rfl rfl, shapeCast_self,
    shapeCast_self]
  rfl

/-- The third layer's body on its blocks. -/
theorem out2_eq (x0 x1 : Vec Ideal S5000x32 .f32) (x2 : Vec Ideal S32x32 .f32) (x3 : Vec Ideal S1x32 .f32)
    (x4 : Vec Ideal S32x32 .f32) (x5 x6 x7 x8 x9 : Vec Ideal S1x32 .f32) :
    out2_10 (F := Ideal) x0 x1 x2 x3 x4 x5 x6 x7 x8 x9
      = layerV (A := 5000) (K := 32) (H := 32) (M := 32) x0 x1 (truncf .bf16 x2 bitsLt_bf16_f32) x3
          (truncf .bf16 x4 bitsLt_bf16_f32) x5 x6 x7 x8 x9 := by
  unfold out2_10
  rw [View.canon_unit_zero hz]
  simp only [View.ld_unit_zero (S := S5000x32) hz, View.ld_unit_zero (S := S1x32) hz, View.ld_unit_zero (S := S32x32) hz]
  refine Eq.trans (b := layerK (A := 5000) (K := 32) (H := 32) (M := 32) dot_S5000x32_S32x32_S5000x32_1_0_0_1_n_n
      dot_S5000x32_S32x32_S5000x32_1_0_0_1_n_n bitsLt_bf16_f32
      shapeCasts_S1x32_S1x32 broadcasts_S1x32_S5000x32 shapeCasts_S1x32_S1x32 broadcasts_S1x32_S5000x32
      (addf (shapeCast S5000x32 x0 shapeCasts_S5000x32_S5000x32) (shapeCast S5000x32 x1 shapeCasts_S5000x32_S5000x32))
      x2 x3 x4 x5 x6 x7 x8 x9) rfl ?_
  rw [layerK_eq (d1 := dot_S5000x32_S32x32_S5000x32_1_0_0_1_n_n) (d2 := dot_S5000x32_S32x32_S5000x32_1_0_0_1_n_n) rfl rfl, shapeCast_self,
    shapeCast_self]
  rfl

/-- The head's body on its blocks. -/
theorem out3_eq (x0 : Vec Ideal S5000x32 .f32) (x1 : Vec Ideal S32x32 .f32) (x2 : Vec Ideal S1x32 .f32)
    (x3 : Vec Ideal S32x10 .f32) (x4 : Vec Ideal S1x10 .f32) :
    out3_5 (F := Ideal) x0 x1 x2 x3 x4
      = headV (A := 5000) (K := 32) (H := 32) (C := 10) x0 (truncf .bf16 x1 bitsLt_bf16_f32) x2
          (truncf .bf16 x3 bitsLt_bf16_f32) x4 := by
  unfold out3_5
  rw [View.canon_unit_zero hz]
  simp only [View.ld_unit_zero (S := S5000x32) hz, View.ld_unit_zero (S := S1x32) hz, View.ld_unit_zero (S := S32x32) hz,
    View.ld_unit_zero (S := S32x10) hz, View.ld_unit_zero (S := S1x10) hz]
  exact headK_eq (A := 5000) (K := 32) (H := 32) (C := 10) (d1 := dot_S5000x32_S32x32_S5000x32_1_0_0_1_n_n)
    (d2 := dot_S5000x32_S32x10_S5000x10_1_0_0_1_n_n) rfl rfl bitsLt_bf16_f32 shapeCasts_S5000x32_S5000x32
    shapeCasts_S1x32_S1x32 broadcasts_S1x32_S5000x32 shapeCasts_S1x10_S1x10 broadcasts_S1x10_S5000x10
    reduces_S5000x10_S5000 (.inl rfl) rfl rfl shapeCasts_S5000_S5000x1 broadcasts_S5000x1_S5000x10 x0 x1 x2 x3 x4

end Cert.KernelIdeal.KBody

end
-- ==== Proof.KernelRegions.lean ====
/-
  Each kernel region's output array after the region, as one function of the arrays the region finds. A region runs its
  body at ten grid points; at point `t` the features, the neighbour sums and the output window hold rows
  `5000·t … 5000·t + 4999` of their arrays and every other window holds its whole array. The body's result at row `p` of its
  block reads row `p` of the two row-tiled blocks only, so what point `t` writes back is rows `5000·t …` of the layer (or of
  the head) computed on the whole arrays; the ten blocks tile the output array, so the array ends at that function.
  Stated at any contents `V` of the buffers at the region's entry.
-/
import proofs.«162331_j44805098832501_1_alg».proof.Proof.KernelBody

set_option maxRecDepth 16384

noncomputable section

namespace Cert.KernelIdeal.KRegion

open Idealize.ShloMosaic Idealize.ShloMosaic.TcCoe Idealize.ShloMosaic.ValueIdx Idealize.ShloMosaic.GinLayer
open Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b)) (c : Dev nD)

/-! ## Region 0: layer 1 -/

section Region0

/-- The region's printed index maps, decided over its ten grid points: the features, the neighbour sums and the output move
    down the rows one block per point; the weights, biases and statistics stay at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- The layer of the arrays as the region finds them. -/
def G0 : FVec Ideal S50000x32 .f32 :=
  layerV (A := 50000) (K := 128) (H := 32) (M := 32) (V c main_arg0 : FVec Ideal S50000x128 .f32) (V c main_v13 : FVec Ideal S50000x128 .f32)
    (truncf .bf16 (V c main_arg2 : FVec Ideal S128x32 .f32) bitsLt_bf16_f32) (V c main_v14 : FVec Ideal S1x32 .f32) (truncf .bf16 (V c main_arg4 : FVec Ideal S32x32 .f32) bitsLt_bf16_f32) (V c main_v15 : FVec Ideal S1x32 .f32)
    (V c main_v16 : FVec Ideal S1x32 .f32) (V c main_v17 : FVec Ideal S1x32 .f32) (V c main_v18 : FVec Ideal S1x32 .f32) (V c main_v19 : FVec Ideal S1x32 .f32)

set_option maxHeartbeats 4000000 in
/-- What point `t` writes back is rows `5000·t … 5000·t + 4999` of that layer. -/
theorem flushed0 (t : Fin cfg0.N) :
    (dat0 V c).flushed 10 t = ((cfg0.win 10).blk t).view.read (Elt Ideal) (G0 V c) := by
  show (cfg0.win 10).cut (grid0.coords t) ((dat0 V c).after 10 t) = _
  rw [after0_10, KBody.out0_eq]
  obtain ⟨i0a, i0b, i1a, i1b, i2a, i2b, i3a, i3b, i4a, i4b, i5a, i5b, i6a, i6b, i7a, i7b, i8a, i8b, i9a, i9b, i10a, i10b⟩ := idx0 t
  have ht : t.val < 10 := by have h := t.isLt; have hN : cfg0.N = 10 := N_0; omega
  have e2 : (iblk0 V c 2 t : FVec Ideal S128x32 .f32) = (V c main_arg2 : FVec Ideal S128x32 .f32) := funext fun y => by
    show (V c main_arg2 : FVec Ideal S128x32 .f32) (((cfg0.win 2).blk t).view.emb y) = _
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 32 + 1 * (y 1).val = (y 1).val; omega
  have e3 : (iblk0 V c 3 t : FVec Ideal S1x32 .f32) = (V c main_v14 : FVec Ideal S1x32 .f32) := funext fun y => by
    show (V c main_v14 : FVec Ideal S1x32 .f32) (((cfg0.win 3).blk t).view.emb y) = _
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 32 + 1 * (y 1).val = (y 1).val; omega
  have e4 : (iblk0 V c 4 t : FVec Ideal S32x32 .f32) = (V c main_arg4 : FVec Ideal S32x32 .f32) := funext fun y => by
    show (V c main_arg4 : FVec Ideal S32x32 .f32) (((cfg0.win 4).blk t).view.emb y) = _
    refine congrArg _ (funext fun a => Fin.ext ?_)
    match a with
    | ⟨0, _⟩ => show win0_4.index t (0 : Fin 2) * 32 + 1 * (y 0).val = (y 0).val; omega
    | ⟨1, _⟩ => show win0_4.index t (1 : Fin 2) * 32 + 1 * (y 1).val = (y 1).val; omega
  have e5 : (iblk0 V c 5 t : FVec Ideal S1x32 .f32) = (V c main_v15 : FVec Ideal S1x32 .f32) := funext fun y => by
    show (V c main_v15 : FVec Ideal S1x32 .f32) (((cfg0.win 5).blk t).view.emb y) = _
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 32 + 1 * (y 1).val = (y 1).val; omega
  have e6 : (iblk0 V c 6 t : FVec Ideal S1x32 .f32) = (V c main_v16 : FVec Ideal S1x32 .f32) := funext fun y => by
    show (V c main_v16 : FVec Ideal S1x32 .f32) (((cfg0.win 6).blk t).view.emb y) = _
    refine congrArg _ (funext fun a => Fin.ext ?_)
    match a with
    | ⟨0, _⟩ => show win0_6.index t (0 : Fin 2) * 1 + 1 * (y 0).val = (y 0).val; omega
    | ⟨1, _⟩ => show win0_6.index t (1 : Fin 2) * 32 + 1 * (y 1).val = (y 1).val; omega
  have e7 : (iblk0 V c 7 t : FVec Ideal S1x32 .f32) = (V c main_v17 : FVec Ideal S1x32 .f32) := funext fun y => by
    show (V c main_v17 : FVec Ideal S1x32 .f32) (((cfg0.win 7).blk t).view.emb y) = _
    refine congrArg _ (funext fun a => Fin.ext ?_)
    match a with
    | ⟨0, _⟩ => show win0_7.index t (0 : Fin 2) * 1 + 1 * (y 0).val = (y 0).val; omega
    | ⟨1, _⟩ => show win0_7.index t (1 : Fin 2) * 32 + 1 * (y 1).val = (y 1).val; omega
  have e8 : (iblk0 V c 8 t : FVec Ideal S1x32 .f32) = (V c main_v18 : FVec Ideal S1x32 .f32) := funext fun y => by
    show (V c main_v18 : FVec Ideal S1x32 .f32) (((cfg0.win 8).blk t).view.emb y) = _
    refine congrArg _ (funext fun a => Fin.ext ?_)
    match a with
    | ⟨0, _⟩ => show win0_8.index t (0 : Fin 2) * 1 + 1 * (y 0).val = (y 0).val; omega
    | ⟨1, _⟩ => show win0_8.index t (1 : Fin 2) * 32 + 1 * (y 1).val = (y 1).val; omega
  have e9 : (iblk0 V c 9 t : FVec Ideal S1x32 .f32) = (V c main_v19 : FVec Ideal S1x32 .f32) := funext fun y => by
    show (V c main_v19 : FVec Ideal S1x32 .f32) (((cfg0.win 9).blk t).view.emb y) = _
    refine congrArg _ (funext fun a => Fin.ext ?_)
    match a with
    | ⟨0, _⟩ => show win0_9.index t (0 : Fin 2) * 1 + 1 * (y 0).val = (y 0).val; omega
    | ⟨1, _⟩ => show win0_9.index t (1 : Fin 2) * 32 + 1 * (y 1).val = (y 1).val; omega
  rw [e2, e3, e4, e5, e6, e7, e8, e9]
  funext j
  obtain ⟨p, q, rfl⟩ : ∃ (p : Fin 5000) (q : Fin 32), j = ix2 p q := ⟨j 0, j 1, eq_ix2 j⟩
  have hp := p.isLt
  have hr : ((cfg0.win 10).blk t).view.emb (ix2 p q) = (ix2 (⟨5000 * t.val + p.val, by omega⟩ : Fin 50000) q : S50000x32.Idx) :=
    funext fun a => Fin.ext (by
      match a with
      | ⟨0, _⟩ => show win0_10.index t (0 : Fin 2) * 5000 + 1 * p.val = 5000 * t.val + p.val; omega
      | ⟨1, _⟩ => show win0_10.index t (1 : Fin 2) * 32 + 1 * q.val = q.val; omega)
  show layerV (A := 5000) (K := 128) (H := 32) (M := 32) (iblk0 V c 0 t) (iblk0 V c 1 t) _ _ _ _ _ _ _ _ (ix2 p q)
    = G0 V c (((cfg0.win 10).blk t).view.emb (ix2 p q))
  rw [hr]
  unfold G0
  refine layerV_rows _ _ _ _ _ _ _ _ _ _ _ _ p (⟨5000 * t.val + p.val, by omega⟩ : Fin 50000) (fun k => ?_) (fun k => ?_) q
  · show (V c main_arg0 : FVec Ideal S50000x128 .f32) (((cfg0.win 0).blk t).view.emb (ix2 p k)) = _
    refine congrArg _ (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * k.val = k.val; omega
  · show (V c main_v13 : FVec Ideal S50000x128 .f32) (((cfg0.win 1).blk t).view.emb (ix2 p k)) = _
    refine congrArg _ (funext fun a => Fin.ext ?_)
    match a with
    | ⟨0, _⟩ => show win0_1.index t (0 : Fin 2) * 5000 + 1 * p.val = 5000 * t.val + p.val; omega
    | ⟨1, _⟩ => show win0_1.index t (1 : Fin 2) * 128 + 1 * k.val = k.val; omega

/-- Every row of the output array is in the block of the point `row / 5000`. -/
theorem cover0 (i : S50000x32.Idx) :
    ∃ t : Fin cfg0.N, (cfg0.win 10).flush t = true ∧ i ∈ ((cfg0.win 10).blk t).view.set := by
  have hi0 : (i 0).val < 50000 := (i 0).isLt
  have hi1 : (i 1).val < 32 := (i 1).isLt
  have hN : cfg0.N = 10 := N_0
  obtain ⟨t, ht⟩ : ∃ t : Fin cfg0.N, t.val = (i 0).val / 5000 := ⟨⟨(i 0).val / 5000, by omega⟩, rfl⟩
  refine ⟨t, flush0_10 t, ?_⟩
  obtain ⟨i0a, i0b, i1a, i1b, i2a, i2b, i3a, i3b, i4a, i4b, i5a, i5b, i6a, i6b, i7a, i7b, i8a, i8b, i9a, i9b, i10a, i10b⟩ := idx0 t
  show i ∈ ((View.whole main_v20).slice (win0_10.rect t)).set
  rw [View.set_slice_whole, Rect.mem_set_unit]
  intro a
  match a with
  | ⟨0, _⟩ =>
    show win0_10.index t (0 : Fin 2) * 5000 ≤ (i 0).val ∧ (i 0).val < win0_10.index t (0 : Fin 2) * 5000 + 5000
    omega
  | ⟨1, _⟩ =>
    show win0_10.index t (1 : Fin 2) * 32 ≤ (i 1).val ∧ (i 1).val < win0_10.index t (1 : Fin 2) * 32 + 32
    omega

/-- The output array after the region is the layer of the arrays as the region finds them. -/
theorem value0 : (dat0 V c).arrAt 10 cfg0.N = G0 V c :=
  (dat0 V c).arrAt_eq_of_cover 10 (G0 V c) (fun t _ => flushed0 V c t) (cover0)

/-- The same, with the region-entry arrays given by name. -/
theorem value0' {X S : FVec Ideal S50000x128 .f32} {Wa : FVec Ideal S128x32 .f32} {ba : FVec Ideal S1x32 .f32}
    {Wb : FVec Ideal S32x32 .f32} {bb g be mu v : FVec Ideal S1x32 .f32}
    (h0 : (V c main_arg0 : FVec Ideal S50000x128 .f32) = X) (h1 : (V c main_v13 : FVec Ideal S50000x128 .f32) = S) (h2 : (V c main_arg2 : FVec Ideal S128x32 .f32) = Wa) (h3 : (V c main_v14 : FVec Ideal S1x32 .f32) = ba) (h4 : (V c main_arg4 : FVec Ideal S32x32 .f32) = Wb) (h5 : (V c main_v15 : FVec Ideal S1x32 .f32) = bb) (h6 : (V c main_v16 : FVec Ideal S1x32 .f32) = g) (h7 : (V c main_v17 : FVec Ideal S1x32 .f32) = be) (h8 : (V c main_v18 : FVec Ideal S1x32 .f32) = mu) (h9 : (V c main_v19 : FVec Ideal S1x32 .f32) = v) :
    (dat0 V c).arrAt 10 cfg0.N = layerV (A := 50000) (K := 128) (H := 32) (M := 32) X S (truncf .bf16 Wa bitsLt_bf16_f32) ba
      (truncf .bf16 Wb bitsLt_bf16_f32) bb g be mu v := by
  subst h0 h1 h2 h3 h4 h5 h6 h7 h8 h9
  exact value0 V c

end Region0

/-! ## Region 1: layer 2 -/

section Region1

/-- The region's printed index maps, decided over its ten grid points: the features, the neighbour sums and the output move
    down the rows one block per point; the weights, biases and statistics stay at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- The layer of the arrays as the region finds them. -/
def G1 : FVec Ideal S50000x32 .f32 :=
  layerV (A := 50000) (K := 32) (H := 32) (M := 32) (V c main_v20 : FVec Ideal S50000x32 .f32) (V c main_v30 : FVec Ideal S50000x32 .f32)
    (truncf .bf16 (V c main_arg6 : FVec Ideal S32x32 .f32) bitsLt_bf16_f32) (V c main_v31 : FVec Ideal S1x32 .f32) (truncf .bf16 (V c main_arg8 : FVec Ideal S32x32 .f32) bitsLt_bf16_f32) (V c main_v32 : FVec Ideal S1x32 .f32)
    (V c main_v33 : FVec Ideal S1x32 .f32) (V c main_v34 : FVec Ideal S1x32 .f32) (V c main_v35 : FVec Ideal S1x32 .f32) (V c main_v36 : FVec Ideal S1x32 .f32)

set_option maxHeartbeats 4000000 in
/-- What point `t` writes back is rows `5000·t … 5000·t + 4999` of that layer. -/
theorem flushed1 (t : Fin cfg1.N) :
    (dat1 V c).flushed 10 t = ((cfg1.win 10).blk t).view.read (Elt Ideal) (G1 V c) := by
  show (cfg1.win 10).cut (grid1.coords t) ((dat1 V c).after 10 t) = _
  rw [after1_10, KBody.out1_eq]
  obtain ⟨i0a, i0b, i1a, i1b, i2a, i2b, i3a, i3b, i4a, i4b, i5a, i5b, i6a, i6b, i7a, i7b, i8a, i8b, i9a, i9b, i10a, i10b⟩ := idx1 t
  have ht : t.val < 10 := by have h := t.isLt; have hN : cfg1.N = 10 := N_1; omega
  have e2 : (iblk1 V c 2 t : FVec Ideal S32x32 .f32) = (V c main_arg6 : FVec Ideal S32x32 .f32) := funext fun y => by
    show (V c main_arg6 : FVec Ideal S32x32 .f32) (((cfg1.win 2).blk t).view.emb y) = _
    refine congrArg _ (funext fun a => Fin.ext ?_)
    match a with
    | ⟨0, _⟩ => show win1_2.index t (0 : Fin 2) * 32 + 1 * (y 0).val = (y 0).val; omega
    | ⟨1, _⟩ => show win1_2.index t (1 : Fin 2) * 32 + 1 * (y 1).val = (y 1).val; omega
  have e3 : (iblk1 V c 3 t : FVec Ideal S1x32 .f32) = (V c main_v31 : FVec Ideal S1x32 .f32) := funext fun y => by
    show (V c main_v31 : FVec Ideal S1x32 .f32) (((cfg1.win 3).blk t).view.emb y) = _
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 32 + 1 * (y 1).val = (y 1).val; omega
  have e4 : (iblk1 V c 4 t : FVec Ideal S32x32 .f32) = (V c main_arg8 : FVec Ideal S32x32 .f32) := funext fun y => by
    show (V c main_arg8 : FVec Ideal S32x32 .f32) (((cfg1.win 4).blk t).view.emb y) = _
    refine congrArg _ (funext fun a => Fin.ext ?_)
    match a with
    | ⟨0, _⟩ => show win1_4.index t (0 : Fin 2) * 32 + 1 * (y 0).val = (y 0).val; omega
    | ⟨1, _⟩ => show win1_4.index t (1 : Fin 2) * 32 + 1 * (y 1).val = (y 1).val; omega
  have e5 : (iblk1 V c 5 t : FVec Ideal S1x32 .f32) = (V c main_v32 : FVec Ideal S1x32 .f32) := funext fun y => by
    show (V c main_v32 : FVec Ideal S1x32 .f32) (((cfg1.win 5).blk t).view.emb y) = _
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 32 + 1 * (y 1).val = (y 1).val; omega
  have e6 : (iblk1 V c 6 t : FVec Ideal S1x32 .f32) = (V c main_v33 : FVec Ideal S1x32 .f32) := funext fun y => by
    show (V c main_v33 : FVec Ideal S1x32 .f32) (((cfg1.win 6).blk t).view.emb y) = _
    refine congrArg _ (funext fun a => Fin.ext ?_)
    match a with
    | ⟨0, _⟩ => show win1_6.index t (0 : Fin 2) * 1 + 1 * (y 0).val = (y 0).val; omega
    | ⟨1, _⟩ => show win1_6.index t (1 : Fin 2) * 32 + 1 * (y 1).val = (y 1).val; omega
  have e7 : (iblk1 V c 7 t : FVec Ideal S1x32 .f32) = (V c main_v34 : FVec Ideal S1x32 .f32) := funext fun y => by
    show (V c main_v34 : FVec Ideal S1x32 .f32) (((cfg1.win 7).blk t).view.emb y) = _
    refine congrArg _ (funext fun a => Fin.ext ?_)
    match a with
    | ⟨0, _⟩ => show win1_7.index t (0 : Fin 2) * 1 + 1 * (y 0).val = (y 0).val; omega
    | ⟨1, _⟩ => show win1_7.index t (1 : Fin 2) * 32 + 1 * (y 1).val = (y 1).val; omega
  have e8 : (iblk1 V c 8 t : FVec Ideal S1x32 .f32) = (V c main_v35 : FVec Ideal S1x32 .f32) := funext fun y => by
    show (V c main_v35 : FVec Ideal S1x32 .f32) (((cfg1.win 8).blk t).view.emb y) = _
    refine congrArg _ (funext fun a => Fin.ext ?_)
    match a with
    | ⟨0, _⟩ => show win1_8.index t (0 : Fin 2) * 1 + 1 * (y 0).val = (y 0).val; omega
    | ⟨1, _⟩ => show win1_8.index t (1 : Fin 2) * 32 + 1 * (y 1).val = (y 1).val; omega
  have e9 : (iblk1 V c 9 t : FVec Ideal S1x32 .f32) = (V c main_v36 : FVec Ideal S1x32 .f32) := funext fun y => by
    show (V c main_v36 : FVec Ideal S1x32 .f32) (((cfg1.win 9).blk t).view.emb y) = _
    refine congrArg _ (funext fun a => Fin.ext ?_)
    match a with
    | ⟨0, _⟩ => show win1_9.index t (0 : Fin 2) * 1 + 1 * (y 0).val = (y 0).val; omega
    | ⟨1, _⟩ => show win1_9.index t (1 : Fin 2) * 32 + 1 * (y 1).val = (y 1).val; omega
  rw [e2, e3, e4, e5, e6, e7, e8, e9]
  funext j
  obtain ⟨p, q, rfl⟩ : ∃ (p : Fin 5000) (q : Fin 32), j = ix2 p q := ⟨j 0, j 1, eq_ix2 j⟩
  have hp := p.isLt
  have hr : ((cfg1.win 10).blk t).view.emb (ix2 p q) = (ix2 (⟨5000 * t.val + p.val, by omega⟩ : Fin 50000) q : S50000x32.Idx) :=
    funext fun a => Fin.ext (by
      match a with
      | ⟨0, _⟩ => show win1_10.index t (0 : Fin 2) * 5000 + 1 * p.val = 5000 * t.val + p.val; omega
      | ⟨1, _⟩ => show win1_10.index t (1 : Fin 2) * 32 + 1 * q.val = q.val; omega)
  show layerV (A := 5000) (K := 32) (H := 32) (M := 32) (iblk1 V c 0 t) (iblk1 V c 1 t) _ _ _ _ _ _ _ _ (ix2 p q)
    = G1 V c (((cfg1.win 10).blk t).view.emb (ix2 p q))
  rw [hr]
  unfold G1
  refine layerV_rows _ _ _ _ _ _ _ _ _ _ _ _ p (⟨5000 * t.val + p.val, by omega⟩ : Fin 50000) (fun k => ?_) (fun k => ?_) q
  · show (V c main_v20 : FVec Ideal S50000x32 .f32) (((cfg1.win 0).blk t).view.emb (ix2 p k)) = _
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 32 + 1 * k.val = k.val; omega
  · show (V c main_v30 : FVec Ideal S50000x32 .f32) (((cfg1.win 1).blk t).view.emb (ix2 p k)) = _
    refine congrArg _ (funext fun a => Fin.ext ?_)
    match a with
    | ⟨0, _⟩ => show win1_1.index t (0 : Fin 2) * 5000 + 1 * p.val = 5000 * t.val + p.val; omega
    | ⟨1, _⟩ => show win1_1.index t (1 : Fin 2) * 32 + 1 * k.val = k.val; omega

/-- Every row of the output array is in the block of the point `row / 5000`. -/
theorem cover1 (i : S50000x32.Idx) :
    ∃ t : Fin cfg1.N, (cfg1.win 10).flush t = true ∧ i ∈ ((cfg1.win 10).blk t).view.set := by
  have hi0 : (i 0).val < 50000 := (i 0).isLt
  have hi1 : (i 1).val < 32 := (i 1).isLt
  have hN : cfg1.N = 10 := N_1
  obtain ⟨t, ht⟩ : ∃ t : Fin cfg1.N, t.val = (i 0).val / 5000 := ⟨⟨(i 0).val / 5000, by omega⟩, rfl⟩
  refine ⟨t, flush1_10 t, ?_⟩
  obtain ⟨i0a, i0b, i1a, i1b, i2a, i2b, i3a, i3b, i4a, i4b, i5a, i5b, i6a, i6b, i7a, i7b, i8a, i8b, i9a, i9b, i10a, i10b⟩ := idx1 t
  show i ∈ ((View.whole main_v37).slice (win1_10.rect t)).set
  rw [View.set_slice_whole, Rect.mem_set_unit]
  intro a
  match a with
  | ⟨0, _⟩ =>
    show win1_10.index t (0 : Fin 2) * 5000 ≤ (i 0).val ∧ (i 0).val < win1_10.index t (0 : Fin 2) * 5000 + 5000
    omega
  | ⟨1, _⟩ =>
    show win1_10.index t (1 : Fin 2) * 32 ≤ (i 1).val ∧ (i 1).val < win1_10.index t (1 : Fin 2) * 32 + 32
    omega

/-- The output array after the region is the layer of the arrays as the region finds them. -/
theorem value1 : (dat1 V c).arrAt 10 cfg1.N = G1 V c :=
  (dat1 V c).arrAt_eq_of_cover 10 (G1 V c) (fun t _ => flushed1 V c t) (cover1)

/-- The same, with the region-entry arrays given by name. -/
theorem value1' {X S : FVec Ideal S50000x32 .f32} {Wa : FVec Ideal S32x32 .f32} {ba : FVec Ideal S1x32 .f32}
    {Wb : FVec Ideal S32x32 .f32} {bb g be mu v : FVec Ideal S1x32 .f32}
    (h0 : (V c main_v20 : FVec Ideal S50000x32 .f32) = X) (h1 : (V c main_v30 : FVec Ideal S50000x32 .f32) = S) (h2 : (V c main_arg6 : FVec Ideal S32x32 .f32) = Wa) (h3 : (V c main_v31 : FVec Ideal S1x32 .f32) = ba) (h4 : (V c main_arg8 : FVec Ideal S32x32 .f32) = Wb) (h5 : (V c main_v32 : FVec Ideal S1x32 .f32) = bb) (h6 : (V c main_v33 : FVec Ideal S1x32 .f32) = g) (h7 : (V c main_v34 : FVec Ideal S1x32 .f32) = be) (h8 : (V c main_v35 : FVec Ideal S1x32 .f32) = mu) (h9 : (V c main_v36 : FVec Ideal S1x32 .f32) = v) :
    (dat1 V c).arrAt 10 cfg1.N = layerV (A := 50000) (K := 32) (H := 32) (M := 32) X S (truncf .bf16 Wa bitsLt_bf16_f32) ba
      (truncf .bf16 Wb bitsLt_bf16_f32) bb g be mu v := by
  subst h0 h1 h2 h3 h4 h5 h6 h7 h8 h9
  exact value1 V c

end Region1

/-! ## Region 2: layer 3 -/

section Region2

/-- The region's printed index maps, decided over its ten grid points: the features, the neighbour sums and the output move
    down the rows one block per point; the weights, biases and statistics stay at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

/-- The layer of the arrays as the region finds them. -/
def G2 : FVec Ideal S50000x32 .f32 :=
  layerV (A := 50000) (K := 32) (H := 32) (M := 32) (V c main_v37 : FVec Ideal S50000x32 .f32) (V c main_v47 : FVec Ideal S50000x32 .f32)
    (truncf .bf16 (V c main_arg10 : FVec Ideal S32x32 .f32) bitsLt_bf16_f32) (V c main_v48 : FVec Ideal S1x32 .f32) (truncf .bf16 (V c main_arg12 : FVec Ideal S32x32 .f32) bitsLt_bf16_f32) (V c main_v49 : FVec Ideal S1x32 .f32)
    (V c main_v50 : FVec Ideal S1x32 .f32) (V c main_v51 : FVec Ideal S1x32 .f32) (V c main_v52 : FVec Ideal S1x32 .f32) (V c main_v53 : FVec Ideal S1x32 .f32)

set_option maxHeartbeats 4000000 in
/-- What point `t` writes back is rows `5000·t … 5000·t + 4999` of that layer. -/
theorem flushed2 (t : Fin cfg2.N) :
    (dat2 V c).flushed 10 t = ((cfg2.win 10).blk t).view.read (Elt Ideal) (G2 V c) := by
  show (cfg2.win 10).cut (grid2.coords t) ((dat2 V c).after 10 t) = _
  rw [after2_10, KBody.out2_eq]
  obtain ⟨i0a, i0b, i1a, i1b, i2a, i2b, i3a, i3b, i4a, i4b, i5a, i5b, i6a, i6b, i7a, i7b, i8a, i8b, i9a, i9b, i10a, i10b⟩ := idx2 t
  have ht : t.val < 10 := by have h := t.isLt; have hN : cfg2.N = 10 := N_2; omega
  have e2 : (iblk2 V c 2 t : FVec Ideal S32x32 .f32) = (V c main_arg10 : FVec Ideal S32x32 .f32) := funext fun y => by
    show (V c main_arg10 : FVec Ideal S32x32 .f32) (((cfg2.win 2).blk t).view.emb y) = _
    refine congrArg _ (funext fun a => Fin.ext ?_)
    match a with
    | ⟨0, _⟩ => show win2_2.index t (0 : Fin 2) * 32 + 1 * (y 0).val = (y 0).val; omega
    | ⟨1, _⟩ => show win2_2.index t (1 : Fin 2) * 32 + 1 * (y 1).val = (y 1).val; omega
  have e3 : (iblk2 V c 3 t : FVec Ideal S1x32 .f32) = (V c main_v48 : FVec Ideal S1x32 .f32) := funext fun y => by
    show (V c main_v48 : FVec Ideal S1x32 .f32) (((cfg2.win 3).blk t).view.emb y) = _
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 32 + 1 * (y 1).val = (y 1).val; omega
  have e4 : (iblk2 V c 4 t : FVec Ideal S32x32 .f32) = (V c main_arg12 : FVec Ideal S32x32 .f32) := funext fun y => by
    show (V c main_arg12 : FVec Ideal S32x32 .f32) (((cfg2.win 4).blk t).view.emb y) = _
    refine congrArg _ (funext fun a => Fin.ext ?_)
    match a with
    | ⟨0, _⟩ => show win2_4.index t (0 : Fin 2) * 32 + 1 * (y 0).val = (y 0).val; omega
    | ⟨1, _⟩ => show win2_4.index t (1 : Fin 2) * 32 + 1 * (y 1).val = (y 1).val; omega
  have e5 : (iblk2 V c 5 t : FVec Ideal S1x32 .f32) = (V c main_v49 : FVec Ideal S1x32 .f32) := funext fun y => by
    show (V c main_v49 : FVec Ideal S1x32 .f32) (((cfg2.win 5).blk t).view.emb y) = _
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 32 + 1 * (y 1).val = (y 1).val; omega
  have e6 : (iblk2 V c 6 t : FVec Ideal S1x32 .f32) = (V c main_v50 : FVec Ideal S1x32 .f32) := funext fun y => by
    show (V c main_v50 : FVec Ideal S1x32 .f32) (((cfg2.win 6).blk t).view.emb y) = _
    refine congrArg _ (funext fun a => Fin.ext ?_)
    match a with
    | ⟨0, _⟩ => show win2_6.index t (0 : Fin 2) * 1 + 1 * (y 0).val = (y 0).val; omega
    | ⟨1, _⟩ => show win2_6.index t (1 : Fin 2) * 32 + 1 * (y 1).val = (y 1).val; omega
  have e7 : (iblk2 V c 7 t : FVec Ideal S1x32 .f32) = (V c main_v51 : FVec Ideal S1x32 .f32) := funext fun y => by
    show (V c main_v51 : FVec Ideal S1x32 .f32) (((cfg2.win 7).blk t).view.emb y) = _
    refine congrArg _ (funext fun a => Fin.ext ?_)
    match a with
    | ⟨0, _⟩ => show win2_7.index t (0 : Fin 2) * 1 + 1 * (y 0).val = (y 0).val; omega
    | ⟨1, _⟩ => show win2_7.index t (1 : Fin 2) * 32 + 1 * (y 1).val = (y 1).val; omega
  have e8 : (iblk2 V c 8 t : FVec Ideal S1x32 .f32) = (V c main_v52 : FVec Ideal S1x32 .f32) := funext fun y => by
    show (V c main_v52 : FVec Ideal S1x32 .f32) (((cfg2.win 8).blk t).view.emb y) = _
    refine congrArg _ (funext fun a => Fin.ext ?_)
    match a with
    | ⟨0, _⟩ => show win2_8.index t (0 : Fin 2) * 1 + 1 * (y 0).val = (y 0).val; omega
    | ⟨1, _⟩ => show win2_8.index t (1 : Fin 2) * 32 + 1 * (y 1).val = (y 1).val; omega
  have e9 : (iblk2 V c 9 t : FVec Ideal S1x32 .f32) = (V c main_v53 : FVec Ideal S1x32 .f32) := funext fun y => by
    show (V c main_v53 : FVec Ideal S1x32 .f32) (((cfg2.win 9).blk t).view.emb y) = _
    refine congrArg _ (funext fun a => Fin.ext ?_)
    match a with
    | ⟨0, _⟩ => show win2_9.index t (0 : Fin 2) * 1 + 1 * (y 0).val = (y 0).val; omega
    | ⟨1, _⟩ => show win2_9.index t (1 : Fin 2) * 32 + 1 * (y 1).val = (y 1).val; omega
  rw [e2, e3, e4, e5, e6, e7, e8, e9]
  funext j
  obtain ⟨p, q, rfl⟩ : ∃ (p : Fin 5000) (q : Fin 32), j = ix2 p q := ⟨j 0, j 1, eq_ix2 j⟩
  have hp := p.isLt
  have hr : ((cfg2.win 10).blk t).view.emb (ix2 p q) = (ix2 (⟨5000 * t.val + p.val, by omega⟩ : Fin 50000) q : S50000x32.Idx) :=
    funext fun a => Fin.ext (by
      match a with
      | ⟨0, _⟩ => show win2_10.index t (0 : Fin 2) * 5000 + 1 * p.val = 5000 * t.val + p.val; omega
      | ⟨1, _⟩ => show win2_10.index t (1 : Fin 2) * 32 + 1 * q.val = q.val; omega)
  show layerV (A := 5000) (K := 32) (H := 32) (M := 32) (iblk2 V c 0 t) (iblk2 V c 1 t) _ _ _ _ _ _ _ _ (ix2 p q)
    = G2 V c (((cfg2.win 10).blk t).view.emb (ix2 p q))
  rw [hr]
  unfold G2
  refine layerV_rows _ _ _ _ _ _ _ _ _ _ _ _ p (⟨5000 * t.val + p.val, by omega⟩ : Fin 50000) (fun k => ?_) (fun k => ?_) q
  · show (V c main_v37 : FVec Ideal S50000x32 .f32) (((cfg2.win 0).blk t).view.emb (ix2 p k)) = _
    refine congrArg _ (funext fun a => Fin.ext ?_)
    match a with
    | ⟨0, _⟩ => show win2_0.index t (0 : Fin 2) * 5000 + 1 * p.val = 5000 * t.val + p.val; omega
    | ⟨1, _⟩ => show win2_0.index t (1 : Fin 2) * 32 + 1 * k.val = k.val; omega
  · show (V c main_v47 : FVec Ideal S50000x32 .f32) (((cfg2.win 1).blk t).view.emb (ix2 p k)) = _
    refine congrArg _ (funext fun a => Fin.ext ?_)
    match a with
    | ⟨0, _⟩ => show win2_1.index t (0 : Fin 2) * 5000 + 1 * p.val = 5000 * t.val + p.val; omega
    | ⟨1, _⟩ => show win2_1.index t (1 : Fin 2) * 32 + 1 * k.val = k.val; omega

/-- Every row of the output array is in the block of the point `row / 5000`. -/
theorem cover2 (i : S50000x32.Idx) :
    ∃ t : Fin cfg2.N, (cfg2.win 10).flush t = true ∧ i ∈ ((cfg2.win 10).blk t).view.set := by
  have hi0 : (i 0).val < 50000 := (i 0).isLt
  have hi1 : (i 1).val < 32 := (i 1).isLt
  have hN : cfg2.N = 10 := N_2
  obtain ⟨t, ht⟩ : ∃ t : Fin cfg2.N, t.val = (i 0).val / 5000 := ⟨⟨(i 0).val / 5000, by omega⟩, rfl⟩
  refine ⟨t, flush2_10 t, ?_⟩
  obtain ⟨i0a, i0b, i1a, i1b, i2a, i2b, i3a, i3b, i4a, i4b, i5a, i5b, i6a, i6b, i7a, i7b, i8a, i8b, i9a, i9b, i10a, i10b⟩ := idx2 t
  show i ∈ ((View.whole main_v54).slice (win2_10.rect t)).set
  rw [View.set_slice_whole, Rect.mem_set_unit]
  intro a
  match a with
  | ⟨0, _⟩ =>
    show win2_10.index t (0 : Fin 2) * 5000 ≤ (i 0).val ∧ (i 0).val < win2_10.index t (0 : Fin 2) * 5000 + 5000
    omega
  | ⟨1, _⟩ =>
    show win2_10.index t (1 : Fin 2) * 32 ≤ (i 1).val ∧ (i 1).val < win2_10.index t (1 : Fin 2) * 32 + 32
    omega

/-- The output array after the region is the layer of the arrays as the region finds them. -/
theorem value2 : (dat2 V c).arrAt 10 cfg2.N = G2 V c :=
  (dat2 V c).arrAt_eq_of_cover 10 (G2 V c) (fun t _ => flushed2 V c t) (cover2)

/-- The same, with the region-entry arrays given by name. -/
theorem value2' {X S : FVec Ideal S50000x32 .f32} {Wa : FVec Ideal S32x32 .f32} {ba : FVec Ideal S1x32 .f32}
    {Wb : FVec Ideal S32x32 .f32} {bb g be mu v : FVec Ideal S1x32 .f32}
    (h0 : (V c main_v37 : FVec Ideal S50000x32 .f32) = X) (h1 : (V c main_v47 : FVec Ideal S50000x32 .f32) = S) (h2 : (V c main_arg10 : FVec Ideal S32x32 .f32) = Wa) (h3 : (V c main_v48 : FVec Ideal S1x32 .f32) = ba) (h4 : (V c main_arg12 : FVec Ideal S32x32 .f32) = Wb) (h5 : (V c main_v49 : FVec Ideal S1x32 .f32) = bb) (h6 : (V c main_v50 : FVec Ideal S1x32 .f32) = g) (h7 : (V c main_v51 : FVec Ideal S1x32 .f32) = be) (h8 : (V c main_v52 : FVec Ideal S1x32 .f32) = mu) (h9 : (V c main_v53 : FVec Ideal S1x32 .f32) = v) :
    (dat2 V c).arrAt 10 cfg2.N = layerV (A := 50000) (K := 32) (H := 32) (M := 32) X S (truncf .bf16 Wa bitsLt_bf16_f32) ba
      (truncf .bf16 Wb bitsLt_bf16_f32) bb g be mu v := by
  subst h0 h1 h2 h3 h4 h5 h6 h7 h8 h9
  exact value2 V c

end Region2

/-! ## Region 3: the head -/

section Region3

/-- The region's printed index maps, decided over its ten grid points. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The head of the arrays as the region finds them. -/
def G3 : FVec Ideal S50000x10 .f32 :=
  headV (A := 50000) (K := 32) (H := 32) (C := 10) (V c main_v54 : FVec Ideal S50000x32 .f32) (truncf .bf16 (V c main_arg26 : FVec Ideal S32x32 .f32) bitsLt_bf16_f32) (V c main_v55 : FVec Ideal S1x32 .f32)
    (truncf .bf16 (V c main_arg28 : FVec Ideal S32x10 .f32) bitsLt_bf16_f32) (V c main_v56 : FVec Ideal S1x10 .f32)

set_option maxHeartbeats 4000000 in
theorem flushed3 (t : Fin cfg3.N) :
    (dat3 V c).flushed 5 t = ((cfg3.win 5).blk t).view.read (Elt Ideal) (G3 V c) := by
  show (cfg3.win 5).cut (grid3.coords t) ((dat3 V c).after 5 t) = _
  rw [after3_5, KBody.out3_eq]
  obtain ⟨i0a, i0b, i1a, i1b, i2a, i2b, i3a, i3b, i4a, i4b, i5a, i5b⟩ := idx3 t
  have ht : t.val < 10 := by have h := t.isLt; have hN : cfg3.N = 10 := N_3; omega
  have e1 : (iblk3 V c 1 t : FVec Ideal S32x32 .f32) = (V c main_arg26 : FVec Ideal S32x32 .f32) := funext fun y => by
    show (V c main_arg26 : FVec Ideal S32x32 .f32) (((cfg3.win 1).blk t).view.emb y) = _
    refine congrArg _ (funext fun a => Fin.ext ?_)
    match a with
    | ⟨0, _⟩ => show win3_1.index t (0 : Fin 2) * 32 + 1 * (y 0).val = (y 0).val; omega
    | ⟨1, _⟩ => show win3_1.index t (1 : Fin 2) * 32 + 1 * (y 1).val = (y 1).val; omega
  have e2 : (iblk3 V c 2 t : FVec Ideal S1x32 .f32) = (V c main_v55 : FVec Ideal S1x32 .f32) := funext fun y => by
    show (V c main_v55 : FVec Ideal S1x32 .f32) (((cfg3.win 2).blk t).view.emb y) = _
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 32 + 1 * (y 1).val = (y 1).val; omega
  have e3 : (iblk3 V c 3 t : FVec Ideal S32x10 .f32) = (V c main_arg28 : FVec Ideal S32x10 .f32) := funext fun y => by
    show (V c main_arg28 : FVec Ideal S32x10 .f32) (((cfg3.win 3).blk t).view.emb y) = _
    refine congrArg _ (funext fun a => Fin.ext ?_)
    match a with
    | ⟨0, _⟩ => show win3_3.index t (0 : Fin 2) * 32 + 1 * (y 0).val = (y 0).val; omega
    | ⟨1, _⟩ => show win3_3.index t (1 : Fin 2) * 10 + 1 * (y 1).val = (y 1).val; omega
  have e4 : (iblk3 V c 4 t : FVec Ideal S1x10 .f32) = (V c main_v56 : FVec Ideal S1x10 .f32) := funext fun y => by
    show (V c main_v56 : FVec Ideal S1x10 .f32) (((cfg3.win 4).blk t).view.emb y) = _
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 10 + 1 * (y 1).val = (y 1).val; omega
  rw [e1, e2, e3, e4]
  funext j
  obtain ⟨p, q, rfl⟩ : ∃ (p : Fin 5000) (q : Fin 10), j = ix2 p q := ⟨j 0, j 1, eq_ix2 j⟩
  have hp := p.isLt
  have hr : ((cfg3.win 5).blk t).view.emb (ix2 p q) = (ix2 (⟨5000 * t.val + p.val, by omega⟩ : Fin 50000) q : S50000x10.Idx) :=
    funext fun a => Fin.ext (by
      match a with
      | ⟨0, _⟩ => show win3_5.index t (0 : Fin 2) * 5000 + 1 * p.val = 5000 * t.val + p.val; omega
      | ⟨1, _⟩ => show win3_5.index t (1 : Fin 2) * 10 + 1 * q.val = q.val; omega)
  show headV (A := 5000) (K := 32) (H := 32) (C := 10) (iblk3 V c 0 t) _ _ _ _ (ix2 p q)
    = G3 V c (((cfg3.win 5).blk t).view.emb (ix2 p q))
  rw [hr]
  unfold G3
  refine headV_rows _ _ _ _ _ _ p (⟨5000 * t.val + p.val, by omega⟩ : Fin 50000) (fun k => ?_) q
  show (V c main_v54 : FVec Ideal S50000x32 .f32) (((cfg3.win 0).blk t).view.emb (ix2 p k)) = _
  refine congrArg _ (funext fun a => Fin.ext ?_)
  match a with
  | ⟨0, _⟩ => show win3_0.index t (0 : Fin 2) * 5000 + 1 * p.val = 5000 * t.val + p.val; omega
  | ⟨1, _⟩ => show win3_0.index t (1 : Fin 2) * 32 + 1 * k.val = k.val; omega

theorem cover3 (i : S50000x10.Idx) :
    ∃ t : Fin cfg3.N, (cfg3.win 5).flush t = true ∧ i ∈ ((cfg3.win 5).blk t).view.set := by
  have hi0 : (i 0).val < 50000 := (i 0).isLt
  have hi1 : (i 1).val < 10 := (i 1).isLt
  have hN : cfg3.N = 10 := N_3
  obtain ⟨t, ht⟩ : ∃ t : Fin cfg3.N, t.val = (i 0).val / 5000 := ⟨⟨(i 0).val / 5000, by omega⟩, rfl⟩
  refine ⟨t, flush3_5 t, ?_⟩
  obtain ⟨i0a, i0b, i1a, i1b, i2a, i2b, i3a, i3b, i4a, i4b, i5a, i5b⟩ := idx3 t
  show i ∈ ((View.whole main_v57).slice (win3_5.rect t)).set
  rw [View.set_slice_whole, Rect.mem_set_unit]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 10 ≤ (i 1).val ∧ (i 1).val < win3_5.index t (1 : Fin 2) * 10 + 10
    omega

/-- The result array after the region is the head of the arrays as the region finds them. -/
theorem value3 : (dat3 V c).arrAt 5 cfg3.N = G3 V c :=
  (dat3 V c).arrAt_eq_of_cover 5 (G3 V c) (fun t _ => flushed3 V c t) (cover3)

/-- The same, with the region-entry arrays given by name. -/
theorem value3' {X : FVec Ideal S50000x32 .f32} {W1 : FVec Ideal S32x32 .f32} {b1 : FVec Ideal S1x32 .f32}
    {W2 : FVec Ideal S32x10 .f32} {b2 : FVec Ideal S1x10 .f32}
    (h0 : (V c main_v54 : FVec Ideal S50000x32 .f32) = X) (h1 : (V c main_arg26 : FVec Ideal S32x32 .f32) = W1)
    (h2 : (V c main_v55 : FVec Ideal S1x32 .f32) = b1) (h3 : (V c main_arg28 : FVec Ideal S32x10 .f32) = W2)
    (h4 : (V c main_v56 : FVec Ideal S1x10 .f32) = b2) :
    (dat3 V c).arrAt 5 cfg3.N = headV (A := 50000) (K := 32) (H := 32) (C := 10) X (truncf .bf16 W1 bitsLt_bf16_f32) b1
      (truncf .bf16 W2 bitsLt_bf16_f32) b2 := by
  subst h0 h1 h2 h3 h4
  exact value3 V c

end Region3

end Cert.KernelIdeal.KRegion

end
-- ==== Proof.GinNet.lean ====
/-
  The whole network as one function of its inputs: three graph-isomorphism layers (`GinLayer.layerV`), the first on
  128 feature columns and the others on 32, each fed the node features and their neighbour sums, and the classifier head
  (`GinLayer.headV`) on the last layer's output. The neighbour sums are a parameter: a function of the node features and
  of the edge list, one for 128 columns and one for 32. The weights are taken already rounded to bf16 and the biases and
  statistics already as `[1, M]` rows, which is how both the kernel's and the reference's spelling reach them.
-/
import proofs.«162331_j44805098832501_1_alg».proof.Proof.LibGinLayer

noncomputable section

namespace Cert.GinNet

open Idealize.ShloMosaic Idealize.ShloMosaic.GinLayer

/-- Three layers and the head on 50000 nodes. -/
def net {ε : Type}
    (agg1 : FVec Ideal ⟨2, ![50000, 128]⟩ .f32 → ε → FVec Ideal ⟨2, ![50000, 128]⟩ .f32)
    (agg2 : FVec Ideal ⟨2, ![50000, 32]⟩ .f32 → ε → FVec Ideal ⟨2, ![50000, 32]⟩ .f32)
    (x : FVec Ideal ⟨2, ![50000, 128]⟩ .f32) (e : ε)
    (W1a : FVec Ideal ⟨2, ![128, 32]⟩ .bf16) (b1a : FVec Ideal ⟨2, ![1, 32]⟩ .f32)
    (W1b : FVec Ideal ⟨2, ![32, 32]⟩ .bf16) (b1b : FVec Ideal ⟨2, ![1, 32]⟩ .f32)
    (W2a : FVec Ideal ⟨2, ![32, 32]⟩ .bf16) (b2a : FVec Ideal ⟨2, ![1, 32]⟩ .f32)
    (W2b : FVec Ideal ⟨2, ![32, 32]⟩ .bf16) (b2b : FVec Ideal ⟨2, ![1, 32]⟩ .f32)
    (W3a : FVec Ideal ⟨2, ![32, 32]⟩ .bf16) (b3a : FVec Ideal ⟨2, ![1, 32]⟩ .f32)
    (W3b : FVec Ideal ⟨2, ![32, 32]⟩ .bf16) (b3b : FVec Ideal ⟨2, ![1, 32]⟩ .f32)
    (g1 be1 m1 v1 g2 be2 m2 v2 g3 be3 m3 v3 : FVec Ideal ⟨2, ![1, 32]⟩ .f32)
    (Wf1 : FVec Ideal ⟨2, ![32, 32]⟩ .bf16) (bf1 : FVec Ideal ⟨2, ![1, 32]⟩ .f32)
    (Wf2 : FVec Ideal ⟨2, ![32, 10]⟩ .bf16) (bf2 : FVec Ideal ⟨2, ![1, 10]⟩ .f32) : FVec Ideal ⟨2, ![50000, 10]⟩ .f32 :=
  headV
    (layerV
      (layerV (layerV x (agg1 x e) W1a b1a W1b b1b g1 be1 m1 v1)
        (agg2 (layerV x (agg1 x e) W1a b1a W1b b1b g1 be1 m1 v1) e) W2a b2a W2b b2b g2 be2 m2 v2)
      (agg2 (layerV (layerV x (agg1 x e) W1a b1a W1b b1b g1 be1 m1 v1)
        (agg2 (layerV x (agg1 x e) W1a b1a W1b b1b g1 be1 m1 v1) e) W2a b2a W2b b2b g2 be2 m2 v2) e)
      W3a b3a W3b b3b g3 be3 m3 v3)
    Wf1 bf1 Wf2 bf2

end Cert.GinNet

end
-- ==== Proof.KernelChain.lean ====
/-
  The contents of every buffer the idealized kernel's four regions read, at each boundary between a stretch of host
  operations and a region, as a function of the launch memory; and from them the result array after the last region as
  the network function of the arguments. The host stretches compute the neighbour sums (a gather of the rows at each
  edge's source, the source index first wrapped when negative, then a scatter-add into each edge's target) and recast each
  bias and statistics vector `[32]` to a row `[1, 32]`; a stretch leaves every buffer it does not write as it found it, and a
  region leaves every buffer that is not one of its arrays as it found it.
-/
import proofs.«162331_j44805098832501_1_alg».proof.Proof.KernelRegions
import proofs.«162331_j44805098832501_1_alg».proof.Proof.GinNet

set_option maxRecDepth 16384

noncomputable section

namespace Cert.KernelIdeal.KChain

open Idealize.ShloMosaic Idealize.ShloMosaic.TcCoe Idealize.ShloMosaic.ValueIdx Idealize.ShloMosaic.GinLayer
open Idealize.SL.Sem Idealize.ShloMosaic.StableHlo
open Cert.KernelIdeal Cert.KernelIdeal.Gen Cert.KernelIdeal.GenP

section AnyFloat

variable {F : FTy → Type} [FloatOps F]

/-- Each edge's source node, from the edge list. -/
def srcv (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Each edge's target node. -/
def dstv (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The neighbour sums of 128-column features, as the kernel's host operations compute them. -/
def agg128 (x : (⟨S50000x128, .f32⟩ : BufTy).Contents (Elt F)) (e : (⟨S2x800000, .i32⟩ : BufTy).Contents (Elt F)) : (⟨S50000x128, .f32⟩ : BufTy).Contents (Elt F) :=
  (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x128_S800000x1_S800000x128_1_0_n_n_0_1_1128 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))))

/-- The neighbour sums of 32-column features. -/
def agg32 (x : (⟨S50000x32, .f32⟩ : BufTy).Contents (Elt F)) (e : (⟨S2x800000, .i32⟩ : BufTy).Contents (Elt F)) : (⟨S50000x32, .f32⟩ : BufTy).Contents (Elt F) :=
  (Host.scatterAdd scatter_S50000x32_S800000x1_S800000x32_1_0_0_1 (broadcastInDim S50000x32 ![] bcast_S_S50000x32 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x32_S800000x1_S800000x32_1_0_n_n_0_1_132 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))))

end AnyFloat

/-- A vector `[32]` as a row `[1, 32]`. -/
abbrev sc (b : FVec Ideal S32 .f32) : FVec Ideal S1x32 .f32 := shapeCast S1x32 b shapeCasts_S32_S1x32

variable (m : (ℓ : Loc nD τ sig) → Buf (Elt Ideal) ℓ) (ρ : Dev nD → PrngReg) (c : Dev nD)

set_option quotPrecheck false in
local notation "𝔞" n => m ((c.tc : Thread nD τ).loc n)

/-- The first layer's output. -/
def h1 : FVec Ideal S50000x32 .f32 :=
  layerV (A := 50000) (K := 128) (H := 32) (M := 32) (𝔞 main_arg0) (agg128 (F := Ideal) (𝔞 main_arg0) (𝔞 main_arg1))
    (truncf .bf16 (𝔞 main_arg2) bitsLt_bf16_f32) (sc (𝔞 main_arg3)) (truncf .bf16 (𝔞 main_arg4) bitsLt_bf16_f32) (sc (𝔞 main_arg5))
    (sc (𝔞 main_arg14)) (sc (𝔞 main_arg15)) (sc (𝔞 main_arg16)) (sc (𝔞 main_arg17))

/-- The second layer's output. -/
def h2 : FVec Ideal S50000x32 .f32 :=
  layerV (A := 50000) (K := 32) (H := 32) (M := 32) (h1 m c) (agg32 (F := Ideal) (h1 m c) (𝔞 main_arg1))
    (truncf .bf16 (𝔞 main_arg6) bitsLt_bf16_f32) (sc (𝔞 main_arg7)) (truncf .bf16 (𝔞 main_arg8) bitsLt_bf16_f32) (sc (𝔞 main_arg9))
    (sc (𝔞 main_arg18)) (sc (𝔞 main_arg19)) (sc (𝔞 main_arg20)) (sc (𝔞 main_arg21))

/-- The third layer's output. -/
def h3 : FVec Ideal S50000x32 .f32 :=
  layerV (A := 50000) (K := 32) (H := 32) (M := 32) (h2 m c) (agg32 (F := Ideal) (h2 m c) (𝔞 main_arg1))
    (truncf .bf16 (𝔞 main_arg10) bitsLt_bf16_f32) (sc (𝔞 main_arg11)) (truncf .bf16 (𝔞 main_arg12) bitsLt_bf16_f32) (sc (𝔞 main_arg13))
    (sc (𝔞 main_arg22)) (sc (𝔞 main_arg23)) (sc (𝔞 main_arg24)) (sc (𝔞 main_arg25))

/-! ## After the first stretch of host operations -/

theorem W1_arg0 : W1 m ρ c (Proc.devRef .tc main_arg0) = (𝔞 main_arg0) := by
  show StableHlo.after hostOps0 (W0 m ρ c) (Proc.devRef .tc main_arg0) = _
  simp only [hostOps0]
  after_results_simp <;> rfl
theorem W1_arg2 : W1 m ρ c (Proc.devRef .tc main_arg2) = (𝔞 main_arg2) := by
  show StableHlo.after hostOps0 (W0 m ρ c) (Proc.devRef .tc main_arg2) = _
  simp only [hostOps0]
  after_results_simp <;> rfl
theorem W1_arg4 : W1 m ρ c (Proc.devRef .tc main_arg4) = (𝔞 main_arg4) := by
  show StableHlo.after hostOps0 (W0 m ρ c) (Proc.devRef .tc main_arg4) = _
  simp only [hostOps0]
  after_results_simp <;> rfl
theorem W1_arg6 : W1 m ρ c (Proc.devRef .tc main_arg6) = (𝔞 main_arg6) := by
  show StableHlo.after hostOps0 (W0 m ρ c) (Proc.devRef .tc main_arg6) = _
  simp only [hostOps0]
  after_results_simp <;> rfl
theorem W1_arg7 : W1 m ρ c (Proc.devRef .tc main_arg7) = (𝔞 main_arg7) := by
  show StableHlo.after hostOps0 (W0 m ρ c) (Proc.devRef .tc main_arg7) = _
  simp only [hostOps0]
  after_results_simp <;> rfl
theorem W1_arg8 : W1 m ρ c (Proc.devRef .tc main_arg8) = (𝔞 main_arg8) := by
  show StableHlo.after hostOps0 (W0 m ρ c) (Proc.devRef .tc main_arg8) = _
  simp only [hostOps0]
  after_results_simp <;> rfl
theorem W1_arg9 : W1 m ρ c (Proc.devRef .tc main_arg9) = (𝔞 main_arg9) := by
  show StableHlo.after hostOps0 (W0 m ρ c) (Proc.devRef .tc main_arg9) = _
  simp only [hostOps0]
  after_results_simp <;> rfl
theorem W1_arg10 : W1 m ρ c (Proc.devRef .tc main_arg10) = (𝔞 main_arg10) := by
  show StableHlo.after hostOps0 (W0 m ρ c) (Proc.devRef .tc main_arg10) = _
  simp only [hostOps0]
  after_results_simp <;> rfl
theorem W1_arg11 : W1 m ρ c (Proc.devRef .tc main_arg11) = (𝔞 main_arg11) := by
  show StableHlo.after hostOps0 (W0 m ρ c) (Proc.devRef .tc main_arg11) = _
  simp only [hostOps0]
  after_results_simp <;> rfl
theorem W1_arg12 : W1 m ρ c (Proc.devRef .tc main_arg12) = (𝔞 main_arg12) := by
  show StableHlo.after hostOps0 (W0 m ρ c) (Proc.devRef .tc main_arg12) = _
  simp only [hostOps0]
  after_results_simp <;> rfl
theorem W1_arg13 : W1 m ρ c (Proc.devRef .tc main_arg13) = (𝔞 main_arg13) := by
  show StableHlo.after hostOps0 (W0 m ρ c) (Proc.devRef .tc main_arg13) = _
  simp only [hostOps0]
  after_results_simp <;> rfl
theorem W1_arg18 : W1 m ρ c (Proc.devRef .tc main_arg18) = (𝔞 main_arg18) := by
  show StableHlo.after hostOps0 (W0 m ρ c) (Proc.devRef .tc main_arg18) = _
  simp only [hostOps0]
  after_results_simp <;> rfl
theorem W1_arg19 : W1 m ρ c (Proc.devRef .tc main_arg19) = (𝔞 main_arg19) := by
  show StableHlo.after hostOps0 (W0 m ρ c) (Proc.devRef .tc main_arg19) = _
  simp only [hostOps0]
  after_results_simp <;> rfl
theorem W1_arg20 : W1 m ρ c (Proc.devRef .tc main_arg20) = (𝔞 main_arg20) := by
  show StableHlo.after hostOps0 (W0 m ρ c) (Proc.devRef .tc main_arg20) = _
  simp only [hostOps0]
  after_results_simp <;> rfl
theorem W1_arg21 : W1 m ρ c (Proc.devRef .tc main_arg21) = (𝔞 main_arg21) := by
  show StableHlo.after hostOps0 (W0 m ρ c) (Proc.devRef .tc main_arg21) = _
  simp only [hostOps0]
  after_results_simp <;> rfl
theorem W1_arg22 : W1 m ρ c (Proc.devRef .tc main_arg22) = (𝔞 main_arg22) := by
  show StableHlo.after hostOps0 (W0 m ρ c) (Proc.devRef .tc main_arg22) = _
  simp only [hostOps0]
  after_results_simp <;> rfl
theorem W1_arg23 : W1 m ρ c (Proc.devRef .tc main_arg23) = (𝔞 main_arg23) := by
  show StableHlo.after hostOps0 (W0 m ρ c) (Proc.devRef .tc main_arg23) = _
  simp only [hostOps0]
  after_results_simp <;> rfl
theorem W1_arg24 : W1 m ρ c (Proc.devRef .tc main_arg24) = (𝔞 main_arg24) := by
  show StableHlo.after hostOps0 (W0 m ρ c) (Proc.devRef .tc main_arg24) = _
  simp only [hostOps0]
  after_results_simp <;> rfl
theorem W1_arg25 : W1 m ρ c (Proc.devRef .tc main_arg25) = (𝔞 main_arg25) := by
  show StableHlo.after hostOps0 (W0 m ρ c) (Proc.devRef .tc main_arg25) = _
  simp only [hostOps0]
  after_results_simp <;> rfl
theorem W1_arg26 : W1 m ρ c (Proc.devRef .tc main_arg26) = (𝔞 main_arg26) := by
  show StableHlo.after hostOps0 (W0 m ρ c) (Proc.devRef .tc main_arg26) = _
  simp only [hostOps0]
  after_results_simp <;> rfl
theorem W1_arg27 : W1 m ρ c (Proc.devRef .tc main_arg27) = (𝔞 main_arg27) := by
  show StableHlo.after hostOps0 (W0 m ρ c) (Proc.devRef .tc main_arg27) = _
  simp only [hostOps0]
  after_results_simp <;> rfl
theorem W1_arg28 : W1 m ρ c (Proc.devRef .tc main_arg28) = (𝔞 main_arg28) := by
  show StableHlo.after hostOps0 (W0 m ρ c) (Proc.devRef .tc main_arg28) = _
  simp only [hostOps0]
  after_results_simp <;> rfl
theorem W1_arg29 : W1 m ρ c (Proc.devRef .tc main_arg29) = (𝔞 main_arg29) := by
  show StableHlo.after hostOps0 (W0 m ρ c) (Proc.devRef .tc main_arg29) = _
  simp only [hostOps0]
  after_results_simp <;> rfl
theorem W1_v1 : W1 m ρ c (Proc.devRef .tc main_v1) = srcv (F := Ideal) (𝔞 main_arg1) := by
  show StableHlo.after hostOps0 (W0 m ρ c) (Proc.devRef .tc main_v1) = _
  simp only [hostOps0]
  after_results_simp <;> rfl
theorem W1_v3 : W1 m ρ c (Proc.devRef .tc main_v3) = dstv (F := Ideal) (𝔞 main_arg1) := by
  show StableHlo.after hostOps0 (W0 m ρ c) (Proc.devRef .tc main_v3) = _
  simp only [hostOps0]
  after_results_simp <;> rfl
theorem W1_v13 : W1 m ρ c (Proc.devRef .tc main_v13) = agg128 (F := Ideal) (𝔞 main_arg0) (𝔞 main_arg1) := by
  show StableHlo.after hostOps0 (W0 m ρ c) (Proc.devRef .tc main_v13) = _
  simp only [hostOps0]
  after_results_simp <;> rfl
theorem W1_v14 : W1 m ρ c (Proc.devRef .tc main_v14) = (sc (𝔞 main_arg3)) := by
  show StableHlo.after hostOps0 (W0 m ρ c) (Proc.devRef .tc main_v14) = _
  simp only [hostOps0]
  after_results_simp <;> rfl
theorem W1_v15 : W1 m ρ c (Proc.devRef .tc main_v15) = (sc (𝔞 main_arg5)) := by
  show StableHlo.after hostOps0 (W0 m ρ c) (Proc.devRef .tc main_v15) = _
  simp only [hostOps0]
  after_results_simp <;> rfl
theorem W1_v16 : W1 m ρ c (Proc.devRef .tc main_v16) = (sc (𝔞 main_arg14)) := by
  show StableHlo.after hostOps0 (W0 m ρ c) (Proc.devRef .tc main_v16) = _
  simp only [hostOps0]
  after_results_simp <;> rfl
theorem W1_v17 : W1 m ρ c (Proc.devRef .tc main_v17) = (sc (𝔞 main_arg15)) := by
  show StableHlo.after hostOps0 (W0 m ρ c) (Proc.devRef .tc main_v17) = _
  simp only [hostOps0]
  after_results_simp <;> rfl
theorem W1_v18 : W1 m ρ c (Proc.devRef .tc main_v18) = (sc (𝔞 main_arg16)) := by
  show StableHlo.after hostOps0 (W0 m ρ c) (Proc.devRef .tc main_v18) = _
  simp only [hostOps0]
  after_results_simp <;> rfl
theorem W1_v19 : W1 m ρ c (Proc.devRef .tc main_v19) = (sc (𝔞 main_arg17)) := by
  show StableHlo.after hostOps0 (W0 m ρ c) (Proc.devRef .tc main_v19) = _
  simp only [hostOps0]
  after_results_simp <;> rfl

/-! ## After region 0 -/

theorem W2_v20 : W2 m ρ c (Proc.devRef .tc main_v20) = h1 m c :=
  (W2_arr m ρ c 10).trans (KRegion.value0' (V1 m ρ) c (W1_arg0 m ρ c) (W1_v13 m ρ c) (W1_arg2 m ρ c) (W1_v14 m ρ c) (W1_arg4 m ρ c)
    (W1_v15 m ρ c) (W1_v16 m ρ c) (W1_v17 m ρ c) (W1_v18 m ρ c) (W1_v19 m ρ c))
theorem W2_v1 : W2 m ρ c (Proc.devRef .tc main_v1) = srcv (F := Ideal) (𝔞 main_arg1) :=
  (W2_of_ne m ρ c main_v1 (by decide)).trans (W1_v1 m ρ c)
theorem W2_v3 : W2 m ρ c (Proc.devRef .tc main_v3) = dstv (F := Ideal) (𝔞 main_arg1) :=
  (W2_of_ne m ρ c main_v3 (by decide)).trans (W1_v3 m ρ c)
theorem W2_arg6 : W2 m ρ c (Proc.devRef .tc main_arg6) = (𝔞 main_arg6) :=
  (W2_of_ne m ρ c main_arg6 (by decide)).trans (W1_arg6 m ρ c)
theorem W2_arg7 : W2 m ρ c (Proc.devRef .tc main_arg7) = (𝔞 main_arg7) :=
  (W2_of_ne m ρ c main_arg7 (by decide)).trans (W1_arg7 m ρ c)
theorem W2_arg8 : W2 m ρ c (Proc.devRef .tc main_arg8) = (𝔞 main_arg8) :=
  (W2_of_ne m ρ c main_arg8 (by decide)).trans (W1_arg8 m ρ c)
theorem W2_arg9 : W2 m ρ c (Proc.devRef .tc main_arg9) = (𝔞 main_arg9) :=
  (W2_of_ne m ρ c main_arg9 (by decide)).trans (W1_arg9 m ρ c)
theorem W2_arg10 : W2 m ρ c (Proc.devRef .tc main_arg10) = (𝔞 main_arg10) :=
  (W2_of_ne m ρ c main_arg10 (by decide)).trans (W1_arg10 m ρ c)
theorem W2_arg11 : W2 m ρ c (Proc.devRef .tc main_arg11) = (𝔞 main_arg11) :=
  (W2_of_ne m ρ c main_arg11 (by decide)).trans (W1_arg11 m ρ c)
theorem W2_arg12 : W2 m ρ c (Proc.devRef .tc main_arg12) = (𝔞 main_arg12) :=
  (W2_of_ne m ρ c main_arg12 (by decide)).trans (W1_arg12 m ρ c)
theorem W2_arg13 : W2 m ρ c (Proc.devRef .tc main_arg13) = (𝔞 main_arg13) :=
  (W2_of_ne m ρ c main_arg13 (by decide)).trans (W1_arg13 m ρ c)
theorem W2_arg18 : W2 m ρ c (Proc.devRef .tc main_arg18) = (𝔞 main_arg18) :=
  (W2_of_ne m ρ c main_arg18 (by decide)).trans (W1_arg18 m ρ c)
theorem W2_arg19 : W2 m ρ c (Proc.devRef .tc main_arg19) = (𝔞 main_arg19) :=
  (W2_of_ne m ρ c main_arg19 (by decide)).trans (W1_arg19 m ρ c)
theorem W2_arg20 : W2 m ρ c (Proc.devRef .tc main_arg20) = (𝔞 main_arg20) :=
  (W2_of_ne m ρ c main_arg20 (by decide)).trans (W1_arg20 m ρ c)
theorem W2_arg21 : W2 m ρ c (Proc.devRef .tc main_arg21) = (𝔞 main_arg21) :=
  (W2_of_ne m ρ c main_arg21 (by decide)).trans (W1_arg21 m ρ c)
theorem W2_arg22 : W2 m ρ c (Proc.devRef .tc main_arg22) = (𝔞 main_arg22) :=
  (W2_of_ne m ρ c main_arg22 (by decide)).trans (W1_arg22 m ρ c)
theorem W2_arg23 : W2 m ρ c (Proc.devRef .tc main_arg23) = (𝔞 main_arg23) :=
  (W2_of_ne m ρ c main_arg23 (by decide)).trans (W1_arg23 m ρ c)
theorem W2_arg24 : W2 m ρ c (Proc.devRef .tc main_arg24) = (𝔞 main_arg24) :=
  (W2_of_ne m ρ c main_arg24 (by decide)).trans (W1_arg24 m ρ c)
theorem W2_arg25 : W2 m ρ c (Proc.devRef .tc main_arg25) = (𝔞 main_arg25) :=
  (W2_of_ne m ρ c main_arg25 (by decide)).trans (W1_arg25 m ρ c)
theorem W2_arg26 : W2 m ρ c (Proc.devRef .tc main_arg26) = (𝔞 main_arg26) :=
  (W2_of_ne m ρ c main_arg26 (by decide)).trans (W1_arg26 m ρ c)
theorem W2_arg27 : W2 m ρ c (Proc.devRef .tc main_arg27) = (𝔞 main_arg27) :=
  (W2_of_ne m ρ c main_arg27 (by decide)).trans (W1_arg27 m ρ c)
theorem W2_arg28 : W2 m ρ c (Proc.devRef .tc main_arg28) = (𝔞 main_arg28) :=
  (W2_of_ne m ρ c main_arg28 (by decide)).trans (W1_arg28 m ρ c)
theorem W2_arg29 : W2 m ρ c (Proc.devRef .tc main_arg29) = (𝔞 main_arg29) :=
  (W2_of_ne m ρ c main_arg29 (by decide)).trans (W1_arg29 m ρ c)

/-! ## After the second stretch of host operations -/

theorem W3_v30 : W3 m ρ c (Proc.devRef .tc main_v30) = agg32 (F := Ideal) (h1 m c) (𝔞 main_arg1) := by
  show StableHlo.after hostOps1 (W2 m ρ c) (Proc.devRef .tc main_v30) = _
  simp only [hostOps1]
  after_results_simp
  rw [W2_v20 m ρ c, W2_v1 m ρ c, W2_v3 m ρ c]
  rfl
theorem W3_v31 : W3 m ρ c (Proc.devRef .tc main_v31) = (sc (𝔞 main_arg7)) := by
  show StableHlo.after hostOps1 (W2 m ρ c) (Proc.devRef .tc main_v31) = _
  simp only [hostOps1]
  after_results_simp
  rw [W2_arg7 m ρ c]
  rfl
theorem W3_v32 : W3 m ρ c (Proc.devRef .tc main_v32) = (sc (𝔞 main_arg9)) := by
  show StableHlo.after hostOps1 (W2 m ρ c) (Proc.devRef .tc main_v32) = _
  simp only [hostOps1]
  after_results_simp
  rw [W2_arg9 m ρ c]
  rfl
theorem W3_v33 : W3 m ρ c (Proc.devRef .tc main_v33) = (sc (𝔞 main_arg18)) := by
  show StableHlo.after hostOps1 (W2 m ρ c) (Proc.devRef .tc main_v33) = _
  simp only [hostOps1]
  after_results_simp
  rw [W2_arg18 m ρ c]
  rfl
theorem W3_v34 : W3 m ρ c (Proc.devRef .tc main_v34) = (sc (𝔞 main_arg19)) := by
  show StableHlo.after hostOps1 (W2 m ρ c) (Proc.devRef .tc main_v34) = _
  simp only [hostOps1]
  after_results_simp
  rw [W2_arg19 m ρ c]
  rfl
theorem W3_v35 : W3 m ρ c (Proc.devRef .tc main_v35) = (sc (𝔞 main_arg20)) := by
  show StableHlo.after hostOps1 (W2 m ρ c) (Proc.devRef .tc main_v35) = _
  simp only [hostOps1]
  after_results_simp
  rw [W2_arg20 m ρ c]
  rfl
theorem W3_v36 : W3 m ρ c (Proc.devRef .tc main_v36) = (sc (𝔞 main_arg21)) := by
  show StableHlo.after hostOps1 (W2 m ρ c) (Proc.devRef .tc main_v36) = _
  simp only [hostOps1]
  after_results_simp
  rw [W2_arg21 m ρ c]
  rfl
theorem W3_v20 : W3 m ρ c (Proc.devRef .tc main_v20) = h1 m c := by
  show StableHlo.after hostOps1 (W2 m ρ c) (Proc.devRef .tc main_v20) = _
  simp only [hostOps1]
  after_results_simp <;> exact W2_v20 m ρ c
theorem W3_arg6 : W3 m ρ c (Proc.devRef .tc main_arg6) = (𝔞 main_arg6) := by
  show StableHlo.after hostOps1 (W2 m ρ c) (Proc.devRef .tc main_arg6) = _
  simp only [hostOps1]
  after_results_simp <;> exact W2_arg6 m ρ c
theorem W3_arg8 : W3 m ρ c (Proc.devRef .tc main_arg8) = (𝔞 main_arg8) := by
  show StableHlo.after hostOps1 (W2 m ρ c) (Proc.devRef .tc main_arg8) = _
  simp only [hostOps1]
  after_results_simp <;> exact W2_arg8 m ρ c
theorem W3_arg10 : W3 m ρ c (Proc.devRef .tc main_arg10) = (𝔞 main_arg10) := by
  show StableHlo.after hostOps1 (W2 m ρ c) (Proc.devRef .tc main_arg10) = _
  simp only [hostOps1]
  after_results_simp <;> exact W2_arg10 m ρ c
theorem W3_arg11 : W3 m ρ c (Proc.devRef .tc main_arg11) = (𝔞 main_arg11) := by
  show StableHlo.after hostOps1 (W2 m ρ c) (Proc.devRef .tc main_arg11) = _
  simp only [hostOps1]
  after_results_simp <;> exact W2_arg11 m ρ c
theorem W3_arg12 : W3 m ρ c (Proc.devRef .tc main_arg12) = (𝔞 main_arg12) := by
  show StableHlo.after hostOps1 (W2 m ρ c) (Proc.devRef .tc main_arg12) = _
  simp only [hostOps1]
  after_results_simp <;> exact W2_arg12 m ρ c
theorem W3_arg13 : W3 m ρ c (Proc.devRef .tc main_arg13) = (𝔞 main_arg13) := by
  show StableHlo.after hostOps1 (W2 m ρ c) (Proc.devRef .tc main_arg13) = _
  simp only [hostOps1]
  after_results_simp <;> exact W2_arg13 m ρ c
theorem W3_arg22 : W3 m ρ c (Proc.devRef .tc main_arg22) = (𝔞 main_arg22) := by
  show StableHlo.after hostOps1 (W2 m ρ c) (Proc.devRef .tc main_arg22) = _
  simp only [hostOps1]
  after_results_simp <;> exact W2_arg22 m ρ c
theorem W3_arg23 : W3 m ρ c (Proc.devRef .tc main_arg23) = (𝔞 main_arg23) := by
  show StableHlo.after hostOps1 (W2 m ρ c) (Proc.devRef .tc main_arg23) = _
  simp only [hostOps1]
  after_results_simp <;> exact W2_arg23 m ρ c
theorem W3_arg24 : W3 m ρ c (Proc.devRef .tc main_arg24) = (𝔞 main_arg24) := by
  show StableHlo.after hostOps1 (W2 m ρ c) (Proc.devRef .tc main_arg24) = _
  simp only [hostOps1]
  after_results_simp <;> exact W2_arg24 m ρ c
theorem W3_arg25 : W3 m ρ c (Proc.devRef .tc main_arg25) = (𝔞 main_arg25) := by
  show StableHlo.after hostOps1 (W2 m ρ c) (Proc.devRef .tc main_arg25) = _
  simp only [hostOps1]
  after_results_simp <;> exact W2_arg25 m ρ c
theorem W3_arg26 : W3 m ρ c (Proc.devRef .tc main_arg26) = (𝔞 main_arg26) := by
  show StableHlo.after hostOps1 (W2 m ρ c) (Proc.devRef .tc main_arg26) = _
  simp only [hostOps1]
  after_results_simp <;> exact W2_arg26 m ρ c
theorem W3_arg27 : W3 m ρ c (Proc.devRef .tc main_arg27) = (𝔞 main_arg27) := by
  show StableHlo.after hostOps1 (W2 m ρ c) (Proc.devRef .tc main_arg27) = _
  simp only [hostOps1]
  after_results_simp <;> exact W2_arg27 m ρ c
theorem W3_arg28 : W3 m ρ c (Proc.devRef .tc main_arg28) = (𝔞 main_arg28) := by
  show StableHlo.after hostOps1 (W2 m ρ c) (Proc.devRef .tc main_arg28) = _
  simp only [hostOps1]
  after_results_simp <;> exact W2_arg28 m ρ c
theorem W3_arg29 : W3 m ρ c (Proc.devRef .tc main_arg29) = (𝔞 main_arg29) := by
  show StableHlo.after hostOps1 (W2 m ρ c) (Proc.devRef .tc main_arg29) = _
  simp only [hostOps1]
  after_results_simp <;> exact W2_arg29 m ρ c
theorem W3_v1 : W3 m ρ c (Proc.devRef .tc main_v1) = srcv (F := Ideal) (𝔞 main_arg1) := by
  show StableHlo.after hostOps1 (W2 m ρ c) (Proc.devRef .tc main_v1) = _
  simp only [hostOps1]
  after_results_simp <;> exact W2_v1 m ρ c
theorem W3_v3 : W3 m ρ c (Proc.devRef .tc main_v3) = dstv (F := Ideal) (𝔞 main_arg1) := by
  show StableHlo.after hostOps1 (W2 m ρ c) (Proc.devRef .tc main_v3) = _
  simp only [hostOps1]
  after_results_simp <;> exact W2_v3 m ρ c

/-! ## After region 1 -/

theorem W4_v37 : W4 m ρ c (Proc.devRef .tc main_v37) = h2 m c :=
  (W4_arr m ρ c 10).trans (KRegion.value1' (V3 m ρ) c (W3_v20 m ρ c) (W3_v30 m ρ c) (W3_arg6 m ρ c) (W3_v31 m ρ c) (W3_arg8 m ρ c)
    (W3_v32 m ρ c) (W3_v33 m ρ c) (W3_v34 m ρ c) (W3_v35 m ρ c) (W3_v36 m ρ c))
theorem W4_v1 : W4 m ρ c (Proc.devRef .tc main_v1) = srcv (F := Ideal) (𝔞 main_arg1) :=
  (W4_of_ne m ρ c main_v1 (by decide)).trans (W3_v1 m ρ c)
theorem W4_v3 : W4 m ρ c (Proc.devRef .tc main_v3) = dstv (F := Ideal) (𝔞 main_arg1) :=
  (W4_of_ne m ρ c main_v3 (by decide)).trans (W3_v3 m ρ c)
theorem W4_arg10 : W4 m ρ c (Proc.devRef .tc main_arg10) = (𝔞 main_arg10) :=
  (W4_of_ne m ρ c main_arg10 (by decide)).trans (W3_arg10 m ρ c)
theorem W4_arg11 : W4 m ρ c (Proc.devRef .tc main_arg11) = (𝔞 main_arg11) :=
  (W4_of_ne m ρ c main_arg11 (by decide)).trans (W3_arg11 m ρ c)
theorem W4_arg12 : W4 m ρ c (Proc.devRef .tc main_arg12) = (𝔞 main_arg12) :=
  (W4_of_ne m ρ c main_arg12 (by decide)).trans (W3_arg12 m ρ c)
theorem W4_arg13 : W4 m ρ c (Proc.devRef .tc main_arg13) = (𝔞 main_arg13) :=
  (W4_of_ne m ρ c main_arg13 (by decide)).trans (W3_arg13 m ρ c)
theorem W4_arg22 : W4 m ρ c (Proc.devRef .tc main_arg22) = (𝔞 main_arg22) :=
  (W4_of_ne m ρ c main_arg22 (by decide)).trans (W3_arg22 m ρ c)
theorem W4_arg23 : W4 m ρ c (Proc.devRef .tc main_arg23) = (𝔞 main_arg23) :=
  (W4_of_ne m ρ c main_arg23 (by decide)).trans (W3_arg23 m ρ c)
theorem W4_arg24 : W4 m ρ c (Proc.devRef .tc main_arg24) = (𝔞 main_arg24) :=
  (W4_of_ne m ρ c main_arg24 (by decide)).trans (W3_arg24 m ρ c)
theorem W4_arg25 : W4 m ρ c (Proc.devRef .tc main_arg25) = (𝔞 main_arg25) :=
  (W4_of_ne m ρ c main_arg25 (by decide)).trans (W3_arg25 m ρ c)
theorem W4_arg26 : W4 m ρ c (Proc.devRef .tc main_arg26) = (𝔞 main_arg26) :=
  (W4_of_ne m ρ c main_arg26 (by decide)).trans (W3_arg26 m ρ c)
theorem W4_arg27 : W4 m ρ c (Proc.devRef .tc main_arg27) = (𝔞 main_arg27) :=
  (W4_of_ne m ρ c main_arg27 (by decide)).trans (W3_arg27 m ρ c)
theorem W4_arg28 : W4 m ρ c (Proc.devRef .tc main_arg28) = (𝔞 main_arg28) :=
  (W4_of_ne m ρ c main_arg28 (by decide)).trans (W3_arg28 m ρ c)
theorem W4_arg29 : W4 m ρ c (Proc.devRef .tc main_arg29) = (𝔞 main_arg29) :=
  (W4_of_ne m ρ c main_arg29 (by decide)).trans (W3_arg29 m ρ c)

/-! ## After the third stretch of host operations -/

theorem W5_v47 : W5 m ρ c (Proc.devRef .tc main_v47) = agg32 (F := Ideal) (h2 m c) (𝔞 main_arg1) := by
  show StableHlo.after hostOps2 (W4 m ρ c) (Proc.devRef .tc main_v47) = _
  simp only [hostOps2]
  after_results_simp
  rw [W4_v37 m ρ c, W4_v1 m ρ c, W4_v3 m ρ c]
  rfl
theorem W5_v48 : W5 m ρ c (Proc.devRef .tc main_v48) = (sc (𝔞 main_arg11)) := by
  show StableHlo.after hostOps2 (W4 m ρ c) (Proc.devRef .tc main_v48) = _
  simp only [hostOps2]
  after_results_simp
  rw [W4_arg11 m ρ c]
  rfl
theorem W5_v49 : W5 m ρ c (Proc.devRef .tc main_v49) = (sc (𝔞 main_arg13)) := by
  show StableHlo.after hostOps2 (W4 m ρ c) (Proc.devRef .tc main_v49) = _
  simp only [hostOps2]
  after_results_simp
  rw [W4_arg13 m ρ c]
  rfl
theorem W5_v50 : W5 m ρ c (Proc.devRef .tc main_v50) = (sc (𝔞 main_arg22)) := by
  show StableHlo.after hostOps2 (W4 m ρ c) (Proc.devRef .tc main_v50) = _
  simp only [hostOps2]
  after_results_simp
  rw [W4_arg22 m ρ c]
  rfl
theorem W5_v51 : W5 m ρ c (Proc.devRef .tc main_v51) = (sc (𝔞 main_arg23)) := by
  show StableHlo.after hostOps2 (W4 m ρ c) (Proc.devRef .tc main_v51) = _
  simp only [hostOps2]
  after_results_simp
  rw [W4_arg23 m ρ c]
  rfl
theorem W5_v52 : W5 m ρ c (Proc.devRef .tc main_v52) = (sc (𝔞 main_arg24)) := by
  show StableHlo.after hostOps2 (W4 m ρ c) (Proc.devRef .tc main_v52) = _
  simp only [hostOps2]
  after_results_simp
  rw [W4_arg24 m ρ c]
  rfl
theorem W5_v53 : W5 m ρ c (Proc.devRef .tc main_v53) = (sc (𝔞 main_arg25)) := by
  show StableHlo.after hostOps2 (W4 m ρ c) (Proc.devRef .tc main_v53) = _
  simp only [hostOps2]
  after_results_simp
  rw [W4_arg25 m ρ c]
  rfl
theorem W5_v37 : W5 m ρ c (Proc.devRef .tc main_v37) = h2 m c := by
  show StableHlo.after hostOps2 (W4 m ρ c) (Proc.devRef .tc main_v37) = _
  simp only [hostOps2]
  after_results_simp <;> exact W4_v37 m ρ c
theorem W5_arg10 : W5 m ρ c (Proc.devRef .tc main_arg10) = (𝔞 main_arg10) := by
  show StableHlo.after hostOps2 (W4 m ρ c) (Proc.devRef .tc main_arg10) = _
  simp only [hostOps2]
  after_results_simp <;> exact W4_arg10 m ρ c
theorem W5_arg12 : W5 m ρ c (Proc.devRef .tc main_arg12) = (𝔞 main_arg12) := by
  show StableHlo.after hostOps2 (W4 m ρ c) (Proc.devRef .tc main_arg12) = _
  simp only [hostOps2]
  after_results_simp <;> exact W4_arg12 m ρ c
theorem W5_arg26 : W5 m ρ c (Proc.devRef .tc main_arg26) = (𝔞 main_arg26) := by
  show StableHlo.after hostOps2 (W4 m ρ c) (Proc.devRef .tc main_arg26) = _
  simp only [hostOps2]
  after_results_simp <;> exact W4_arg26 m ρ c
theorem W5_arg27 : W5 m ρ c (Proc.devRef .tc main_arg27) = (𝔞 main_arg27) := by
  show StableHlo.after hostOps2 (W4 m ρ c) (Proc.devRef .tc main_arg27) = _
  simp only [hostOps2]
  after_results_simp <;> exact W4_arg27 m ρ c
theorem W5_arg28 : W5 m ρ c (Proc.devRef .tc main_arg28) = (𝔞 main_arg28) := by
  show StableHlo.after hostOps2 (W4 m ρ c) (Proc.devRef .tc main_arg28) = _
  simp only [hostOps2]
  after_results_simp <;> exact W4_arg28 m ρ c
theorem W5_arg29 : W5 m ρ c (Proc.devRef .tc main_arg29) = (𝔞 main_arg29) := by
  show StableHlo.after hostOps2 (W4 m ρ c) (Proc.devRef .tc main_arg29) = _
  simp only [hostOps2]
  after_results_simp <;> exact W4_arg29 m ρ c

/-! ## After region 2 -/

theorem W6_v54 : W6 m ρ c (Proc.devRef .tc main_v54) = h3 m c :=
  (W6_arr m ρ c 10).trans (KRegion.value2' (V5 m ρ) c (W5_v37 m ρ c) (W5_v47 m ρ c) (W5_arg10 m ρ c) (W5_v48 m ρ c) (W5_arg12 m ρ c)
    (W5_v49 m ρ c) (W5_v50 m ρ c) (W5_v51 m ρ c) (W5_v52 m ρ c) (W5_v53 m ρ c))
theorem W6_arg26 : W6 m ρ c (Proc.devRef .tc main_arg26) = (𝔞 main_arg26) :=
  (W6_of_ne m ρ c main_arg26 (by decide)).trans (W5_arg26 m ρ c)
theorem W6_arg27 : W6 m ρ c (Proc.devRef .tc main_arg27) = (𝔞 main_arg27) :=
  (W6_of_ne m ρ c main_arg27 (by decide)).trans (W5_arg27 m ρ c)
theorem W6_arg28 : W6 m ρ c (Proc.devRef .tc main_arg28) = (𝔞 main_arg28) :=
  (W6_of_ne m ρ c main_arg28 (by decide)).trans (W5_arg28 m ρ c)
theorem W6_arg29 : W6 m ρ c (Proc.devRef .tc main_arg29) = (𝔞 main_arg29) :=
  (W6_of_ne m ρ c main_arg29 (by decide)).trans (W5_arg29 m ρ c)

/-! ## After the last stretch of host operations -/

theorem W7_v55 : W7 m ρ c (Proc.devRef .tc main_v55) = (sc (𝔞 main_arg27)) := by
  show StableHlo.after hostOps3 (W6 m ρ c) (Proc.devRef .tc main_v55) = _
  simp only [hostOps3]
  after_results_simp
  rw [W6_arg27 m ρ c]
  rfl
theorem W7_v56 : W7 m ρ c (Proc.devRef .tc main_v56) = (shapeCast S1x10 (𝔞 main_arg29) shapeCasts_S10_S1x10) := by
  show StableHlo.after hostOps3 (W6 m ρ c) (Proc.devRef .tc main_v56) = _
  simp only [hostOps3]
  after_results_simp
  rw [W6_arg29 m ρ c]
  rfl
theorem W7_v54 : W7 m ρ c (Proc.devRef .tc main_v54) = h3 m c := by
  show StableHlo.after hostOps3 (W6 m ρ c) (Proc.devRef .tc main_v54) = _
  simp only [hostOps3]
  after_results_simp <;> exact W6_v54 m ρ c
theorem W7_arg26 : W7 m ρ c (Proc.devRef .tc main_arg26) = (𝔞 main_arg26) := by
  show StableHlo.after hostOps3 (W6 m ρ c) (Proc.devRef .tc main_arg26) = _
  simp only [hostOps3]
  after_results_simp <;> exact W6_arg26 m ρ c
theorem W7_arg28 : W7 m ρ c (Proc.devRef .tc main_arg28) = (𝔞 main_arg28) := by
  show StableHlo.after hostOps3 (W6 m ρ c) (Proc.devRef .tc main_arg28) = _
  simp only [hostOps3]
  after_results_simp <;> exact W6_arg28 m ρ c

/-! ## After region 3: the result -/

theorem W8_v57 : W8 m ρ c (Proc.devRef .tc main_v57)
    = headV (A := 50000) (K := 32) (H := 32) (C := 10) (h3 m c) (truncf .bf16 (𝔞 main_arg26) bitsLt_bf16_f32) (sc (𝔞 main_arg27))
        (truncf .bf16 (𝔞 main_arg28) bitsLt_bf16_f32) (shapeCast S1x10 (𝔞 main_arg29) shapeCasts_S10_S1x10) :=
  (W8_arr m ρ c 5).trans (KRegion.value3' (V7 m ρ) c (W7_v54 m ρ c) (W7_arg26 m ρ c) (W7_v55 m ρ c) (W7_arg28 m ρ c) (W7_v56 m ρ c))

/-- The result array after the run's last region is the network function of the arguments, at the kernel's neighbour
    sums. -/
theorem W8_v57_net : W8 m ρ c (Proc.devRef .tc main_v57)
    = Cert.GinNet.net (agg128 (F := Ideal)) (agg32 (F := Ideal)) (𝔞 main_arg0) (𝔞 main_arg1)
        (truncf .bf16 (𝔞 main_arg2) bitsLt_bf16_f32) (sc (𝔞 main_arg3)) (truncf .bf16 (𝔞 main_arg4) bitsLt_bf16_f32) (sc (𝔞 main_arg5))
        (truncf .bf16 (𝔞 main_arg6) bitsLt_bf16_f32) (sc (𝔞 main_arg7)) (truncf .bf16 (𝔞 main_arg8) bitsLt_bf16_f32) (sc (𝔞 main_arg9))
        (truncf .bf16 (𝔞 main_arg10) bitsLt_bf16_f32) (sc (𝔞 main_arg11)) (truncf .bf16 (𝔞 main_arg12) bitsLt_bf16_f32) (sc (𝔞 main_arg13))
        (sc (𝔞 main_arg14)) (sc (𝔞 main_arg15)) (sc (𝔞 main_arg16)) (sc (𝔞 main_arg17)) (sc (𝔞 main_arg18)) (sc (𝔞 main_arg19)) (sc (𝔞 main_arg20)) (sc (𝔞 main_arg21)) (sc (𝔞 main_arg22)) (sc (𝔞 main_arg23)) (sc (𝔞 main_arg24)) (sc (𝔞 main_arg25))
        (truncf .bf16 (𝔞 main_arg26) bitsLt_bf16_f32) (sc (𝔞 main_arg27)) (truncf .bf16 (𝔞 main_arg28) bitsLt_bf16_f32)
        (shapeCast S1x10 (𝔞 main_arg29) shapeCasts_S10_S1x10) :=
  (W8_v57 m ρ c).trans rfl

end Cert.KernelIdeal.KChain

end
-- ==== Proof.LibFold.lean ====
/-
  Two general facts about runs. (1) The contents after a list of host operations is a fold, so running two lists one after
  the other is running their concatenation: a long straight-line program can be cut at any operation and each part read
  separately. (2) Two facts about the final memory of every weakly fair execution of one program from one state hold
  together: termination and progress are the same statement in both, only the postconditions combine.
-/
import Idealize.ShloMosaic.Lib.StableHlo.Run

namespace Idealize.ShloMosaic.Fold

open Idealize.ShloMosaic Idealize.ShloMosaic.StableHlo Idealize.SL.Sem

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Two postconditions of one run hold together. -/
theorem run_and {nD : Nat} {τ : Topo} {sig : RefSig} {Val : EltTy → Type} {Λ : Labels}
    (defs : Defs nD τ sig Val Λ) (p : (c : Thread nD τ) → Prog (TpuEff nD τ sig Val Λ c.2) PUnit)
    (s : MemSt nD τ sig Val) {Q₁ Q₂ : PUnit × MemSt nD τ sig Val → Prop}
    (h₁ : θ_run defs p s Q₁) (h₂ : θ_run defs p s Q₂) : θ_run defs p s (fun r => Q₁ r ∧ Q₂ r) :=
  ⟨fun t ht hf => ⟨h₁.post t ht hf, h₂.post t ht hf⟩, h₁.progress, h₁.fair⟩

end Idealize.ShloMosaic.Fold
-- ==== Proof.RefStages.lean ====
/-
  The reference's result as the network function. The reference computes, on all 50000 rows at once, the neighbour sums
  (a gather of the rows at each edge's source followed by a scatter-add into each edge's target, the source index first
  wrapped when negative), three layers in the host's spelling and the head in the host's spelling: 162 host operations in
  a line. The contents after a line of operations is a fold, so the line is cut after each layer's last operation and each
  part is read from the contents the part before it leaves: the layer outputs, the edge endpoints and the arguments still
  to be used are carried from cut to cut. The result buffer then holds `GinNet.net` of the arguments at the reference's
  neighbour sums.
-/
import proofs.«162331_j44805098832501_1_alg».proof.Proof.RefRun
import proofs.«162331_j44805098832501_1_alg».proof.Proof.GinNet
import proofs.«162331_j44805098832501_1_alg».proof.Proof.LibFold

set_option maxRecDepth 131072

noncomputable section

namespace Cert.ReferenceIdeal.RefValue

open Idealize.ShloMosaic Idealize.ShloMosaic.TcCoe Idealize.SL.Sem Idealize.ShloMosaic.GinLayer Idealize.ShloMosaic.ReluMlp
open Idealize.ShloMosaic.SoftplusLayers
open Idealize.ShloMosaic.StableHlo Idealize.ShloMosaic.Fold
open Cert.ReferenceIdeal Cert.ReferenceIdeal.Gen Cert.ReferenceIdeal.ValueP

section AnyFloat

variable {F : FTy → Type} [FloatOps F]

/-- Each edge's source node, from the edge list. -/
def srcv (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Each edge's target node. -/
def dstv (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The neighbour sums of 128-column features, as the reference's host operations compute them. -/
def agg128 (x : (⟨S50000x128, .f32⟩ : BufTy).Contents (Elt F)) (e : (⟨S2x800000, .i32⟩ : BufTy).Contents (Elt F)) : (⟨S50000x128, .f32⟩ : BufTy).Contents (Elt F) :=
  (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x128_S800000x1_S800000x128_1_0_n_n_0_1_1128 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))))

/-- The neighbour sums of 32-column features. -/
def agg32 (x : (⟨S50000x32, .f32⟩ : BufTy).Contents (Elt F)) (e : (⟨S2x800000, .i32⟩ : BufTy).Contents (Elt F)) : (⟨S50000x32, .f32⟩ : BufTy).Contents (Elt F) :=
  (Host.scatterAdd scatter_S50000x32_S800000x1_S800000x32_1_0_0_1 (broadcastInDim S50000x32 ![] bcast_S_S50000x32 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x32_S800000x1_S800000x32_1_0_n_n_0_1_132 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))))

/-! ## The line of operations, cut after each layer -/

/-- Operations 1 … 48 of the reference's @main. -/
abbrev seg1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    binary main_v14 main_arg2 main_v15 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg3 main_v16 (broadcastInDim S1x32 ![1] bcast_S32_S1x32_1 : (⟨S32, .f32⟩ : BufTy).Contents (Elt F) → (⟨S1x32, .f32⟩ : BufTy).Contents (Elt F)),
    unary main_v16 main_v17 (broadcastInDim S50000x32 ![0, 1] bcast_S1x32_S50000x32_0_1 : (⟨S1x32, .f32⟩ : BufTy).Contents (Elt F) → (⟨S50000x32, .f32⟩ : BufTy).Contents (Elt F)),
    binary main_v15 main_v17 main_v18 (addf : (⟨S50000x32, .f32⟩ : BufTy).Contents (Elt F) → (⟨S50000x32, .f32⟩ : BufTy).Contents (Elt F) → (⟨S50000x32, .f32⟩ : BufTy).Contents (Elt F)),
    nullary main_cst_1 (constant S_ .f32 0x00000000#32),
    unary main_cst_1 main_v19 (broadcastInDim S50000x32 ![] bcast_S_S50000x32 : (⟨S_, .f32⟩ : BufTy).Contents (Elt F) → (⟨S50000x32, .f32⟩ : BufTy).Contents (Elt F)),
    binary main_v18 main_v19 main_v20 (maximumf : (⟨S50000x32, .f32⟩ : BufTy).Contents (Elt F) → (⟨S50000x32, .f32⟩ : BufTy).Contents (Elt F) → (⟨S50000x32, .f32⟩ : BufTy).Contents (Elt F)),
    binary main_v20 main_arg4 main_v21 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_arg5 main_v22 (broadcastInDim S1x32 ![1] bcast_S32_S1x32_1 : (⟨S32, .f32⟩ : BufTy).Contents (Elt F) → (⟨S1x32, .f32⟩ : BufTy).Contents (Elt F)),
    unary main_v22 main_v23 (broadcastInDim S50000x32 ![0, 1] bcast_S1x32_S50000x32_0_1 : (⟨S1x32, .f32⟩ : BufTy).Contents (Elt F) → (⟨S50000x32, .f32⟩ : BufTy).Contents (Elt F)),
    binary main_v21 main_v23 main_v24 (addf : (⟨S50000x32, .f32⟩ : BufTy).Contents (Elt F) → (⟨S50000x32, .f32⟩ : BufTy).Contents (Elt F) → (⟨S50000x32, .f32⟩ : BufTy).Contents (Elt F)),
    nullary main_cst_2 (constant S_ .f32 0x00000000#32),
    unary main_cst_2 main_v25 (broadcastInDim S50000x32 ![] bcast_S_S50000x32 : (⟨S_, .f32⟩ : BufTy).Contents (Elt F) → (⟨S50000x32, .f32⟩ : BufTy).Contents (Elt F)),
    binary main_v24 main_v25 main_v26 (maximumf : (⟨S50000x32, .f32⟩ : BufTy).Contents (Elt F) → (⟨S50000x32, .f32⟩ : BufTy).Contents (Elt F) → (⟨S50000x32, .f32⟩ : BufTy).Contents (Elt F)),
    unary main_arg16 main_v27 (broadcastInDim S1x32 ![1] bcast_S32_S1x32_1 : (⟨S32, .f32⟩ : BufTy).Contents (Elt F) → (⟨S1x32, .f32⟩ : BufTy).Contents (Elt F)),
    unary main_v27 main_v28 (broadcastInDim S50000x32 ![0, 1] bcast_S1x32_S50000x32_0_1 : (⟨S1x32, .f32⟩ : BufTy).Contents (Elt F) → (⟨S50000x32, .f32⟩ : BufTy).Contents (Elt F)),
    binary main_v26 main_v28 main_v29 (subf : (⟨S50000x32, .f32⟩ : BufTy).Contents (Elt F) → (⟨S50000x32, .f32⟩ : BufTy).Contents (Elt F) → (⟨S50000x32, .f32⟩ : BufTy).Contents (Elt F)),
    nullary main_cst_3 (constant S_ .f32 0x3727C5AC#32),
    unary main_cst_3 main_v30 (broadcastInDim S32 ![] bcast_S_S32 : (⟨S_, .f32⟩ : BufTy).Contents (Elt F) → (⟨S32, .f32⟩ : BufTy).Contents (Elt F)),
    binary main_arg17 main_v30 main_v31 (addf : (⟨S32, .f32⟩ : BufTy).Contents (Elt F) → (⟨S32, .f32⟩ : BufTy).Contents (Elt F) → (⟨S32, .f32⟩ : BufTy).Contents (Elt F)),
    unary main_v31 main_v32 (Host.rsqrt : (⟨S32, .f32⟩ : BufTy).Contents (Elt F) → (⟨S32, .f32⟩ : BufTy).Contents (Elt F)),
    unary main_v32 main_v33 (broadcastInDim S1x32 ![1] bcast_S32_S1x32_1 : (⟨S32, .f32⟩ : BufTy).Contents (Elt F) → (⟨S1x32, .f32⟩ : BufTy).Contents (Elt F)),
    unary main_v33 main_v34 (broadcastInDim S50000x32 ![0, 1] bcast_S1x32_S50000x32_0_1 : (⟨S1x32, .f32⟩ : BufTy).Contents (Elt F) → (⟨S50000x32, .f32⟩ : BufTy).Contents (Elt F)),
    binary main_v29 main_v34 main_v35 (mulf : (⟨S50000x32, .f32⟩ : BufTy).Contents (Elt F) → (⟨S50000x32, .f32⟩ : BufTy).Contents (Elt F) → (⟨S50000x32, .f32⟩ : BufTy).Contents (Elt F)),
    unary main_arg14 main_v36 (broadcastInDim S1x32 ![1] bcast_S32_S1x32_1 : (⟨S32, .f32⟩ : BufTy).Contents (Elt F) → (⟨S1x32, .f32⟩ : BufTy).Contents (Elt F)),
    unary main_v36 main_v37 (broadcastInDim S50000x32 ![0, 1] bcast_S1x32_S50000x32_0_1 : (⟨S1x32, .f32⟩ : BufTy).Contents (Elt F) → (⟨S50000x32, .f32⟩ : BufTy).Contents (Elt F)),
    binary main_v35 main_v37 main_v38 (mulf : (⟨S50000x32, .f32⟩ : BufTy).Contents (Elt F) → (⟨S50000x32, .f32⟩ : BufTy).Contents (Elt F) → (⟨S50000x32, .f32⟩ : BufTy).Contents (Elt F)),
    unary main_arg15 main_v39 (broadcastInDim S1x32 ![1] bcast_S32_S1x32_1 : (⟨S32, .f32⟩ : BufTy).Contents (Elt F) → (⟨S1x32, .f32⟩ : BufTy).Contents (Elt F)),
    unary main_v39 main_v40 (broadcastInDim S50000x32 ![0, 1] bcast_S1x32_S50000x32_0_1 : (⟨S1x32, .f32⟩ : BufTy).Contents (Elt F) → (⟨S50000x32, .f32⟩ : BufTy).Contents (Elt F)),
    binary main_v38 main_v40 main_v41 (addf : (⟨S50000x32, .f32⟩ : BufTy).Contents (Elt F) → (⟨S50000x32, .f32⟩ : BufTy).Contents (Elt F) → (⟨S50000x32, .f32⟩ : BufTy).Contents (Elt F)) ]

/-- Operations 49 … 92 of the reference's @main. -/
abbrev seg2 : List (HloOp τ sig (Elt F)) :=
  [ nullary main_c_4 (constantI S_ 32 0#32),
    unary main_c_4 main_v42 (broadcastInDim S800000 ![] bcast_S_S800000 : (⟨S_, .i32⟩ : BufTy).Contents (Elt F) → (⟨S800000, .i32⟩ : BufTy).Contents (Elt F)),
    binary main_v1 main_v42 main_v43 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v44 (broadcastInDim S800000 ![] bcast_S_S800000 : (⟨S_, .i32⟩ : BufTy).Contents (Elt F) → (⟨S800000, .i32⟩ : BufTy).Contents (Elt F)),
    binary main_v1 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_v1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_v41 main_v47 main_v48 ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)),
    nullary main_cst_6 (constant S_ .f32 0x00000000#32),
    unary main_cst_6 main_v49 (broadcastInDim S50000x32 ![] bcast_S_S50000x32 : (⟨S_, .f32⟩ : BufTy).Contents (Elt F) → (⟨S50000x32, .f32⟩ : BufTy).Contents (Elt F)),
    unary main_v3 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    binary main_v41 main_v51 main_v52 (addf : (⟨S50000x32, .f32⟩ : BufTy).Contents (Elt F) → (⟨S50000x32, .f32⟩ : BufTy).Contents (Elt F) → (⟨S50000x32, .f32⟩ : BufTy).Contents (Elt F)),
    binary main_v52 main_arg6 main_v53 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_arg7 main_v54 (broadcastInDim S1x32 ![1] bcast_S32_S1x32_1 : (⟨S32, .f32⟩ : BufTy).Contents (Elt F) → (⟨S1x32, .f32⟩ : BufTy).Contents (Elt F)),
    unary main_v54 main_v55 (broadcastInDim S50000x32 ![0, 1] bcast_S1x32_S50000x32_0_1 : (⟨S1x32, .f32⟩ : BufTy).Contents (Elt F) → (⟨S50000x32, .f32⟩ : BufTy).Contents (Elt F)),
    binary main_v53 main_v55 main_v56 (addf : (⟨S50000x32, .f32⟩ : BufTy).Contents (Elt F) → (⟨S50000x32, .f32⟩ : BufTy).Contents (Elt F) → (⟨S50000x32, .f32⟩ : BufTy).Contents (Elt F)),
    nullary main_cst_7 (constant S_ .f32 0x00000000#32),
    unary main_cst_7 main_v57 (broadcastInDim S50000x32 ![] bcast_S_S50000x32 : (⟨S_, .f32⟩ : BufTy).Contents (Elt F) → (⟨S50000x32, .f32⟩ : BufTy).Contents (Elt F)),
    binary main_v56 main_v57 main_v58 (maximumf : (⟨S50000x32, .f32⟩ : BufTy).Contents (Elt F) → (⟨S50000x32, .f32⟩ : BufTy).Contents (Elt F) → (⟨S50000x32, .f32⟩ : BufTy).Contents (Elt F)),
    binary main_v58 main_arg8 main_v59 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_arg9 main_v60 (broadcastInDim S1x32 ![1] bcast_S32_S1x32_1 : (⟨S32, .f32⟩ : BufTy).Contents (Elt F) → (⟨S1x32, .f32⟩ : BufTy).Contents (Elt F)),
    unary main_v60 main_v61 (broadcastInDim S50000x32 ![0, 1] bcast_S1x32_S50000x32_0_1 : (⟨S1x32, .f32⟩ : BufTy).Contents (Elt F) → (⟨S50000x32, .f32⟩ : BufTy).Contents (Elt F)),
    binary main_v59 main_v61 main_v62 (addf : (⟨S50000x32, .f32⟩ : BufTy).Contents (Elt F) → (⟨S50000x32, .f32⟩ : BufTy).Contents (Elt F) → (⟨S50000x32, .f32⟩ : BufTy).Contents (Elt F)),
    nullary main_cst_8 (constant S_ .f32 0x00000000#32),
    unary main_cst_8 main_v63 (broadcastInDim S50000x32 ![] bcast_S_S50000x32 : (⟨S_, .f32⟩ : BufTy).Contents (Elt F) → (⟨S50000x32, .f32⟩ : BufTy).Contents (Elt F)),
    binary main_v62 main_v63 main_v64 (maximumf : (⟨S50000x32, .f32⟩ : BufTy).Contents (Elt F) → (⟨S50000x32, .f32⟩ : BufTy).Contents (Elt F) → (⟨S50000x32, .f32⟩ : BufTy).Contents (Elt F)),
    unary main_arg20 main_v65 (broadcastInDim S1x32 ![1] bcast_S32_S1x32_1 : (⟨S32, .f32⟩ : BufTy).Contents (Elt F) → (⟨S1x32, .f32⟩ : BufTy).Contents (Elt F)),
    unary main_v65 main_v66 (broadcastInDim S50000x32 ![0, 1] bcast_S1x32_S50000x32_0_1 : (⟨S1x32, .f32⟩ : BufTy).Contents (Elt F) → (⟨S50000x32, .f32⟩ : BufTy).Contents (Elt F)),
    binary main_v64 main_v66 main_v67 (subf : (⟨S50000x32, .f32⟩ : BufTy).Contents (Elt F) → (⟨S50000x32, .f32⟩ : BufTy).Contents (Elt F) → (⟨S50000x32, .f32⟩ : BufTy).Contents (Elt F)),
    nullary main_cst_9 (constant S_ .f32 0x3727C5AC#32),
    unary main_cst_9 main_v68 (broadcastInDim S32 ![] bcast_S_S32 : (⟨S_, .f32⟩ : BufTy).Contents (Elt F) → (⟨S32, .f32⟩ : BufTy).Contents (Elt F)),
    binary main_arg21 main_v68 main_v69 (addf : (⟨S32, .f32⟩ : BufTy).Contents (Elt F) → (⟨S32, .f32⟩ : BufTy).Contents (Elt F) → (⟨S32, .f32⟩ : BufTy).Contents (Elt F)),
    unary main_v69 main_v70 (Host.rsqrt : (⟨S32, .f32⟩ : BufTy).Contents (Elt F) → (⟨S32, .f32⟩ : BufTy).Contents (Elt F)),
    unary main_v70 main_v71 (broadcastInDim S1x32 ![1] bcast_S32_S1x32_1 : (⟨S32, .f32⟩ : BufTy).Contents (Elt F) → (⟨S1x32, .f32⟩ : BufTy).Contents (Elt F)),
    unary main_v71 main_v72 (broadcastInDim S50000x32 ![0, 1] bcast_S1x32_S50000x32_0_1 : (⟨S1x32, .f32⟩ : BufTy).Contents (Elt F) → (⟨S50000x32, .f32⟩ : BufTy).Contents (Elt F)),
    binary main_v67 main_v72 main_v73 (mulf : (⟨S50000x32, .f32⟩ : BufTy).Contents (Elt F) → (⟨S50000x32, .f32⟩ : BufTy).Contents (Elt F) → (⟨S50000x32, .f32⟩ : BufTy).Contents (Elt F)),
    unary main_arg18 main_v74 (broadcastInDim S1x32 ![1] bcast_S32_S1x32_1 : (⟨S32, .f32⟩ : BufTy).Contents (Elt F) → (⟨S1x32, .f32⟩ : BufTy).Contents (Elt F)),
    unary main_v74 main_v75 (broadcastInDim S50000x32 ![0, 1] bcast_S1x32_S50000x32_0_1 : (⟨S1x32, .f32⟩ : BufTy).Contents (Elt F) → (⟨S50000x32, .f32⟩ : BufTy).Contents (Elt F)),
    binary main_v73 main_v75 main_v76 (mulf : (⟨S50000x32, .f32⟩ : BufTy).Contents (Elt F) → (⟨S50000x32, .f32⟩ : BufTy).Contents (Elt F) → (⟨S50000x32, .f32⟩ : BufTy).Contents (Elt F)),
    unary main_arg19 main_v77 (broadcastInDim S1x32 ![1] bcast_S32_S1x32_1 : (⟨S32, .f32⟩ : BufTy).Contents (Elt F) → (⟨S1x32, .f32⟩ : BufTy).Contents (Elt F)),
    unary main_v77 main_v78 (broadcastInDim S50000x32 ![0, 1] bcast_S1x32_S50000x32_0_1 : (⟨S1x32, .f32⟩ : BufTy).Contents (Elt F) → (⟨S50000x32, .f32⟩ : BufTy).Contents (Elt F)),
    binary main_v76 main_v78 main_v79 (addf : (⟨S50000x32, .f32⟩ : BufTy).Contents (Elt F) → (⟨S50000x32, .f32⟩ : BufTy).Contents (Elt F) → (⟨S50000x32, .f32⟩ : BufTy).Contents (Elt F)) ]

/-- Operations 93 … 136 of the reference's @main. -/
abbrev seg3 : List (HloOp τ sig (Elt F)) :=
  [ nullary main_c_10 (constantI S_ 32 0#32),
    unary main_c_10 main_v80 (broadcastInDim S800000 ![] bcast_S_S800000 : (⟨S_, .i32⟩ : BufTy).Contents (Elt F) → (⟨S800000, .i32⟩ : BufTy).Contents (Elt F)),
    binary main_v1 main_v80 main_v81 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v82 (broadcastInDim S800000 ![] bcast_S_S800000 : (⟨S_, .i32⟩ : BufTy).Contents (Elt F) → (⟨S800000, .i32⟩ : BufTy).Contents (Elt F)),
    binary main_v1 main_v82 main_v83 (addi : (⟨S800000, .i32⟩ : BufTy).Contents (Elt F) → (⟨S800000, .i32⟩ : BufTy).Contents (Elt F) → (⟨S800000, .i32⟩ : BufTy).Contents (Elt F)),
    ternary main_v81 main_v83 main_v1 main_v84 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v84 main_v85 (broadcastInDim S800000x1 ![0] bcast_S800000_S800000x1_0 : (⟨S800000, .i32⟩ : BufTy).Contents (Elt F) → (⟨S800000x1, .i32⟩ : BufTy).Contents (Elt F)),
    binary main_v79 main_v85 main_v86 ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)),
    nullary main_cst_12 (constant S_ .f32 0x00000000#32),
    unary main_cst_12 main_v87 (broadcastInDim S50000x32 ![] bcast_S_S50000x32 : (⟨S_, .f32⟩ : BufTy).Contents (Elt F) → (⟨S50000x32, .f32⟩ : BufTy).Contents (Elt F)),
    unary main_v3 main_v88 (broadcastInDim S800000x1 ![0] bcast_S800000_S800000x1_0 : (⟨S800000, .i32⟩ : BufTy).Contents (Elt F) → (⟨S800000x1, .i32⟩ : BufTy).Contents (Elt F)),
    ternary main_v87 main_v88 main_v86 main_v89 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    binary main_v79 main_v89 main_v90 (addf : (⟨S50000x32, .f32⟩ : BufTy).Contents (Elt F) → (⟨S50000x32, .f32⟩ : BufTy).Contents (Elt F) → (⟨S50000x32, .f32⟩ : BufTy).Contents (Elt F)),
    binary main_v90 main_arg10 main_v91 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_arg11 main_v92 (broadcastInDim S1x32 ![1] bcast_S32_S1x32_1 : (⟨S32, .f32⟩ : BufTy).Contents (Elt F) → (⟨S1x32, .f32⟩ : BufTy).Contents (Elt F)),
    unary main_v92 main_v93 (broadcastInDim S50000x32 ![0, 1] bcast_S1x32_S50000x32_0_1 : (⟨S1x32, .f32⟩ : BufTy).Contents (Elt F) → (⟨S50000x32, .f32⟩ : BufTy).Contents (Elt F)),
    binary main_v91 main_v93 main_v94 (addf : (⟨S50000x32, .f32⟩ : BufTy).Contents (Elt F) → (⟨S50000x32, .f32⟩ : BufTy).Contents (Elt F) → (⟨S50000x32, .f32⟩ : BufTy).Contents (Elt F)),
    nullary main_cst_13 (constant S_ .f32 0x00000000#32),
    unary main_cst_13 main_v95 (broadcastInDim S50000x32 ![] bcast_S_S50000x32 : (⟨S_, .f32⟩ : BufTy).Contents (Elt F) → (⟨S50000x32, .f32⟩ : BufTy).Contents (Elt F)),
    binary main_v94 main_v95 main_v96 (maximumf : (⟨S50000x32, .f32⟩ : BufTy).Contents (Elt F) → (⟨S50000x32, .f32⟩ : BufTy).Contents (Elt F) → (⟨S50000x32, .f32⟩ : BufTy).Contents (Elt F)),
    binary main_v96 main_arg12 main_v97 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_arg13 main_v98 (broadcastInDim S1x32 ![1] bcast_S32_S1x32_1 : (⟨S32, .f32⟩ : BufTy).Contents (Elt F) → (⟨S1x32, .f32⟩ : BufTy).Contents (Elt F)),
    unary main_v98 main_v99 (broadcastInDim S50000x32 ![0, 1] bcast_S1x32_S50000x32_0_1 : (⟨S1x32, .f32⟩ : BufTy).Contents (Elt F) → (⟨S50000x32, .f32⟩ : BufTy).Contents (Elt F)),
    binary main_v97 main_v99 main_v100 (addf : (⟨S50000x32, .f32⟩ : BufTy).Contents (Elt F) → (⟨S50000x32, .f32⟩ : BufTy).Contents (Elt F) → (⟨S50000x32, .f32⟩ : BufTy).Contents (Elt F)),
    nullary main_cst_14 (constant S_ .f32 0x00000000#32),
    unary main_cst_14 main_v101 (broadcastInDim S50000x32 ![] bcast_S_S50000x32 : (⟨S_, .f32⟩ : BufTy).Contents (Elt F) → (⟨S50000x32, .f32⟩ : BufTy).Contents (Elt F)),
    binary main_v100 main_v101 main_v102 (maximumf : (⟨S50000x32, .f32⟩ : BufTy).Contents (Elt F) → (⟨S50000x32, .f32⟩ : BufTy).Contents (Elt F) → (⟨S50000x32, .f32⟩ : BufTy).Contents (Elt F)),
    unary main_arg24 main_v103 (broadcastInDim S1x32 ![1] bcast_S32_S1x32_1 : (⟨S32, .f32⟩ : BufTy).Contents (Elt F) → (⟨S1x32, .f32⟩ : BufTy).Contents (Elt F)),
    unary main_v103 main_v104 (broadcastInDim S50000x32 ![0, 1] bcast_S1x32_S50000x32_0_1 : (⟨S1x32, .f32⟩ : BufTy).Contents (Elt F) → (⟨S50000x32, .f32⟩ : BufTy).Contents (Elt F)),
    binary main_v102 main_v104 main_v105 (subf : (⟨S50000x32, .f32⟩ : BufTy).Contents (Elt F) → (⟨S50000x32, .f32⟩ : BufTy).Contents (Elt F) → (⟨S50000x32, .f32⟩ : BufTy).Contents (Elt F)),
    nullary main_cst_15 (constant S_ .f32 0x3727C5AC#32),
    unary main_cst_15 main_v106 (broadcastInDim S32 ![] bcast_S_S32 : (⟨S_, .f32⟩ : BufTy).Contents (Elt F) → (⟨S32, .f32⟩ : BufTy).Contents (Elt F)),
    binary main_arg25 main_v106 main_v107 (addf : (⟨S32, .f32⟩ : BufTy).Contents (Elt F) → (⟨S32, .f32⟩ : BufTy).Contents (Elt F) → (⟨S32, .f32⟩ : BufTy).Contents (Elt F)),
    unary main_v107 main_v108 (Host.rsqrt : (⟨S32, .f32⟩ : BufTy).Contents (Elt F) → (⟨S32, .f32⟩ : BufTy).Contents (Elt F)),
    unary main_v108 main_v109 (broadcastInDim S1x32 ![1] bcast_S32_S1x32_1 : (⟨S32, .f32⟩ : BufTy).Contents (Elt F) → (⟨S1x32, .f32⟩ : BufTy).Contents (Elt F)),
    unary main_v109 main_v110 (broadcastInDim S50000x32 ![0, 1] bcast_S1x32_S50000x32_0_1 : (⟨S1x32, .f32⟩ : BufTy).Contents (Elt F) → (⟨S50000x32, .f32⟩ : BufTy).Contents (Elt F)),
    binary main_v105 main_v110 main_v111 (mulf : (⟨S50000x32, .f32⟩ : BufTy).Contents (Elt F) → (⟨S50000x32, .f32⟩ : BufTy).Contents (Elt F) → (⟨S50000x32, .f32⟩ : BufTy).Contents (Elt F)),
    unary main_arg22 main_v112 (broadcastInDim S1x32 ![1] bcast_S32_S1x32_1 : (⟨S32, .f32⟩ : BufTy).Contents (Elt F) → (⟨S1x32, .f32⟩ : BufTy).Contents (Elt F)),
    unary main_v112 main_v113 (broadcastInDim S50000x32 ![0, 1] bcast_S1x32_S50000x32_0_1 : (⟨S1x32, .f32⟩ : BufTy).Contents (Elt F) → (⟨S50000x32, .f32⟩ : BufTy).Contents (Elt F)),
    binary main_v111 main_v113 main_v114 (mulf : (⟨S50000x32, .f32⟩ : BufTy).Contents (Elt F) → (⟨S50000x32, .f32⟩ : BufTy).Contents (Elt F) → (⟨S50000x32, .f32⟩ : BufTy).Contents (Elt F)),
    unary main_arg23 main_v115 (broadcastInDim S1x32 ![1] bcast_S32_S1x32_1 : (⟨S32, .f32⟩ : BufTy).Contents (Elt F) → (⟨S1x32, .f32⟩ : BufTy).Contents (Elt F)),
    unary main_v115 main_v116 (broadcastInDim S50000x32 ![0, 1] bcast_S1x32_S50000x32_0_1 : (⟨S1x32, .f32⟩ : BufTy).Contents (Elt F) → (⟨S50000x32, .f32⟩ : BufTy).Contents (Elt F)),
    binary main_v114 main_v116 main_v117 (addf : (⟨S50000x32, .f32⟩ : BufTy).Contents (Elt F) → (⟨S50000x32, .f32⟩ : BufTy).Contents (Elt F) → (⟨S50000x32, .f32⟩ : BufTy).Contents (Elt F)) ]

/-- Operations 137 … 162 of the reference's @main. -/
abbrev seg4 : List (HloOp τ sig (Elt F)) :=
  [ binary main_v117 main_arg26 main_v118 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_arg27 main_v119 (broadcastInDim S1x32 ![1] bcast_S32_S1x32_1 : (⟨S32, .f32⟩ : BufTy).Contents (Elt F) → (⟨S1x32, .f32⟩ : BufTy).Contents (Elt F)),
    unary main_v119 main_v120 (broadcastInDim S50000x32 ![0, 1] bcast_S1x32_S50000x32_0_1 : (⟨S1x32, .f32⟩ : BufTy).Contents (Elt F) → (⟨S50000x32, .f32⟩ : BufTy).Contents (Elt F)),
    binary main_v118 main_v120 main_v121 (addf : (⟨S50000x32, .f32⟩ : BufTy).Contents (Elt F) → (⟨S50000x32, .f32⟩ : BufTy).Contents (Elt F) → (⟨S50000x32, .f32⟩ : BufTy).Contents (Elt F)),
    nullary main_cst_16 (constant S_ .f32 0x00000000#32),
    unary main_cst_16 main_v122 (broadcastInDim S50000x32 ![] bcast_S_S50000x32 : (⟨S_, .f32⟩ : BufTy).Contents (Elt F) → (⟨S50000x32, .f32⟩ : BufTy).Contents (Elt F)),
    binary main_v121 main_v122 main_v123 (maximumf : (⟨S50000x32, .f32⟩ : BufTy).Contents (Elt F) → (⟨S50000x32, .f32⟩ : BufTy).Contents (Elt F) → (⟨S50000x32, .f32⟩ : BufTy).Contents (Elt F)),
    binary main_v123 main_arg28 main_v124 ((fun l r => Host.dotGeneral dot_S50000x32_S32x10_S50000x10_1_0_0_1_n_n none l r) : (⟨S50000x32, .f32⟩ : BufTy).Contents (Elt F) → (⟨S32x10, .f32⟩ : BufTy).Contents (Elt F) → (⟨S50000x10, .f32⟩ : BufTy).Contents (Elt F)),
    unary main_arg29 main_v125 (broadcastInDim S1x10 ![1] bcast_S10_S1x10_1 : (⟨S10, .f32⟩ : BufTy).Contents (Elt F) → (⟨S1x10, .f32⟩ : BufTy).Contents (Elt F)),
    unary main_v125 main_v126 (broadcastInDim S50000x10 ![0, 1] bcast_S1x10_S50000x10_0_1 : (⟨S1x10, .f32⟩ : BufTy).Contents (Elt F) → (⟨S50000x10, .f32⟩ : BufTy).Contents (Elt F)),
    binary main_v124 main_v126 main_v127 (addf : (⟨S50000x10, .f32⟩ : BufTy).Contents (Elt F) → (⟨S50000x10, .f32⟩ : BufTy).Contents (Elt F) → (⟨S50000x10, .f32⟩ : BufTy).Contents (Elt F)),
    TRef.nullary (TRef.of (T := ⟨S_, .f32⟩) main_call0_cst) (constant S_ .f32 0xFF800000#32),
    TRef.binary (TRef.of (T := ⟨S50000x10, .f32⟩) main_v127) (TRef.of (T := ⟨S_, .f32⟩) main_call0_cst) (TRef.of (T := ⟨S50000, .f32⟩) main_call0_v0) (fun x v => Host.reduce FloatOps.maximumf x v reducesTo_S50000x10_S50000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_call0_v0) (TRef.of (T := ⟨S50000, .f32⟩) main_call0_v2) maximumf,
    TRef.unary (TRef.of (T := ⟨S50000, .f32⟩) main_call0_v2) (TRef.of (T := ⟨S50000x1, .f32⟩) main_call0_v3) (broadcastInDim S50000x1 ![0] bcast_S50000_S50000x1_0),
    TRef.unary (TRef.of (T := ⟨S50000x1, .f32⟩) main_call0_v3) (TRef.of (T := ⟨S50000x10, .f32⟩) main_call0_v4) (broadcastInDim S50000x10 ![0, 1] bcast_S50000x1_S50000x10_0_1),
    TRef.binary (TRef.of (T := ⟨S50000x10, .f32⟩) main_v127) (TRef.of (T := ⟨S50000x10, .f32⟩) main_call0_v4) (TRef.of (T := ⟨S50000x10, .f32⟩) main_call0_v5) subf,
    TRef.unary (TRef.of (T := ⟨S50000x10, .f32⟩) main_call0_v5) (TRef.of (T := ⟨S50000x10, .f32⟩) main_call0_v6) Host.exp,
    TRef.nullary (TRef.of (T := ⟨S_, .f32⟩) main_call0_cst_1) (constant S_ .f32 0x00000000#32),
    TRef.binary (TRef.of (T := ⟨S50000x10, .f32⟩) main_call0_v6) (TRef.of (T := ⟨S_, .f32⟩) main_call0_cst_1) (TRef.of (T := ⟨S50000, .f32⟩) main_call0_v7) (fun x v => Host.reduceAdd x v reducesTo_S50000x10_S50000_d1 h_S_),
    TRef.unary (TRef.of (T := ⟨S50000, .f32⟩) main_call0_v7) (TRef.of (T := ⟨S50000x1, .f32⟩) main_call0_v8) (broadcastInDim S50000x1 ![0] bcast_S50000_S50000x1_0),
    TRef.unary (TRef.of (T := ⟨S50000x1, .f32⟩) main_call0_v8) (TRef.of (T := ⟨S50000x1, .f32⟩) main_call0_v9) Host.log,
    TRef.unary (TRef.of (T := ⟨S50000x1, .f32⟩) main_call0_v9) (TRef.of (T := ⟨S50000x10, .f32⟩) main_call0_v10) (broadcastInDim S50000x10 ![0, 1] bcast_S50000x1_S50000x10_0_1),
    TRef.binary (TRef.of (T := ⟨S50000x10, .f32⟩) main_call0_v5) (TRef.of (T := ⟨S50000x10, .f32⟩) main_call0_v10) (TRef.of (T := ⟨S50000x10, .f32⟩) main_v128) subf ]

theorem ops_split : (ops : List (HloOp τ sig (Elt F))) = seg1 ++ (seg2 ++ (seg3 ++ seg4)) := rfl

end AnyFloat

/-- The edge list at the ideal instance. -/
abbrev Edges := (⟨S2x800000, .i32⟩ : BufTy).Contents (Elt Ideal)

/-- The first layer in the host's spelling. -/
def layerR128 (x : (⟨S50000x128, .f32⟩ : BufTy).Contents (Elt Ideal)) (e : Edges) (Wa : (⟨S128x32, .f32⟩ : BufTy).Contents (Elt Ideal)) (ba : (⟨S32, .f32⟩ : BufTy).Contents (Elt Ideal))
    (Wb : (⟨S32x32, .f32⟩ : BufTy).Contents (Elt Ideal)) (bb g be mu v : (⟨S32, .f32⟩ : BufTy).Contents (Elt Ideal)) : (⟨S50000x32, .f32⟩ : BufTy).Contents (Elt Ideal) :=
  layerH (A := 50000) (K := 128) (H := 32) (M := 32) dot_S50000x128_S128x32_S50000x32_1_0_0_1_n_n dot_S50000x32_S32x32_S50000x32_1_0_0_1_n_n
    bcast_S32_S1x32_1 bcast_S1x32_S50000x32_0_1 bcast_S_S50000x32 bcast_S32_S1x32_1 bcast_S1x32_S50000x32_0_1 bcast_S_S50000x32 bcast_S_S32
    (addf (F := Ideal) x (agg128 (F := Ideal) x e)) Wa ba Wb bb g be mu v

/-- A later layer in the host's spelling. -/
def layerR32 (x : (⟨S50000x32, .f32⟩ : BufTy).Contents (Elt Ideal)) (e : Edges) (Wa : (⟨S32x32, .f32⟩ : BufTy).Contents (Elt Ideal)) (ba : (⟨S32, .f32⟩ : BufTy).Contents (Elt Ideal))
    (Wb : (⟨S32x32, .f32⟩ : BufTy).Contents (Elt Ideal)) (bb g be mu v : (⟨S32, .f32⟩ : BufTy).Contents (Elt Ideal)) : (⟨S50000x32, .f32⟩ : BufTy).Contents (Elt Ideal) :=
  layerH (A := 50000) (K := 32) (H := 32) (M := 32) dot_S50000x32_S32x32_S50000x32_1_0_0_1_n_n dot_S50000x32_S32x32_S50000x32_1_0_0_1_n_n
    bcast_S32_S1x32_1 bcast_S1x32_S50000x32_0_1 bcast_S_S50000x32 bcast_S32_S1x32_1 bcast_S1x32_S50000x32_0_1 bcast_S_S50000x32 bcast_S_S32
    (addf (F := Ideal) x (agg32 (F := Ideal) x e)) Wa ba Wb bb g be mu v

/-- The head in the host's spelling. -/
def headR (x : (⟨S50000x32, .f32⟩ : BufTy).Contents (Elt Ideal)) (W1 : (⟨S32x32, .f32⟩ : BufTy).Contents (Elt Ideal)) (b1 : (⟨S32, .f32⟩ : BufTy).Contents (Elt Ideal))
    (W2 : (⟨S32x10, .f32⟩ : BufTy).Contents (Elt Ideal)) (b2 : (⟨S10, .f32⟩ : BufTy).Contents (Elt Ideal)) : (⟨S50000x10, .f32⟩ : BufTy).Contents (Elt Ideal) :=
  headH (A := 50000) (K := 32) (H := 32) (C := 10) dot_S50000x32_S32x32_S50000x32_1_0_0_1_n_n dot_S50000x32_S32x10_S50000x10_1_0_0_1_n_n
    bcast_S32_S1x32_1 bcast_S1x32_S50000x32_0_1 bcast_S_S50000x32 bcast_S10_S1x10_1 bcast_S1x10_S50000x10_0_1
    reducesTo_S50000x10_S50000_d1 h_S_ bcast_S_S50000 bcast_S50000_S50000x1_0 bcast_S50000x1_S50000x10_0_1 x W1 b1 W2 b2

variable (m : (ℓ : Loc nD τ sig) → Buf (Elt Ideal) ℓ) (c : Dev nD)

set_option quotPrecheck false in
local notation "𝔞" n => m ((c.tc : Thread nD τ).loc n)

/-- The three layers' outputs. -/
def l1 : (⟨S50000x32, .f32⟩ : BufTy).Contents (Elt Ideal) :=
  layerR128 (𝔞 main_arg0) (𝔞 main_arg1) (𝔞 main_arg2) (𝔞 main_arg3) (𝔞 main_arg4) (𝔞 main_arg5) (𝔞 main_arg14) (𝔞 main_arg15) (𝔞 main_arg16) (𝔞 main_arg17)
def l2 : (⟨S50000x32, .f32⟩ : BufTy).Contents (Elt Ideal) :=
  layerR32 (l1 m c) (𝔞 main_arg1) (𝔞 main_arg6) (𝔞 main_arg7) (𝔞 main_arg8) (𝔞 main_arg9) (𝔞 main_arg18) (𝔞 main_arg19) (𝔞 main_arg20) (𝔞 main_arg21)
def l3 : (⟨S50000x32, .f32⟩ : BufTy).Contents (Elt Ideal) :=
  layerR32 (l2 m c) (𝔞 main_arg1) (𝔞 main_arg10) (𝔞 main_arg11) (𝔞 main_arg12) (𝔞 main_arg13) (𝔞 main_arg22) (𝔞 main_arg23) (𝔞 main_arg24) (𝔞 main_arg25)

/-- The buffers' contents after each part. -/
def R1 : Valuation τ sig (Elt Ideal) := after (seg1 (F := Ideal)) (launchContents m c)
def R2 : Valuation τ sig (Elt Ideal) := after (seg2 (F := Ideal)) (R1 m c)
def R3 : Valuation τ sig (Elt Ideal) := after (seg3 (F := Ideal)) (R2 m c)
def R4 : Valuation τ sig (Elt Ideal) := after (seg4 (F := Ideal)) (R3 m c)

theorem after_ops : after (ops : List (HloOp τ sig (Elt Ideal))) (launchContents m c) = R4 m c := by
  unfold R4 R3 R2 R1
  rw [ops_split (F := Ideal), StableHlo.after_append, StableHlo.after_append, StableHlo.after_append]

/-! ## After the first layer's operations -/

theorem R1_v41 : R1 m c (Proc.devRef .tc main_v41) = l1 m c := by
  show after (seg1 (F := Ideal)) (launchContents m c) (Proc.devRef .tc main_v41) = _
  simp only [seg1]
  after_results_simp <;> rfl
theorem R1_v1 : R1 m c (Proc.devRef .tc main_v1) = srcv (𝔞 main_arg1) := by
  show after (seg1 (F := Ideal)) (launchContents m c) (Proc.devRef .tc main_v1) = _
  simp only [seg1]
  after_results_simp <;> rfl
theorem R1_v3 : R1 m c (Proc.devRef .tc main_v3) = dstv (𝔞 main_arg1) := by
  show after (seg1 (F := Ideal)) (launchContents m c) (Proc.devRef .tc main_v3) = _
  simp only [seg1]
  after_results_simp <;> rfl
theorem R1_arg6 : R1 m c (Proc.devRef .tc main_arg6) = (𝔞 main_arg6) := by
  show after (seg1 (F := Ideal)) (launchContents m c) (Proc.devRef .tc main_arg6) = _
  simp only [seg1]
  after_results_simp <;> rfl
theorem R1_arg7 : R1 m c (Proc.devRef .tc main_arg7) = (𝔞 main_arg7) := by
  show after (seg1 (F := Ideal)) (launchContents m c) (Proc.devRef .tc main_arg7) = _
  simp only [seg1]
  after_results_simp <;> rfl
theorem R1_arg8 : R1 m c (Proc.devRef .tc main_arg8) = (𝔞 main_arg8) := by
  show after (seg1 (F := Ideal)) (launchContents m c) (Proc.devRef .tc main_arg8) = _
  simp only [seg1]
  after_results_simp <;> rfl
theorem R1_arg9 : R1 m c (Proc.devRef .tc main_arg9) = (𝔞 main_arg9) := by
  show after (seg1 (F := Ideal)) (launchContents m c) (Proc.devRef .tc main_arg9) = _
  simp only [seg1]
  after_results_simp <;> rfl
theorem R1_arg18 : R1 m c (Proc.devRef .tc main_arg18) = (𝔞 main_arg18) := by
  show after (seg1 (F := Ideal)) (launchContents m c) (Proc.devRef .tc main_arg18) = _
  simp only [seg1]
  after_results_simp <;> rfl
theorem R1_arg19 : R1 m c (Proc.devRef .tc main_arg19) = (𝔞 main_arg19) := by
  show after (seg1 (F := Ideal)) (launchContents m c) (Proc.devRef .tc main_arg19) = _
  simp only [seg1]
  after_results_simp <;> rfl
theorem R1_arg20 : R1 m c (Proc.devRef .tc main_arg20) = (𝔞 main_arg20) := by
  show after (seg1 (F := Ideal)) (launchContents m c) (Proc.devRef .tc main_arg20) = _
  simp only [seg1]
  after_results_simp <;> rfl
theorem R1_arg21 : R1 m c (Proc.devRef .tc main_arg21) = (𝔞 main_arg21) := by
  show after (seg1 (F := Ideal)) (launchContents m c) (Proc.devRef .tc main_arg21) = _
  simp only [seg1]
  after_results_simp <;> rfl
theorem R1_arg10 : R1 m c (Proc.devRef .tc main_arg10) = (𝔞 main_arg10) := by
  show after (seg1 (F := Ideal)) (launchContents m c) (Proc.devRef .tc main_arg10) = _
  simp only [seg1]
  after_results_simp <;> rfl
theorem R1_arg11 : R1 m c (Proc.devRef .tc main_arg11) = (𝔞 main_arg11) := by
  show after (seg1 (F := Ideal)) (launchContents m c) (Proc.devRef .tc main_arg11) = _
  simp only [seg1]
  after_results_simp <;> rfl
theorem R1_arg12 : R1 m c (Proc.devRef .tc main_arg12) = (𝔞 main_arg12) := by
  show after (seg1 (F := Ideal)) (launchContents m c) (Proc.devRef .tc main_arg12) = _
  simp only [seg1]
  after_results_simp <;> rfl
theorem R1_arg13 : R1 m c (Proc.devRef .tc main_arg13) = (𝔞 main_arg13) := by
  show after (seg1 (F := Ideal)) (launchContents m c) (Proc.devRef .tc main_arg13) = _
  simp only [seg1]
  after_results_simp <;> rfl
theorem R1_arg22 : R1 m c (Proc.devRef .tc main_arg22) = (𝔞 main_arg22) := by
  show after (seg1 (F := Ideal)) (launchContents m c) (Proc.devRef .tc main_arg22) = _
  simp only [seg1]
  after_results_simp <;> rfl
theorem R1_arg23 : R1 m c (Proc.devRef .tc main_arg23) = (𝔞 main_arg23) := by
  show after (seg1 (F := Ideal)) (launchContents m c) (Proc.devRef .tc main_arg23) = _
  simp only [seg1]
  after_results_simp <;> rfl
theorem R1_arg24 : R1 m c (Proc.devRef .tc main_arg24) = (𝔞 main_arg24) := by
  show after (seg1 (F := Ideal)) (launchContents m c) (Proc.devRef .tc main_arg24) = _
  simp only [seg1]
  after_results_simp <;> rfl
theorem R1_arg25 : R1 m c (Proc.devRef .tc main_arg25) = (𝔞 main_arg25) := by
  show after (seg1 (F := Ideal)) (launchContents m c) (Proc.devRef .tc main_arg25) = _
  simp only [seg1]
  after_results_simp <;> rfl
theorem R1_arg26 : R1 m c (Proc.devRef .tc main_arg26) = (𝔞 main_arg26) := by
  show after (seg1 (F := Ideal)) (launchContents m c) (Proc.devRef .tc main_arg26) = _
  simp only [seg1]
  after_results_simp <;> rfl
theorem R1_arg27 : R1 m c (Proc.devRef .tc main_arg27) = (𝔞 main_arg27) := by
  show after (seg1 (F := Ideal)) (launchContents m c) (Proc.devRef .tc main_arg27) = _
  simp only [seg1]
  after_results_simp <;> rfl
theorem R1_arg28 : R1 m c (Proc.devRef .tc main_arg28) = (𝔞 main_arg28) := by
  show after (seg1 (F := Ideal)) (launchContents m c) (Proc.devRef .tc main_arg28) = _
  simp only [seg1]
  after_results_simp <;> rfl
theorem R1_arg29 : R1 m c (Proc.devRef .tc main_arg29) = (𝔞 main_arg29) := by
  show after (seg1 (F := Ideal)) (launchContents m c) (Proc.devRef .tc main_arg29) = _
  simp only [seg1]
  after_results_simp <;> rfl

/-! ## After the second layer's operations -/

theorem R2_v79 : R2 m c (Proc.devRef .tc main_v79) = l2 m c := by
  show after (seg2 (F := Ideal)) (R1 m c) (Proc.devRef .tc main_v79) = _
  simp only [seg2]
  after_results_simp
  rw [R1_v41 m c, R1_v1 m c, R1_v3 m c, R1_arg6 m c, R1_arg7 m c, R1_arg8 m c, R1_arg9 m c, R1_arg18 m c, R1_arg19 m c, R1_arg20 m c, R1_arg21 m c]
  rfl
theorem R2_v1 : R2 m c (Proc.devRef .tc main_v1) = srcv (𝔞 main_arg1) := by
  show after (seg2 (F := Ideal)) (R1 m c) (Proc.devRef .tc main_v1) = _
  simp only [seg2]
  after_results_simp <;> exact R1_v1 m c
theorem R2_v3 : R2 m c (Proc.devRef .tc main_v3) = dstv (𝔞 main_arg1) := by
  show after (seg2 (F := Ideal)) (R1 m c) (Proc.devRef .tc main_v3) = _
  simp only [seg2]
  after_results_simp <;> exact R1_v3 m c
theorem R2_arg10 : R2 m c (Proc.devRef .tc main_arg10) = (𝔞 main_arg10) := by
  show after (seg2 (F := Ideal)) (R1 m c) (Proc.devRef .tc main_arg10) = _
  simp only [seg2]
  after_results_simp <;> exact R1_arg10 m c
theorem R2_arg11 : R2 m c (Proc.devRef .tc main_arg11) = (𝔞 main_arg11) := by
  show after (seg2 (F := Ideal)) (R1 m c) (Proc.devRef .tc main_arg11) = _
  simp only [seg2]
  after_results_simp <;> exact R1_arg11 m c
theorem R2_arg12 : R2 m c (Proc.devRef .tc main_arg12) = (𝔞 main_arg12) := by
  show after (seg2 (F := Ideal)) (R1 m c) (Proc.devRef .tc main_arg12) = _
  simp only [seg2]
  after_results_simp <;> exact R1_arg12 m c
theorem R2_arg13 : R2 m c (Proc.devRef .tc main_arg13) = (𝔞 main_arg13) := by
  show after (seg2 (F := Ideal)) (R1 m c) (Proc.devRef .tc main_arg13) = _
  simp only [seg2]
  after_results_simp <;> exact R1_arg13 m c
theorem R2_arg22 : R2 m c (Proc.devRef .tc main_arg22) = (𝔞 main_arg22) := by
  show after (seg2 (F := Ideal)) (R1 m c) (Proc.devRef .tc main_arg22) = _
  simp only [seg2]
  after_results_simp <;> exact R1_arg22 m c
theorem R2_arg23 : R2 m c (Proc.devRef .tc main_arg23) = (𝔞 main_arg23) := by
  show after (seg2 (F := Ideal)) (R1 m c) (Proc.devRef .tc main_arg23) = _
  simp only [seg2]
  after_results_simp <;> exact R1_arg23 m c
theorem R2_arg24 : R2 m c (Proc.devRef .tc main_arg24) = (𝔞 main_arg24) := by
  show after (seg2 (F := Ideal)) (R1 m c) (Proc.devRef .tc main_arg24) = _
  simp only [seg2]
  after_results_simp <;> exact R1_arg24 m c
theorem R2_arg25 : R2 m c (Proc.devRef .tc main_arg25) = (𝔞 main_arg25) := by
  show after (seg2 (F := Ideal)) (R1 m c) (Proc.devRef .tc main_arg25) = _
  simp only [seg2]
  after_results_simp <;> exact R1_arg25 m c
theorem R2_arg26 : R2 m c (Proc.devRef .tc main_arg26) = (𝔞 main_arg26) := by
  show after (seg2 (F := Ideal)) (R1 m c) (Proc.devRef .tc main_arg26) = _
  simp only [seg2]
  after_results_simp <;> exact R1_arg26 m c
theorem R2_arg27 : R2 m c (Proc.devRef .tc main_arg27) = (𝔞 main_arg27) := by
  show after (seg2 (F := Ideal)) (R1 m c) (Proc.devRef .tc main_arg27) = _
  simp only [seg2]
  after_results_simp <;> exact R1_arg27 m c
theorem R2_arg28 : R2 m c (Proc.devRef .tc main_arg28) = (𝔞 main_arg28) := by
  show after (seg2 (F := Ideal)) (R1 m c) (Proc.devRef .tc main_arg28) = _
  simp only [seg2]
  after_results_simp <;> exact R1_arg28 m c
theorem R2_arg29 : R2 m c (Proc.devRef .tc main_arg29) = (𝔞 main_arg29) := by
  show after (seg2 (F := Ideal)) (R1 m c) (Proc.devRef .tc main_arg29) = _
  simp only [seg2]
  after_results_simp <;> exact R1_arg29 m c

/-! ## After the third layer's operations -/

theorem R3_v117 : R3 m c (Proc.devRef .tc main_v117) = l3 m c := by
  show after (seg3 (F := Ideal)) (R2 m c) (Proc.devRef .tc main_v117) = _
  simp only [seg3]
  after_results_simp
  rw [R2_v79 m c, R2_v1 m c, R2_v3 m c, R2_arg10 m c, R2_arg11 m c, R2_arg12 m c, R2_arg13 m c, R2_arg22 m c, R2_arg23 m c, R2_arg24 m c, R2_arg25 m c]
  rfl
theorem R3_arg26 : R3 m c (Proc.devRef .tc main_arg26) = (𝔞 main_arg26) := by
  show after (seg3 (F := Ideal)) (R2 m c) (Proc.devRef .tc main_arg26) = _
  simp only [seg3]
  after_results_simp <;> exact R2_arg26 m c
theorem R3_arg27 : R3 m c (Proc.devRef .tc main_arg27) = (𝔞 main_arg27) := by
  show after (seg3 (F := Ideal)) (R2 m c) (Proc.devRef .tc main_arg27) = _
  simp only [seg3]
  after_results_simp <;> exact R2_arg27 m c
theorem R3_arg28 : R3 m c (Proc.devRef .tc main_arg28) = (𝔞 main_arg28) := by
  show after (seg3 (F := Ideal)) (R2 m c) (Proc.devRef .tc main_arg28) = _
  simp only [seg3]
  after_results_simp <;> exact R2_arg28 m c
theorem R3_arg29 : R3 m c (Proc.devRef .tc main_arg29) = (𝔞 main_arg29) := by
  show after (seg3 (F := Ideal)) (R2 m c) (Proc.devRef .tc main_arg29) = _
  simp only [seg3]
  after_results_simp <;> exact R2_arg29 m c

/-! ## After the head's operations -/

theorem R4_v128 : R4 m c (Proc.devRef .tc main_v128) = headR (l3 m c) (𝔞 main_arg26) (𝔞 main_arg27) (𝔞 main_arg28) (𝔞 main_arg29) := by
  show after (seg4 (F := Ideal)) (R3 m c) (Proc.devRef .tc main_v128) = _
  simp only [seg4]
  after_results_simp
  simp only [TRef.ofBuf, TRef.toBuf, cast_cast, cast_eq]
  rw [R3_v117 m c, R3_arg26 m c, R3_arg27 m c, R3_arg28 m c, R3_arg29 m c]
  rfl

/-- The result buffer after the whole line. -/
theorem result_read : after (ops : List (HloOp τ sig (Elt Ideal))) (launchContents m c) (Proc.devRef .tc main_v128)
    = headR (l3 m c) (𝔞 main_arg26) (𝔞 main_arg27) (𝔞 main_arg28) (𝔞 main_arg29) := by
  rw [after_ops]; exact R4_v128 m c

theorem ht : FTy.bf16.bits < FTy.f32.bits := by decide

/-- The first layer is the layer function at the reference's neighbour sums. -/
theorem layerR128_eq (x : (⟨S50000x128, .f32⟩ : BufTy).Contents (Elt Ideal)) (e : Edges) (Wa : (⟨S128x32, .f32⟩ : BufTy).Contents (Elt Ideal)) (ba : (⟨S32, .f32⟩ : BufTy).Contents (Elt Ideal))
    (Wb : (⟨S32x32, .f32⟩ : BufTy).Contents (Elt Ideal)) (bb g be mu v : (⟨S32, .f32⟩ : BufTy).Contents (Elt Ideal))
    (hc : S32.ShapeCasts S1x32) :
    layerR128 x e Wa ba Wb bb g be mu v
      = layerV (A := 50000) (K := 128) (H := 32) (M := 32) x (agg128 (F := Ideal) x e) (truncf .bf16 Wa ht) (shapeCast S1x32 ba hc)
          (truncf .bf16 Wb ht) (shapeCast S1x32 bb hc) (shapeCast S1x32 g hc) (shapeCast S1x32 be hc) (shapeCast S1x32 mu hc)
          (shapeCast S1x32 v hc) :=
  layerH_eq rfl rfl _ _ _ _ _ _ _ ht hc hc _ _ _ _ _ _ _ _ _

theorem layerR32_eq (x : (⟨S50000x32, .f32⟩ : BufTy).Contents (Elt Ideal)) (e : Edges) (Wa : (⟨S32x32, .f32⟩ : BufTy).Contents (Elt Ideal)) (ba : (⟨S32, .f32⟩ : BufTy).Contents (Elt Ideal))
    (Wb : (⟨S32x32, .f32⟩ : BufTy).Contents (Elt Ideal)) (bb g be mu v : (⟨S32, .f32⟩ : BufTy).Contents (Elt Ideal))
    (hc : S32.ShapeCasts S1x32) :
    layerR32 x e Wa ba Wb bb g be mu v
      = layerV (A := 50000) (K := 32) (H := 32) (M := 32) x (agg32 (F := Ideal) x e) (truncf .bf16 Wa ht) (shapeCast S1x32 ba hc)
          (truncf .bf16 Wb ht) (shapeCast S1x32 bb hc) (shapeCast S1x32 g hc) (shapeCast S1x32 be hc) (shapeCast S1x32 mu hc)
          (shapeCast S1x32 v hc) :=
  layerH_eq rfl rfl _ _ _ _ _ _ _ ht hc hc _ _ _ _ _ _ _ _ _

theorem headR_eq (x : (⟨S50000x32, .f32⟩ : BufTy).Contents (Elt Ideal)) (W1 : (⟨S32x32, .f32⟩ : BufTy).Contents (Elt Ideal)) (b1 : (⟨S32, .f32⟩ : BufTy).Contents (Elt Ideal))
    (W2 : (⟨S32x10, .f32⟩ : BufTy).Contents (Elt Ideal)) (b2 : (⟨S10, .f32⟩ : BufTy).Contents (Elt Ideal)) (hc1 : S32.ShapeCasts S1x32) (hc2 : S10.ShapeCasts S1x10) :
    headR x W1 b1 W2 b2
      = headV (A := 50000) (K := 32) (H := 32) (C := 10) x (truncf .bf16 W1 ht) (shapeCast S1x32 b1 hc1) (truncf .bf16 W2 ht)
          (shapeCast S1x10 b2 hc2) :=
  headH_eq rfl rfl _ _ _ _ _ _ _ (by decide) _ _ _ ht hc1 hc2 _ _ _ _ _

/-- The three layers and the head in the host's spelling are the network function of the arguments, at the reference's
    neighbour sums. -/
theorem value_net (hc1 : S32.ShapeCasts S1x32) (hc2 : S10.ShapeCasts S1x10) :
    headR (l3 m c) (𝔞 main_arg26) (𝔞 main_arg27) (𝔞 main_arg28) (𝔞 main_arg29)
    = Cert.GinNet.net (agg128 (F := Ideal)) (agg32 (F := Ideal)) (𝔞 main_arg0) (𝔞 main_arg1)
        (truncf .bf16 (𝔞 main_arg2) ht) (shapeCast S1x32 (𝔞 main_arg3) hc1) (truncf .bf16 (𝔞 main_arg4) ht) (shapeCast S1x32 (𝔞 main_arg5) hc1)
        (truncf .bf16 (𝔞 main_arg6) ht) (shapeCast S1x32 (𝔞 main_arg7) hc1) (truncf .bf16 (𝔞 main_arg8) ht) (shapeCast S1x32 (𝔞 main_arg9) hc1)
        (truncf .bf16 (𝔞 main_arg10) ht) (shapeCast S1x32 (𝔞 main_arg11) hc1) (truncf .bf16 (𝔞 main_arg12) ht) (shapeCast S1x32 (𝔞 main_arg13) hc1)
        (shapeCast S1x32 (𝔞 main_arg14) hc1) (shapeCast S1x32 (𝔞 main_arg15) hc1) (shapeCast S1x32 (𝔞 main_arg16) hc1) (shapeCast S1x32 (𝔞 main_arg17) hc1)
        (shapeCast S1x32 (𝔞 main_arg18) hc1) (shapeCast S1x32 (𝔞 main_arg19) hc1) (shapeCast S1x32 (𝔞 main_arg20) hc1) (shapeCast S1x32 (𝔞 main_arg21) hc1)
        (shapeCast S1x32 (𝔞 main_arg22) hc1) (shapeCast S1x32 (𝔞 main_arg23) hc1) (shapeCast S1x32 (𝔞 main_arg24) hc1) (shapeCast S1x32 (𝔞 main_arg25) hc1)
        (truncf .bf16 (𝔞 main_arg26) ht) (shapeCast S1x32 (𝔞 main_arg27) hc1) (truncf .bf16 (𝔞 main_arg28) ht) (shapeCast S1x10 (𝔞 main_arg29) hc2) := by
  unfold l3 l2 l1
  rw [headR_eq _ _ _ _ _ hc1 hc2, layerR32_eq _ _ _ _ _ _ _ _ _ _ hc1, layerR32_eq _ _ _ _ _ _ _ _ _ _ hc1,
    layerR128_eq _ _ _ _ _ _ _ _ _ _ hc1]
  rfl

/-- Every weakly fair execution of the reference terminates with the result buffer at the three layers and the head of
    the arguments. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v128)
        = headR (l3 m c) (m ((c.tc : Thread nD τ).loc main_arg26)) (m ((c.tc : Thread nD τ).loc main_arg27))
            (m ((c.tc : Thread nD τ).loc main_arg28)) (m ((c.tc : Thread nD τ).loc main_arg29)) :=
  (θ_run defs _ _).mono (fun _ h c => (h c main_v128).trans (result_read m c))
    (run_seq scopedRefs_eq scopedSems_eq defs main (fun _ => ops) main_eq (fun _ => ops_sub) m ρ)

end Cert.ReferenceIdeal.RefValue

end
-- ==== Proof.lean ====
/-
  The certificate of a three-layer graph-isomorphism network with a classifier head, computed by four row-tiled kernels
  among host gathers and scatter-adds, against its plain reference.

  Both programs compute, on 50000 nodes, three times "add to every node's features the sum of its neighbours' features,
  apply a two-layer rectified perceptron, normalise with running statistics", and then "a rectified dense layer, a dense
  layer, the logarithm of the softmax along each row". The kernel computes each layer and the head ten blocks of 5000 rows
  at a time, with its matrix operands rounded to bf16 (the identity on the extended reals) and the bias and statistics
  vectors recast to rows on the host; the reference computes them on all rows at once, with the vectors lifted by
  broadcasts. The neighbour sums are the same host operations in both programs. Every entry of a layer or of the head
  depends on one row of its inputs only, so the blocks the kernel writes are the rows of the reference's arrays. Beyond the
  definitions of the operations the only laws used are max(−∞, y) = y and 0 + s = s (the host's row maximum and row sum
  against the kernel's lane reductions); no finiteness is needed.

  The three frames are the three programs' frame runs; the ideal pass's ledger is empty; the algebraic claim joins the
  kernel's run, read region by region back to the launch memory, to the reference's run, read layer by layer, both at
  one network function.
-/
import proofs.«162331_j44805098832501_1_alg».proof.Defs
import proofs.«162331_j44805098832501_1_alg».proof.Proof.Gen.Kernel
import proofs.«162331_j44805098832501_1_alg».proof.Proof.Gen.KernelIdeal
import proofs.«162331_j44805098832501_1_alg».proof.Proof.Gen.ReferenceIdeal
import proofs.«162331_j44805098832501_1_alg».proof.Proof.Gen.Pre_finite_inputs
import proofs.«162331_j44805098832501_1_alg».proof.Proof.KernelFrame
import proofs.«162331_j44805098832501_1_alg».proof.Proof.KernelRun
import proofs.«162331_j44805098832501_1_alg».proof.Proof.KernelChain
import proofs.«162331_j44805098832501_1_alg».proof.Proof.RefStages
import Idealize.ShloMosaic.Adequacy
import Idealize.ShloMosaic.Init

set_option maxRecDepth 131072

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame: every argument array ends as launched. -/
theorem frame_ri : Cert.frame_ReferenceIdeal := fun m ρ _ => Cert.ReferenceIdeal.ValueP.run (F := Ideal) m ρ

/-- The ideal pass rewrote nothing. -/
theorem preserves : Cert.preserves_Kernel_KernelIdeal := trivial

/-- The recasts of a bias or statistics vector to a row are legal (two of the kernel's stated facts). -/
theorem hc32 : Cert.KernelIdeal.S32.ShapeCasts Cert.KernelIdeal.S1x32 := by
  exact Cert.KernelIdeal.Facts₀.shapeCasts_S32_S1x32
theorem hc10 : Cert.KernelIdeal.S10.ShapeCasts Cert.KernelIdeal.S1x10 := by
  exact Cert.KernelIdeal.Facts₀.shapeCasts_S10_S1x10

/-- The two programs' neighbour sums are the same host operations. -/
theorem agg128_eq : Cert.ReferenceIdeal.RefValue.agg128 (F := Ideal) = Cert.KernelIdeal.KChain.agg128 (F := Ideal) := rfl
theorem agg32_eq : Cert.ReferenceIdeal.RefValue.agg32 (F := Ideal) = Cert.KernelIdeal.KChain.agg32 (F := Ideal) := rfl

/-- From memories agreeing on the arguments, the kernel's result array and the reference's end equal: both are the
    network function of the arguments. -/
theorem algebraic : Cert.algebraic_KernelIdeal_ReferenceIdeal := by
  intro m ρ m' ρ' _ hagree
  refine ⟨fun c => Cert.KernelIdeal.GenP.W8 m ρ c (Proc.devRef .tc Cert.KernelIdeal.main_v57), Cert.KernelIdeal.KRun.run_named m ρ, ?_⟩
  refine (θ_run Cert.ReferenceIdeal.defs _ _).mono (fun _ h c => ⟨(h.1 c).trans ?_, h.2 c⟩)
    (Idealize.ShloMosaic.Fold.run_and _ _ _ (Cert.ReferenceIdeal.RefValue.run_result m' ρ')
      (Cert.ReferenceIdeal.ValueP.run (F := Ideal) m' ρ'))
  refine (Cert.ReferenceIdeal.RefValue.value_net m' c hc32 hc10).trans
    (Eq.trans ?_ (Cert.KernelIdeal.KChain.W8_v57_net m ρ c).symm)
  obtain ⟨a0, a1, a2, a3, a4, a5, a6, a7, a8, a9, a10, a11, a12, a13, a14, a15, a16, a17, a18, a19, a20, a21, a22, a23, a24, a25, a26, a27, a28, a29⟩ := hagree c
  simp only [a0, a1, a2, a3, a4, a5, a6, a7, a8, a9, a10, a11, a12, a13, a14, a15, a16, a17, a18, a19, a20, a21, a22, a23, a24, a25, a26, a27, a28, a29, agg128_eq, agg32_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
